-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x32x64x64x64 : Shape := ⟨5, ![4, 32, 64, 64, 64]⟩
abbrev S64x32x2x2x2 : Shape := ⟨5, ![64, 32, 2, 2, 2]⟩
abbrev S64 : Shape := ⟨1, ![64]⟩
abbrev S1x1 : Shape := ⟨2, ![1, 1]⟩
abbrev S_ : Shape := ⟨0, ![]⟩

class Facts : Prop where
  bcast_S_S4x32x64x64x64 : S_.BroadcastsInDim S4x32x64x64x64 (![] : Fin 0 → Fin S4x32x64x64x64.rank)
  reducesTo_S4x32x64x64x64_S_d0_1_2_3_4 : S4x32x64x64x64.ReducesTo [0, 1, 2, 3, 4] S_
  h_S_ : 0 < S_.numel
  bcast_S_S64x32x2x2x2 : S_.BroadcastsInDim S64x32x2x2x2 (![] : Fin 0 → Fin S64x32x2x2x2.rank)
  reducesTo_S64x32x2x2x2_S_d0_1_2_3_4 : S64x32x2x2x2.ReducesTo [0, 1, 2, 3, 4] S_
  bcast_S_S64 : S_.BroadcastsInDim S64 (![] : Fin 0 → Fin S64.rank)
  reducesTo_S64_S_d0 : S64.ReducesTo [0] S_
  bcast_S_S1x1 : S_.BroadcastsInDim S1x1 (![] : Fin 0 → Fin S1x1.rank)
  reducesTo_S1x1_S_d0_1 : S1x1.ReducesTo [0, 1] S_

variable [Facts]

def fn_part1 {F : FTy → Type} [FloatOps F] (main_arg4 : FVec F S64 .f32) (main_arg5 : FVec F S1x1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S1x1 .f32 := Host.absf main_arg5
  let main_cst_8 : FVec F S_ .f32 := constant S_ .f32 0x7F800000#32
  let main_v25 : FVec F S1x1 .f32 := broadcastInDim S1x1 ![] bcast_S_S1x1 main_cst_8
  let main_v26 : IVec S1x1 1 := cmpf .olt main_v24 main_v25
  let main_c_9 : IVec S_ 1 := constantI S_ 1 1#1
  let main_v27 : IVec S_ 1 := (fun x v => Host.reduce IntOp.andi x v reducesTo_S1x1_S_d0_1 h_S_) main_v26 main_c_9
  let main_v28 : IVec S_ 1 := andi main_v23 main_v27
  main_v28

def fn {F : FTy → Type} [FloatOps F] (main_arg0 : FVec F S4x32x64x64x64 .f32) (main_arg1 : FVec F S64x32x2x2x2 .f32) (main_arg2 : FVec F S64 .f32) (main_arg3 : FVec F S64 .f32) (main_arg4 : FVec F S64 .f32) (main_arg5 : FVec F S1x1 .f32) : IVec S_ 1 :=
  let main_v0 : FVec F S4x32x64x64x64 .f32 := Host.absf main_arg0
  let main_cst : FVec F S_ .f32 := constant S_ .f32 0x7F800000#32
  let main_v1 : FVec F S4x32x64x64x64 .f32 := broadcastInDim S4x32x64x64x64 ![] bcast_S_S4x32x64x64x64 main_cst
  let main_v2 : IVec S4x32x64x64x64 1 := cmpf .olt main_v0 main_v1
  let main_c : IVec S_ 1 := constantI S_ 1 1#1
  let main_v3 : IVec S_ 1 := (fun x v => Host.reduce IntOp.andi x v reducesTo_S4x32x64x64x64_S_d0_1_2_3_4 h_S_) main_v2 main_c
  let main_v4 : FVec F S64x32x2x2x2 .f32 := Host.absf main_arg1
  let main_cst_0 : FVec F S_ .f32 := constant S_ .f32 0x7F800000#32
  let main_v5 : FVec F S64x32x2x2x2 .f32 := broadcastInDim S64x32x2x2x2 ![] bcast_S_S64x32x2x2x2 main_cst_0
  let main_v6 : IVec S64x32x2x2x2 1 := cmpf .olt main_v4 main_v5
  let main_c_1 : IVec S_ 1 := constantI S_ 1 1#1
  let main_v7 : IVec S_ 1 := (fun x v => Host.reduce IntOp.andi x v reducesTo_S64x32x2x2x2_S_d0_1_2_3_4 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_v13 main_v16
-- ==== Kernel.lean ====
abbrev S4x32x64x64x64 : Shape := ⟨5, ![4, 32, 64, 64, 64]⟩
abbrev S64x32x2x2x2 : Shape := ⟨5, ![64, 32, 2, 2, 2]⟩
abbrev S64 : Shape := ⟨1, ![64]⟩
abbrev S1x1 : Shape := ⟨2, ![1, 1]⟩
abbrev S4x32x32x2x32x2x32x2 : Shape := ⟨8, ![4, 32, 32, 2, 32, 2, 32, 2]⟩
abbrev S4x32x2x2x2x32x32x32 : Shape := ⟨8, ![4, 32, 2, 2, 2, 32, 32, 32]⟩
abbrev S4x256x32768 : Shape := ⟨3, ![4, 256, 32768]⟩
abbrev S64x256 : Shape := ⟨2, ![64, 256]⟩
abbrev S64x1 : Shape := ⟨2, ![64, 1]⟩
abbrev S4x64x32768 : Shape := ⟨3, ![4, 64, 32768]⟩
abbrev S32x64x1 : Shape := ⟨3, ![32, 64, 1]⟩
abbrev S1x256x4096 : Shape := ⟨3, ![1, 256, 4096]⟩
abbrev S1x64x4096 : Shape := ⟨3, ![1, 64, 4096]⟩
abbrev S1x64x1 : Shape := ⟨3, ![1, 64, 1]⟩
abbrev S256x4096 : Shape := ⟨2, ![256, 4096]⟩
abbrev S64x4096 : Shape := ⟨2, ![64, 4096]⟩
abbrev S_ : Shape := ⟨0, ![]⟩
abbrev S4x64x32x32x32 : Shape := ⟨5, ![4, 64, 32, 32, 32]⟩

abbrev nBuf : Space → Nat
  | .hbm => 43
  | .vmem => 17
  | .smem => 0
  | _ => 0

abbrev bufTy : (tb : Table) → Fin (tcTables nBuf tb) → BufTy
  | .hbm, ⟨0, _⟩ => ⟨S4x32x64x64x64, .f32⟩
  | .hbm, ⟨1, _⟩ => ⟨S64x32x2x2x2, .f32⟩
  | .hbm, ⟨2, _⟩ => ⟨S64, .f32⟩
  | .hbm, ⟨3, _⟩ => ⟨S64, .f32⟩
  | .hbm, ⟨4, _⟩ => ⟨S64, .f32⟩
  | .hbm, ⟨5, _⟩ => ⟨S1x1, .f32⟩
  | .hbm, ⟨6, _⟩ => ⟨S4x32x32x2x32x2x32x2, .f32⟩
  | .hbm, ⟨7, _⟩ => ⟨S4x32x2x2x2x32x32x32, .f32⟩
  | .hbm, ⟨8, _⟩ => ⟨S4x256x32768, .f32⟩
  | .hbm, ⟨9, _⟩ => ⟨S4x256x32768, .bf16⟩
  | .hbm, ⟨10, _⟩ => ⟨S64x256, .f32⟩
  | .hbm, ⟨11, _⟩ => ⟨S64x256, .bf16⟩
  | .hbm, ⟨12, _⟩ => ⟨S64x1, .f32⟩
  | .hbm, ⟨13, _⟩ => ⟨S4x64x32768, .f32⟩
  | .hbm, ⟨14, _⟩ => ⟨S32x64x1, .f32⟩
  | .hbm, ⟨15, _⟩ => ⟨S32x64x1, .f32⟩
  | .hbm, ⟨16, _⟩ => ⟨S_, .f32⟩
  | .hbm, ⟨17, _⟩ => ⟨S64, .f32⟩
  | .hbm, ⟨18, _⟩ => ⟨S_, .f32⟩
  | .hbm, ⟨19, _⟩ => ⟨S64, .f32⟩
  | .hbm, ⟨20, _⟩ => ⟨S_, .f32⟩
  | .hbm, ⟨21, _⟩ => ⟨S64, .f32⟩
  | .hbm, ⟨22, _⟩ => ⟨S64, .f32⟩
  | .hbm, ⟨23, _⟩ => ⟨S_, .f32⟩
  | .hbm, ⟨24, _⟩ => ⟨S64, .f32⟩
  | .hbm, ⟨25, _⟩ => ⟨S64, .f32⟩
  | .hbm, ⟨26, _⟩ => ⟨S64, .f32⟩
  | .hbm, ⟨27, _⟩ => ⟨S64, .f32⟩
  | .hbm, ⟨28, _⟩ => ⟨S_, .f32⟩
  | .hbm, ⟨29, _⟩ => ⟨S64, .f32⟩
  | .hbm, ⟨30, _⟩ => ⟨S64, .f32⟩
  | .hbm, ⟨31, _⟩ => ⟨S_, .f32⟩
  | .hbm, ⟨32, _⟩ => ⟨S64, .f32⟩
  | .hbm, ⟨33, _⟩ => ⟨S64, .f32⟩
  | .hbm, ⟨34, _⟩ => ⟨S64, .f32⟩
  | .hbm, ⟨35, _⟩ => ⟨S64, .f32⟩
  | .hbm, ⟨36, _⟩ => ⟨S64x1, .f32⟩
  | .hbm, ⟨37, _⟩ => ⟨S64, .f32⟩
  | .hbm, ⟨38, _⟩ => ⟨S64, .f32⟩
  | .hbm, ⟨39, _⟩ => ⟨S64, .f32⟩
  | .hbm, ⟨40, _⟩ => ⟨S64x1, .f32⟩
  | .hbm, ⟨41, _⟩ => ⟨S4x64x32768, .f32⟩
  | .hbm, ⟨42, _⟩ => ⟨S4x64x32x32x32, .f32⟩
  | .local _ .vmem, ⟨0, _⟩ => ⟨S1x256x4096, .bf16⟩
  | .local _ .vmem, ⟨1, _⟩ => ⟨S1x256x4096, .bf16⟩
  | .local _ .vmem, ⟨2, _⟩ => ⟨S64x256, .bf16⟩
  | .local _ .vmem, ⟨3, _⟩ => ⟨S64x1, .f32⟩
  | .local _ .vmem, ⟨4, _⟩ => ⟨S1x64x4096, .f32⟩
  | .local _ .vmem, ⟨5, _⟩ => ⟨S1x64x4096, .f32⟩
  | .local _ .vmem, ⟨6, _⟩ => ⟨S1x64x1, .f32⟩
  | .local _ .vmem, ⟨7, _⟩ => ⟨S1x64x1, .f32⟩
  | .local _ .vmem, ⟨8, _⟩ => ⟨S1x64x1, .f32⟩
  | .local _ .vmem, ⟨9, _⟩ => ⟨S1x64x1, .f32⟩
  | .local _ .vmem, ⟨10, _⟩ => ⟨S1x64x4096, .f32⟩
  | .local _ .vmem, ⟨11, _⟩ => ⟨S1x64x4096, .f32⟩
  | .local _ .vmem, ⟨12, _⟩ => ⟨S64x1, .f32⟩
  | .local _ .vmem, ⟨13, _⟩ => ⟨S64x1, .f32⟩
  | .local _ .vmem, ⟨14, _⟩ => ⟨S1x1, .f32⟩
  | .local _ .vmem, ⟨15, _⟩ => ⟨S1x64x4096, .f32⟩
  | .local _ .vmem, ⟨16, _⟩ => ⟨S1x64x4096, .f32⟩
  | _, _ => ⟨S4x32x64x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev main_v7_2 : Ref sig .tc := ⟨.hbm, 15, rfl⟩
abbrev main_cst : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_cst_4 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg4_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem4_1 : DmaSem sig := 16

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

abbrev stage0_0 : Fin 2 → Memref sig .tc .vmem S1x256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S64x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S64x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x64x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x64x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x64x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨2, ![4, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 2 → Memref sig .tc .vmem S1x64x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S64x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S64x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S1x64x4096 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

class Facts₀ : Prop where
  shapeCasts_S4x32x64x64x64_S4x32x32x2x32x2x32x2 : S4x32x64x64x64.ShapeCasts S4x32x32x2x32x2x32x2
  transposes_S4x32x32x2x32x2x32x2_S4x32x2x2x2x32x32x32_0_1_3_5_7_2_4_6 : S4x32x32x2x32x2x32x2.Transposes [0, 1, 3, 5, 7, 2, 4, 6] S4x32x2x2x2x32x32x32
  shapeCasts_S4x32x2x2x2x32x32x32_S4x256x32768 : S4x32x2x2x2x32x32x32.ShapeCasts S4x256x32768
  bitsLt_bf16_f32 : FTy.bits .bf16 < FTy.bits .f32
  shapeCasts_S64x32x2x2x2_S64x256 : S64x32x2x2x2.ShapeCasts S64x256
  shapeCasts_S64_S64x1 : S64.ShapeCasts S64x1
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S1x256x4096_S1x256x4096_0_0_0 : ∀ a, (![0, 0, 0] : Fin 3 → Nat) a + S1x256x4096.size a ≤ S1x256x4096.size a
  h_S1x256x4096 : 0 < S1x256x4096.numel
  shapeCasts_S1x256x4096_S256x4096 : S1x256x4096.ShapeCasts S256x4096
  inb_S64x1_S64x1_0_0 : ∀ a, (![0, 0] : Fin 2 → Nat) a + S64x1.size a ≤ S64x1.size a
  h_S64x1 : 0 < S64x1.numel
  shapeCasts_S64x1_S64x1 : S64x1.ShapeCasts S64x1
  broadcasts_S64x1_S64x4096 : S64x1.Broadcasts S64x4096
  inb_S1x64x4096_S1x64x4096_0_0_0 : ∀ a, (![0, 0, 0] : Fin 3 → Nat) a + S1x64x4096.size a ≤ S1x64x4096.size a
  h_S1x64x4096 : 0 < S1x64x4096.numel
  shapeCasts_S1x64x4096_S64x4096 : S1x64x4096.ShapeCasts S64x4096
  shapeCasts_S64x4096_S1x64x4096 : S64x4096.ShapeCasts S1x64x4096
  reduces_S64x4096_S64 : S64x4096.Reduces [1] S64
  inb_S1x64x1_S1x64x1_0_0_0 : ∀ a, (![0, 0, 0] : Fin 3 → Nat) a + S1x64x1.size a ≤ S1x64x1.size a
  h_S1x64x1 : 0 < S1x64x1.numel
  shapeCasts_S1x64x1_S64x1 : S1x64x1.ShapeCasts S64x1
  shapeCasts_S64x1_S1x64x1 : S64x1.ShapeCasts S1x64x1
  reducesTo_S32x64x1_S64_d0_2 : S32x64x1.ReducesTo [0, 2] S64
  h_S_ : 0 < S_.numel
  bcast_S_S64 : S_.BroadcastsInDim S64 (![] : Fin 0 → Fin S64.rank)
  inb_S1x1_S1x1_0_0 : ∀ a, (![0, 0] : Fin 2 → Nat) a + S1x1.size a ≤ S1x1.size a
  h_S1x1 : 0 < S1x1.numel
  broadcasts_S1x1_S64x4096 : S1x1.Broadcasts S64x4096
  shapeCasts_S4x64x32768_S4x64x32x32x32 : S4x64x32768.ShapeCasts S4x64x32x32x32
  dot_S64x256_S256x4096_S64x4096_1_0_0_1_n_n_wf : DotDims.WF S64x256 S256x4096 S64x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x4096.size a ≤ S4x256x32768.size a
  hwx0_0 : ∀ i : grid0.Coords, EltTy.bits .bf16 = 32 ∨ (Rect.block (s := S4x256x32768) S1x256x4096.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x256.size a ≤ S64x256.size a
  hwx0_1 : ∀ i : grid0.Coords, EltTy.bits .bf16 = 32 ∨ (Rect.block (s := S64x256) S64x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x1.size a ≤ S64x1.size a
  hwx0_2 : ∀ i : grid0.Coords, EltTy.bits .f32 = 32 ∨ (Rect.block (s := S64x1) S64x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x64x4096.size a ≤ S4x64x32768.size a
  hwx0_3 : ∀ i : grid0.Coords, EltTy.bits .f32 = 32 ∨ (Rect.block (s := S4x64x32768) S1x64x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x64x1.size a ≤ S32x64x1.size a
  hwx0_4 : ∀ i : grid0.Coords, EltTy.bits .f32 = 32 ∨ (Rect.block (s := S32x64x1) S1x64x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x64x1.size a ≤ S32x64x1.size a
  hwx0_5 : ∀ i : grid0.Coords, EltTy.bits .f32 = 32 ∨ (Rect.block (s := S32x64x1) S1x64x1.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x64x4096.size a ≤ S4x64x32768.size a
  hwx1_0 : ∀ i : grid1.Coords, EltTy.bits .f32 = 32 ∨ (Rect.block (s := S4x64x32768) S1x64x4096.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x1.size a ≤ S64x1.size a
  hwx1_1 : ∀ i : grid1.Coords, EltTy.bits .f32 = 32 ∨ (Rect.block (s := S64x1) S64x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x1.size a ≤ S64x1.size a
  hwx1_2 : ∀ i : grid1.Coords, EltTy.bits .f32 = 32 ∨ (Rect.block (s := S64x1) S64x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1.size a ≤ S1x1.size a
  hwx1_3 : ∀ i : grid1.Coords, EltTy.bits .f32 = 32 ∨ (Rect.block (s := S1x1) S1x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x64x4096.size a ≤ S4x64x32768.size a
  hwx1_4 : ∀ i : grid1.Coords, EltTy.bits .f32 = 32 ∨ (Rect.block (s := S4x64x32768) S1x64x4096.size (cc1_transform_4 i) (hinb1_4 i)).WholeWords (EltTy.packing .f32)

variable [Facts₀]

def dot_S64x256_S256x4096_S64x4096_1_0_0_1_n_n : DotDims S64x256 S256x4096 S64x4096 where
  lhsContracting := [1]
  rhsContracting := [0]
  lhsNonContracting := [0]
  rhsNonContracting := [1]
  lhsBatch := []
  rhsBatch := []
  wf := dot_S64x256_S256x4096_S64x4096_1_0_0_1_n_n_wf

abbrev win0_0 : Pipeline.Window sig grid0 :=
  Pipeline.Window.ofSpec (Memref.whole main_v3) S1x256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S64x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S64x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7_0) S1x64x4096.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v7_1) S1x64x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v7_2) S1x64x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v7_0) S1x64x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v22) S64x1.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v26) S64x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S1x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v27) S1x64x4096.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S4x32x64x64x64 : Shape := ⟨5, ![4, 32, 64, 64, 64]⟩
abbrev S64x32x2x2x2 : Shape := ⟨5, ![64, 32, 2, 2, 2]⟩
abbrev S64 : Shape := ⟨1, ![64]⟩
abbrev S1x1 : Shape := ⟨2, ![1, 1]⟩
abbrev S4x32x32x2x32x2x32x2 : Shape := ⟨8, ![4, 32, 32, 2, 32, 2, 32, 2]⟩
abbrev S4x32x2x2x2x32x32x32 : Shape := ⟨8, ![4, 32, 2, 2, 2, 32, 32, 32]⟩
abbrev S4x256x32768 : Shape := ⟨3, ![4, 256, 32768]⟩
abbrev S64x256 : Shape := ⟨2, ![64, 256]⟩
abbrev S64x1 : Shape := ⟨2, ![64, 1]⟩
abbrev S4x64x32768 : Shape := ⟨3, ![4, 64, 32768]⟩
abbrev S64x64x1 : Shape := ⟨3, ![64, 64, 1]⟩
abbrev S1x256x2048 : Shape := ⟨3, ![1, 256, 2048]⟩
abbrev S1x64x2048 : Shape := ⟨3, ![1, 64, 2048]⟩
abbrev S1x64x1 : Shape := ⟨3, ![1, 64, 1]⟩
abbrev S256x2048 : Shape := ⟨2, ![256, 2048]⟩
abbrev S64x2048 : Shape := ⟨2, ![64, 2048]⟩
abbrev S1x2048 : Shape := ⟨2, ![1, 2048]⟩
abbrev S_ : Shape := ⟨0, ![]⟩
abbrev S4x64x32x32x32 : Shape := ⟨5, ![4, 64, 32, 32, 32]⟩

abbrev nBuf : Space → Nat
  | .hbm => 41
  | .vmem => 17
  | .smem => 0
  | _ => 0

abbrev bufTy : (tb : Table) → Fin (tcTables nBuf tb) → BufTy
  | .hbm, ⟨0, _⟩ => ⟨S4x32x64x64x64, .f32⟩
  | .hbm, ⟨1, _⟩ => ⟨S64x32x2x2x2, .f32⟩
  | .hbm, ⟨2, _⟩ => ⟨S64, .f32⟩
  | .hbm, ⟨3, _⟩ => ⟨S64, .f32⟩
  | .hbm, ⟨4, _⟩ => ⟨S64, .f32⟩
  | .hbm, ⟨5, _⟩ => ⟨S1x1, .f32⟩
  | .hbm, ⟨6, _⟩ => ⟨S4x32x32x2x32x2x32x2, .f32⟩
  | .hbm, ⟨7, _⟩ => ⟨S4x32x2x2x2x32x32x32, .f32⟩
  | .hbm, ⟨8, _⟩ => ⟨S4x256x32768, .f32⟩
  | .hbm, ⟨9, _⟩ => ⟨S64x256, .f32⟩
  | .hbm, ⟨10, _⟩ => ⟨S64x1, .f32⟩
  | .hbm, ⟨11, _⟩ => ⟨S4x64x32768, .f32⟩
  | .hbm, ⟨12, _⟩ => ⟨S64x64x1, .f32⟩
  | .hbm, ⟨13, _⟩ => ⟨S64x64x1, .f32⟩
  | .hbm, ⟨14, _⟩ => ⟨S_, .f32⟩
  | .hbm, ⟨15, _⟩ => ⟨S64, .f32⟩
  | .hbm, ⟨16, _⟩ => ⟨S_, .f32⟩
  | .hbm, ⟨17, _⟩ => ⟨S64, .f32⟩
  | .hbm, ⟨18, _⟩ => ⟨S_, .f32⟩
  | .hbm, ⟨19, _⟩ => ⟨S64, .f32⟩
  | .hbm, ⟨20, _⟩ => ⟨S64, .f32⟩
  | .hbm, ⟨21, _⟩ => ⟨S_, .f32⟩
  | .hbm, ⟨22, _⟩ => ⟨S64, .f32⟩
  | .hbm, ⟨23, _⟩ => ⟨S64, .f32⟩
  | .hbm, ⟨24, _⟩ => ⟨S64, .f32⟩
  | .hbm, ⟨25, _⟩ => ⟨S64, .f32⟩
  | .hbm, ⟨26, _⟩ => ⟨S_, .f32⟩
  | .hbm, ⟨27, _⟩ => ⟨S64, .f32⟩
  | .hbm, ⟨28, _⟩ => ⟨S64, .f32⟩
  | .hbm, ⟨29, _⟩ => ⟨S_, .f32⟩
  | .hbm, ⟨30, _⟩ => ⟨S64, .f32⟩
  | .hbm, ⟨31, _⟩ => ⟨S64, .f32⟩
  | .hbm, ⟨32, _⟩ => ⟨S64, .f32⟩
  | .hbm, ⟨33, _⟩ => ⟨S64, .f32⟩
  | .hbm, ⟨34, _⟩ => ⟨S64x1, .f32⟩
  | .hbm, ⟨35, _⟩ => ⟨S64, .f32⟩
  | .hbm, ⟨36, _⟩ => ⟨S64, .f32⟩
  | .hbm, ⟨37, _⟩ => ⟨S64, .f32⟩
  | .hbm, ⟨38, _⟩ => ⟨S64x1, .f32⟩
  | .hbm, ⟨39, _⟩ => ⟨S4x64x32768, .f32⟩
  | .hbm, ⟨40, _⟩ => ⟨S4x64x32x32x32, .f32⟩
  | .local _ .vmem, ⟨0, _⟩ => ⟨S1x256x2048, .f32⟩
  | .local _ .vmem, ⟨1, _⟩ => ⟨S1x256x2048, .f32⟩
  | .local _ .vmem, ⟨2, _⟩ => ⟨S64x256, .f32⟩
  | .local _ .vmem, ⟨3, _⟩ => ⟨S64x1, .f32⟩
  | .local _ .vmem, ⟨4, _⟩ => ⟨S1x64x2048, .f32⟩
  | .local _ .vmem, ⟨5, _⟩ => ⟨S1x64x2048, .f32⟩
  | .local _ .vmem, ⟨6, _⟩ => ⟨S1x64x1, .f32⟩
  | .local _ .vmem, ⟨7, _⟩ => ⟨S1x64x1, .f32⟩
  | .local _ .vmem, ⟨8, _⟩ => ⟨S1x64x1, .f32⟩
  | .local _ .vmem, ⟨9, _⟩ => ⟨S1x64x1, .f32⟩
  | .local _ .vmem, ⟨10, _⟩ => ⟨S1x64x2048, .f32⟩
  | .local _ .vmem, ⟨11, _⟩ => ⟨S1x64x2048, .f32⟩
  | .local _ .vmem, ⟨12, _⟩ => ⟨S64x1, .f32⟩
  | .local _ .vmem, ⟨13, _⟩ => ⟨S64x1, .f32⟩
  | .local _ .vmem, ⟨14, _⟩ => ⟨S1x1, .f32⟩
  | .local _ .vmem, ⟨15, _⟩ => ⟨S1x64x2048, .f32⟩
  | .local _ .vmem, ⟨16, _⟩ => ⟨S1x64x2048, .f32⟩
  | _, _ => ⟨S4x32x64x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev main_cst : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_3 : Ref sig .tc := ⟨.hbm, 26, rfl⟩
abbrev main_v14 : Ref sig .tc := ⟨.hbm, 27, rfl⟩
abbrev main_v15 : Ref sig .tc := ⟨.hbm, 28, rfl⟩
abbrev main_cst_4 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg4_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem4_1 : DmaSem sig := 16

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S64x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S64x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x64x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x64x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨2, ![4, 16], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 2 → Memref sig .tc .vmem S1x64x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S64x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S64x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S1x64x2048 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

class Facts₀ : Prop where
  shapeCasts_S4x32x64x64x64_S4x32x32x2x32x2x32x2 : S4x32x64x64x64.ShapeCasts S4x32x32x2x32x2x32x2
  transposes_S4x32x32x2x32x2x32x2_S4x32x2x2x2x32x32x32_0_1_3_5_7_2_4_6 : S4x32x32x2x32x2x32x2.Transposes [0, 1, 3, 5, 7, 2, 4, 6] S4x32x2x2x2x32x32x32
  shapeCasts_S4x32x2x2x2x32x32x32_S4x256x32768 : S4x32x2x2x2x32x32x32.ShapeCasts S4x256x32768
  shapeCasts_S64x32x2x2x2_S64x256 : S64x32x2x2x2.ShapeCasts S64x256
  shapeCasts_S64_S64x1 : S64.ShapeCasts S64x1
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  inb_S64x1_S64x1_0_0 : ∀ a, (![0, 0] : Fin 2 → Nat) a + S64x1.size a ≤ S64x1.size a
  h_S64x1 : 0 < S64x1.numel
  shapeCasts_S64x1_S64x1 : S64x1.ShapeCasts S64x1
  broadcasts_S64x1_S64x2048 : S64x1.Broadcasts S64x2048
  inb_S1x64x2048_S1x64x2048_0_0_0 : ∀ a, (![0, 0, 0] : Fin 3 → Nat) a + S1x64x2048.size a ≤ S1x64x2048.size a
  h_S1x64x2048 : 0 < S1x64x2048.numel
  shapeCasts_S1x64x2048_S64x2048 : S1x64x2048.ShapeCasts S64x2048
  shapeCasts_S64x2048_S1x64x2048 : S64x2048.ShapeCasts S1x64x2048
  iota_S1x2048_d1_w32 : S1x2048.Iotas .tc 32 [1]
  natLt_1_32 : 1 < 32
  broadcasts_S1x2048_S64x2048 : S1x2048.Broadcasts S64x2048
  reduces_S64x2048_S64 : S64x2048.Reduces [1] S64
  inb_S1x64x1_S1x64x1_0_0_0 : ∀ a, (![0, 0, 0] : Fin 3 → Nat) a + S1x64x1.size a ≤ S1x64x1.size a
  h_S1x64x1 : 0 < S1x64x1.numel
  shapeCasts_S1x64x1_S64x1 : S1x64x1.ShapeCasts S64x1
  shapeCasts_S64x1_S1x64x1 : S64x1.ShapeCasts S1x64x1
  reducesTo_S64x64x1_S64_d0_2 : S64x64x1.ReducesTo [0, 2] S64
  h_S_ : 0 < S_.numel
  bcast_S_S64 : S_.BroadcastsInDim S64 (![] : Fin 0 → Fin S64.rank)
  inb_S1x1_S1x1_0_0 : ∀ a, (![0, 0] : Fin 2 → Nat) a + S1x1.size a ≤ S1x1.size a
  h_S1x1 : 0 < S1x1.numel
  broadcasts_S1x1_S64x2048 : S1x1.Broadcasts S64x2048
  shapeCasts_S4x64x32768_S4x64x32x32x32 : S4x64x32768.ShapeCasts S4x64x32x32x32
  dot_S64x256_S256x2048_S64x2048_1_0_0_1_n_n_wf : DotDims.WF S64x256 S256x2048 S64x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x2048.size a ≤ S4x256x32768.size a
  hwx0_0 : ∀ i : grid0.Coords, EltTy.bits .f32 = 32 ∨ (Rect.block (s := S4x256x32768) S1x256x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x256.size a ≤ S64x256.size a
  hwx0_1 : ∀ i : grid0.Coords, EltTy.bits .f32 = 32 ∨ (Rect.block (s := S64x256) S64x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x1.size a ≤ S64x1.size a
  hwx0_2 : ∀ i : grid0.Coords, EltTy.bits .f32 = 32 ∨ (Rect.block (s := S64x1) S64x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x64x2048.size a ≤ S4x64x32768.size a
  hwx0_3 : ∀ i : grid0.Coords, EltTy.bits .f32 = 32 ∨ (Rect.block (s := S4x64x32768) S1x64x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x64x1.size a ≤ S64x64x1.size a
  hwx0_4 : ∀ i : grid0.Coords, EltTy.bits .f32 = 32 ∨ (Rect.block (s := S64x64x1) S1x64x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x64x1.size a ≤ S64x64x1.size a
  hwx0_5 : ∀ i : grid0.Coords, EltTy.bits .f32 = 32 ∨ (Rect.block (s := S64x64x1) S1x64x1.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x64x2048.size a ≤ S4x64x32768.size a
  hwx1_0 : ∀ i : grid1.Coords, EltTy.bits .f32 = 32 ∨ (Rect.block (s := S4x64x32768) S1x64x2048.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x1.size a ≤ S64x1.size a
  hwx1_1 : ∀ i : grid1.Coords, EltTy.bits .f32 = 32 ∨ (Rect.block (s := S64x1) S64x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x1.size a ≤ S64x1.size a
  hwx1_2 : ∀ i : grid1.Coords, EltTy.bits .f32 = 32 ∨ (Rect.block (s := S64x1) S64x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1.size a ≤ S1x1.size a
  hwx1_3 : ∀ i : grid1.Coords, EltTy.bits .f32 = 32 ∨ (Rect.block (s := S1x1) S1x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x64x2048.size a ≤ S4x64x32768.size a
  hwx1_4 : ∀ i : grid1.Coords, EltTy.bits .f32 = 32 ∨ (Rect.block (s := S4x64x32768) S1x64x2048.size (cc1_transform_4 i) (hinb1_4 i)).WholeWords (EltTy.packing .f32)

variable [Facts₀]

def dot_S64x256_S256x2048_S64x2048_1_0_0_1_n_n : DotDims S64x256 S256x2048 S64x2048 where
  lhsContracting := [1]
  rhsContracting := [0]
  lhsNonContracting := [0]
  rhsNonContracting := [1]
  lhsBatch := []
  rhsBatch := []
  wf := dot_S64x256_S256x2048_S64x2048_1_0_0_1_n_n_wf

abbrev win0_0 : Pipeline.Window sig grid0 :=
  Pipeline.Window.ofSpec (Memref.whole main_v2) S1x256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S64x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S64x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5_0) S1x64x2048.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5_1) S1x64x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5_2) S1x64x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v5_0) S1x64x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S64x1.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v24) S64x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S1x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v25) S1x64x2048.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== Proof.KRun.lean ====
/-
  The program's run with every buffer's final contents named.

  @main is five segments: host operations, the first kernel region, host operations, the second kernel region, a last
  host operation. The contents of the TensorCore's buffers at each boundary are a fold from the launch memory
  (`W0` … `W5`: a stretch of host operations applies them; a region leaves its arrays at what its write-backs
  accumulate and every other buffer alone). Every weakly fair execution terminates without a fault, and in the final
  state every buffer that lives across the run holds `W5` — in particular the result array and the six arguments.
-/
import proofs.«169852_g2000005830330328_pallasbulk_421_3_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding plain
-- definitions in a metavariable's type
set_option backward.isDefEq.respectTransparency.types false in
/-- Every weakly fair execution of @main terminates, nothing faulting, and every buffer that outlives the run ends at
    the last boundary's contents `W5`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

/-- The run read at the result and at the arguments: the result array ends at `W5`'s contents of it, each argument as
    launched. -/
theorem run_result : θ_run defs (onTc (τ := τ) (main (F := F))) ⟨m, fun _ => 0, ρ⟩ (fun r => ∀ c : Dev nD,
      r.2.mem ((c.tc : Thread nD τ).loc main_v28) = W5 m ρ c (Proc.devRef .tc main_v28)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun s h c =>
      ⟨h c _ (mem_uc main_v28 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c)⟩)
    (run_all m ρ)

end Cert.KernelIdeal.RunValue

end
-- ==== Proof.LibRows.lean ====
/-
  One-axis reductions and keep-dimension layout operations read at coordinates, at the exact values.

  For a two-axis array `[m, n]`: the sum and the maximum over the second axis, at row `p`, as the sum and the fold of
  `max` over `s : Fin n` of the entry `(p, s)`. For a three-axis array `[a, b, c]`: the sum over the last axis at
  `(p, s)` and the sum over the middle axis at `(p, h)`. And the casts and broadcasts that insert or repeat a unit
  axis: `[a, b] → [a, 1, b]`, `[a, b] → [a, b, 1]`, `[a, 1, c] → [a, b, c]`, `[1, 1, c] → [a, b, c]`,
  `[a, b, 1] → [a, b, c]`. Each lemma names the operand's index by coordinates, so that it applies by unification.
-/
import Idealize.ShloMosaic.Lib.Pipeline.Value
import Idealize.ShloMosaic.Lib.ValueIdx
import Idealize.ShloMosaic.PureOps.Ideal.Laws

namespace Cert.LibRows

open Idealize.ShloMosaic Idealize.ShloMosaic.ValueIdx

variable {φ : FTy}

/-! ## Reductions over one axis -/

/-- The sum over the second axis of `[m, n]`, at row `p`: `∑ₛ x (p, s)`. -/
theorem rowSum_apply {m n : ℕ} (x : FVec Ideal ⟨2, ![m, n]⟩ φ) (acc : BitVec φ.bits)
    (h : (⟨2, ![m, n]⟩ : Shape).Reduces [(1 : Fin 2)] ⟨1, ![m]⟩) (hφ : FKind.Formats φ) (hacc : acc = FKind.add.neutral φ hφ)
    (p : Fin m) :
    multiReduction .add [(1 : Fin 2)] ⟨1, ![m]⟩ x acc h hφ hacc (ix1 p) = ∑ s : Fin n, x (ix2 p s) :=
  (Ideal.multiReduction_add_single x acc h hφ hacc (ix1 p)).trans
    (Finset.sum_congr rfl fun s _ => congrArg x (funext fun a => Fin.ext (by
      match a with
      | ⟨0, _⟩ => rfl
      | ⟨1, _⟩ => rfl)))

/-- The maximum over the second axis of `[m, n]`, at row `p`: the fold of `max`, from the accumulator's value, over
    `s` of `x (p, s)`. -/
theorem rowMax_apply {m n : ℕ} (x : FVec Ideal ⟨2, ![m, n]⟩ φ) (acc : BitVec φ.bits)
    (h : (⟨2, ![m, n]⟩ : Shape).Reduces [(1 : Fin 2)] ⟨1, ![m]⟩) (hφ : FKind.Formats φ) (hacc : acc = FKind.maximumf.neutral φ hφ)
    (p : Fin m) :
    multiReduction .maximumf [(1 : Fin 2)] ⟨1, ![m]⟩ x acc h hφ hacc (ix1 p)
      = (Finset.univ : Finset (Fin n)).fold max (Ideal.ofBits φ acc) (fun s => x (ix2 p s)) :=
  (Ideal.multiReduction_maximumf_single x acc h hφ hacc (ix1 p)).trans
    (congrArg ((Finset.univ : Finset (Fin n)).fold max (Ideal.ofBits φ acc)) (funext fun s => congrArg x (funext fun a => Fin.ext (by
      match a with
      | ⟨0, _⟩ => rfl
      | ⟨1, _⟩ => rfl))))

/-- The sum over the LAST axis of `[a, b, c]`, at `(p, s)`: `∑ₖ x (p, s, k)`. -/
theorem lastSum_apply {a b c : ℕ} (x : FVec Ideal ⟨3, ![a, b, c]⟩ φ) (acc : BitVec φ.bits)
    (h : (⟨3, ![a, b, c]⟩ : Shape).Reduces [(2 : Fin 3)] ⟨2, ![a, b]⟩) (hφ : FKind.Formats φ) (hacc : acc = FKind.add.neutral φ hφ)
    (p : Fin a) (s : Fin b) :
    multiReduction .add [(2 : Fin 3)] ⟨2, ![a, b]⟩ x acc h hφ hacc (ix2 p s) = ∑ k : Fin c, x (ix3 p s k) :=
  (Ideal.multiReduction_add_single x acc h hφ hacc (ix2 p s)).trans
    (Finset.sum_congr rfl fun k _ => congrArg x (funext fun d => Fin.ext (by
      match d with
      | ⟨0, _⟩ => rfl
      | ⟨1, _⟩ => rfl
      | ⟨2, _⟩ => rfl)))

/-- The sum over the MIDDLE axis of `[a, b, c]`, at `(p, z)`: `∑ₛ x (p, s, z)`. -/
theorem midSum_apply {a b c : ℕ} (x : FVec Ideal ⟨3, ![a, b, c]⟩ φ) (acc : BitVec φ.bits)
    (h : (⟨3, ![a, b, c]⟩ : Shape).Reduces [(1 : Fin 3)] ⟨2, ![a, c]⟩) (hφ : FKind.Formats φ) (hacc : acc = FKind.add.neutral φ hφ)
    (p : Fin a) (z : Fin c) :
    multiReduction .add [(1 : Fin 3)] ⟨2, ![a, c]⟩ x acc h hφ hacc (ix2 p z) = ∑ s : Fin b, x (ix3 p s z) :=
  (Ideal.multiReduction_add_single x acc h hφ hacc (ix2 p z)).trans
    (Finset.sum_congr rfl fun s _ => congrArg x (funext fun d => Fin.ext (by
      match d with
      | ⟨0, _⟩ => rfl
      | ⟨1, _⟩ => rfl
      | ⟨2, _⟩ => rfl)))

/-! ## Unit axes inserted and repeated -/

variable {α : Type}

/-- `[a, b]` cast to `[a, 1, b]` reads, at `(p, u, z)`, the operand at `(p, z)`. -/
theorem shapeCast_ab_a1b_apply {a b : ℕ} (x : (⟨2, ![a, b]⟩ : Shape).Idx → α)
    (h : (⟨2, ![a, b]⟩ : Shape).ShapeCasts ⟨3, ![a, 1, b]⟩) (p : Fin a) (u : Fin 1) (z : Fin b) :
    shapeCast ⟨3, ![a, 1, b]⟩ x h (ix3 p u z) = x (ix2 p z) :=
  shapeCast_apply x h _ _ (by
    have hu : u.val = 0 := by omega
    rw [Shape.rowMajor_val_two, Shape.rowMajor_val_three]
    show p.val * b + z.val = (p.val * 1 + u.val) * b + z.val
    rw [hu, Nat.mul_one, Nat.add_zero])

/-- `[a, b]` cast to `[a, b, 1]` reads, at `(p, s, u)`, the operand at `(p, s)`. -/
theorem shapeCast_ab_ab1_apply {a b : ℕ} (x : (⟨2, ![a, b]⟩ : Shape).Idx → α)
    (h : (⟨2, ![a, b]⟩ : Shape).ShapeCasts ⟨3, ![a, b, 1]⟩) (p : Fin a) (s : Fin b) (u : Fin 1) :
    shapeCast ⟨3, ![a, b, 1]⟩ x h (ix3 p s u) = x (ix2 p s) :=
  shapeCast_apply x h _ _ (by
    have hu : u.val = 0 := by omega
    rw [Shape.rowMajor_val_two, Shape.rowMajor_val_three]
    show p.val * b + s.val = (p.val * b + s.val) * 1 + u.val
    rw [hu, Nat.mul_one, Nat.add_zero])

/-- `[a, 1, c]` broadcast to `[a, b, c]` reads, at `(p, s, z)`, the operand at `(p, 0, z)`. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (s : Fin b) (z : Fin c) :
    broadcastTo ⟨3, ![a, b, c]⟩ v h (ix3 p s z) = v (ix3 p (0 : Fin 1) z) := by
  refine broadcastTo_apply v h (ix3 p s z) (ix3 p (0 : Fin 1) z) fun ax => ?_
  match ax with
  | ⟨0, _⟩ =>
    show p.val = if a = 1 then 0 else p.val
    split
    · have := p.isLt; omega
    · rfl
  | ⟨1, _⟩ => rfl
  | ⟨2, _⟩ =>
    show z.val = if c = 1 then 0 else z.val
    split
    · have := z.isLt; omega
    · rfl

/-- `[1, 1, c]` broadcast to `[a, b, c]` reads, at `(p, s, z)`, the operand at `(0, 0, z)`. -/
theorem broadcastTo_11c_abc_apply {a b c : ℕ} (v : (⟨3, ![1, 1, c]⟩ : Shape).Idx → α)
    (h : (⟨3, ![1, 1, c]⟩ : Shape).Broadcasts ⟨3, ![a, b, c]⟩) (p : Fin a) (s : Fin b) (z : Fin c) :
    broadcastTo ⟨3, ![a, b, c]⟩ v h (ix3 p s z) = v (ix3 (0 : Fin 1) (0 : Fin 1) z) := by
  refine broadcastTo_apply v h (ix3 p s z) (ix3 (0 : Fin 1) (0 : Fin 1) z) fun ax => ?_
  match ax with
  | ⟨0, _⟩ => rfl
  | ⟨1, _⟩ => rfl
  | ⟨2, _⟩ =>
    show z.val = if c = 1 then 0 else z.val
    split
    · have := z.isLt; omega
    · rfl

/-- `[a, b, 1]` broadcast to `[a, b, c]` reads, at `(p, s, z)`, the operand at `(p, s, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (s : Fin b) (z : Fin c) :
    broadcastTo ⟨3, ![a, b, c]⟩ v h (ix3 p s z) = v (ix3 p s (0 : Fin 1)) := by
  refine broadcastTo_apply v h (ix3 p s z) (ix3 p s (0 : Fin 1)) fun ax => ?_
  match ax with
  | ⟨0, _⟩ =>
    show p.val = if a = 1 then 0 else p.val
    split
    · have := p.isLt; omega
    · rfl
  | ⟨1, _⟩ =>
    show s.val = if b = 1 then 0 else s.val
    split
    · have := s.isLt; omega
    · rfl
  | ⟨2, _⟩ => rfl

end Cert.LibRows
-- ==== Proof.LibLayout.lean ====
/-
  Layout operations read at coordinates, for shapes the library's own collection does not cover:
  a vector turned into a column, a column repeated along its unit axis, and the two reshapes between a
  three-axis array and the two-axis array whose rows are the pairs of its first two coordinates.
  Each lemma names the operand's index by coordinates, so that it applies by unification.
-/
import Idealize.ShloMosaic.Lib.Pipeline.Value
import Idealize.ShloMosaic.Lib.ValueIdx

namespace Cert.LibLayout

open Idealize.ShloMosaic Idealize.ShloMosaic.ValueIdx

variable {α : Type}

/-- A vector of length `a` cast to a column `[a, 1]` reads, at `(i, u)`, the vector at `i`: the row-major
    position of `(i, u)` is `i · 1 + u = i`, the unit coordinate being zero. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column `[a, 1]` broadcast to `[a, b]` reads, at `(i, j)`, the column's entry of row `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- An array `[a, b, c]` reshaped to `[n, c]` with `n = a · b` reads, at row `r = p · b + q` and column `z`,
    the array at `(p, q, z)`: both have the row-major position `(p · b + q) · c + z`. -/
theorem shapeCast_abc_nc_apply {a b c n : ℕ} (x : (⟨3, ![a, b, c]⟩ : Shape).Idx → α)
    (h : (⟨3, ![a, b, c]⟩ : Shape).ShapeCasts ⟨2, ![n, c]⟩) (p : Fin a) (q : Fin b) (z : Fin c) (r : Fin n)
    (hr : r.val = p.val * b + q.val) : shapeCast ⟨2, ![n, c]⟩ x h (ix2 r z) = x (ix3 p q z) :=
  shapeCast_apply x h _ _ (by
    rw [Shape.rowMajor_val_three, Shape.rowMajor_val_two]
    show (p.val * b + q.val) * c + z.val = r.val * c + z.val
    rw [hr])

/-- The reshape back: `[n, c]` reshaped to `[a, b, c]` reads, at `(p, q, z)`, row `r = p · b + q` at column `z`. -/
theorem shapeCast_nc_abc_apply {a b c n : ℕ} (x : (⟨2, ![n, c]⟩ : Shape).Idx → α)
    (h : (⟨2, ![n, c]⟩ : Shape).ShapeCasts ⟨3, ![a, b, c]⟩) (p : Fin a) (q : Fin b) (z : Fin c) (r : Fin n)
    (hr : r.val = p.val * b + q.val) : shapeCast ⟨3, ![a, b, c]⟩ x h (ix3 p q z) = x (ix2 r z) :=
  shapeCast_apply x h _ _ (by
    rw [Shape.rowMajor_val_two, Shape.rowMajor_val_three]
    show r.val * c + z.val = (p.val * b + q.val) * c + z.val
    rw [hr])

end Cert.LibLayout
-- ==== Proof.LibPlainProduct.lean ====
/-
  The product of two arrays of extended reals, rows by columns, and the two operations that compute it.

  For an `M × K` array `x` and a `K × N` array `w`, `rowsByCols x w` is the `M × N` array whose entry `(r, c)` is
  the sum over `k` of `x (r, k) · w (k, c)`. On the extended reals addition is commutative and associative, so the
  sum over the finite index set is well defined whatever its order; nothing here needs the entries to be finite.

  * `matmul_zero_plain`: a matrix unit's product into the zero accumulator, with the plain dimension numbers
    (`DotDims.plain`: contract the left operand's columns with the right operand's rows), is `rowsByCols`.
  * `dotGeneral_plain`: the host's general dot product with the same dimension numbers is `rowsByCols` too.
  * `rowsByCols_rows`: the rows of a product depend on the same rows of the left operand only — if `xb` holds rows
    `e r` of `x`, then `rowsByCols xb w` holds rows `e r` of `rowsByCols x w`. This is what lets a product computed
    one block of rows at a time be read as the whole product.
-/
import Idealize.ShloMosaic.Lib.ValueIdx
import Idealize.ShloMosaic.PureOps.Ideal.Laws

noncomputable section

open scoped BigOperators

namespace Idealize.ShloMosaic.PlainProduct

open Idealize.ShloMosaic Idealize.ShloMosaic.ValueIdx

variable {φ₁ φ₂ : FTy} {M K N : Nat}

/-- Rows by columns: entry `(r, c)` is `∑ k, x (r, k) · w (k, c)`. -/
def rowsByCols (x : FVec Ideal ⟨2, ![M, K]⟩ φ₁) (w : FVec Ideal ⟨2, ![K, N]⟩ φ₂) : FVec Ideal ⟨2, ![M, N]⟩ .f32 :=
  fun i => ∑ k : Fin K, x (ix2 (n0 := M) (n1 := K) (i 0) k) * w (ix2 (n0 := K) (n1 := N) k (i 1))

theorem rowsByCols_apply (x : FVec Ideal ⟨2, ![M, K]⟩ φ₁) (w : FVec Ideal ⟨2, ![K, N]⟩ φ₂) (i : (⟨2, ![M, N]⟩ : Shape).Idx) :
    rowsByCols x w i = ∑ k : Fin K, x (ix2 (n0 := M) (n1 := K) (i 0) k) * w (ix2 (n0 := K) (n1 := N) k (i 1)) := rfl

/-- With the plain dimension numbers the left operand is read at (row of the result, contraction position). -/
theorem plain_lhsIdx (j : (⟨2, ![M, N]⟩ : Shape).Idx) (k : Fin K) :
    (DotDims.plain M K N).lhsIdx j ((contrEquiv1 (DotDims.plain M K N) K rfl rfl).symm k) = ix2 (n0 := M) (n1 := K) (j 0) k := by
  funext a; apply Fin.ext
  match a with
  | ⟨0, _⟩ => rfl
  | ⟨1, _⟩ => exact ((DotDims.plain M K N).lhsIdx_val_of_single rfl j _).trans (contrEquiv1_symm_val _ K rfl rfl k)

/-- … and the right operand at (contraction position, column of the result). -/
theorem plain_rhsIdx (j : (⟨2, ![M, N]⟩ : Shape).Idx) (k : Fin K) :
    (DotDims.plain M K N).rhsIdx j ((contrEquiv1 (DotDims.plain M K N) K rfl rfl).symm k) = ix2 (n0 := K) (n1 := N) k (j 1) := by
  funext a; apply Fin.ext
  match a with
  | ⟨0, _⟩ => exact ((DotDims.plain M K N).rhsIdx_val_of_single rfl j _).trans (contrEquiv1_symm_val _ K rfl rfl k)
  | ⟨1, _⟩ => rfl

/-- The sum over the contraction index of the operands' products, read at the operands' indices, is the sum over
    `k` of `x (r, k) · w (k, c)`. -/
theorem sum_plain (x : FVec Ideal ⟨2, ![M, K]⟩ φ₁) (w : FVec Ideal ⟨2, ![K, N]⟩ φ₂) (j : (⟨2, ![M, N]⟩ : Shape).Idx) :
    (∑ q : (DotDims.plain M K N).contr.Idx, x ((DotDims.plain M K N).lhsIdx j q) * w ((DotDims.plain M K N).rhsIdx j q))
      = rowsByCols x w j :=
  (Equiv.sum_comp (contrEquiv1 (DotDims.plain M K N) K rfl rfl).symm
      (fun q => x ((DotDims.plain M K N).lhsIdx j q) * w ((DotDims.plain M K N).rhsIdx j q))).symm.trans
    (Finset.sum_congr rfl fun k _ =>
      congrArg₂ (fun a b => x a * w b) (plain_lhsIdx j k) (plain_rhsIdx j k))

/-- A matrix unit's product into the zero accumulator is the product rows by columns. -/
theorem matmul_zero_plain (prec : Option ContractPrecision) (x : FVec Ideal ⟨2, ![M, K]⟩ φ₁) (w : FVec Ideal ⟨2, ![K, N]⟩ φ₂) :
    FloatOps.matmul (DotDims.plain M K N) prec x w (constant ⟨2, ![M, N]⟩ .f32 0x00000000#32) = rowsByCols x w :=
  funext fun j => (Ideal.matmul_constant_zero_apply (DotDims.plain M K N) prec x w j).trans (sum_plain x w j)

/-- The host's general dot product with the same dimension numbers is the same product, whatever its schedule. -/
theorem dotGeneral_plain (prec : Option ContractPrecision) (sched : HostSchedule) (x : FVec Ideal ⟨2, ![M, K]⟩ φ₁)
    (w : FVec Ideal ⟨2, ![K, N]⟩ φ₂) :
    FloatOps.dotGeneral (DotDims.plain M K N) prec sched x w = rowsByCols x w :=
  funext fun j => (Ideal.dotGeneral_apply (DotDims.plain M K N) prec sched x w j).trans (sum_plain x w j)

/-- Rows `e r` of a product are the product of rows `e r` of the left operand: if `xb (r, k) = x (e r, k)` then
    `(xb · w) (r, c) = (x · w) (e r, c)`. -/
theorem rowsByCols_rows {B : Nat} (x : FVec Ideal ⟨2, ![M, K]⟩ φ₁) (w : FVec Ideal ⟨2, ![K, N]⟩ φ₂)
    (xb : FVec Ideal ⟨2, ![B, K]⟩ φ₁) (e : Fin B → Fin M)
    (hxb : ∀ (r : Fin B) (k : Fin K), xb (ix2 (n0 := B) (n1 := K) r k) = x (ix2 (n0 := M) (n1 := K) (e r) k))
    (j : (⟨2, ![B, N]⟩ : Shape).Idx) :
    rowsByCols xb w j = rowsByCols x w (ix2 (n0 := M) (n1 := N) (e (j 0)) (j 1)) :=
  Finset.sum_congr rfl fun k _ =>
    congrArg (fun a => a * w (ix2 (n0 := K) (n1 := N) k (j 1))) (hxb (j 0) k)

end Idealize.ShloMosaic.PlainProduct

end
-- ==== Proof.KPayload.lean ====
/-
  The two kernel bodies' stored values, read at coordinates, at the exact values.

  First body, on a tile of 4096 positions. With `x1` the weight block `[64, 256]`, `x0` the patch block
  `[1, 256, 4096]` and `x2` the bias column `[64, 1]`, the value written to the convolution's output block at
  `(0, r, l)` is  `∑ₖ x1 (r, k) · x0 (0, k, l) + x2 (r, 0)`  (`tile`); the value written to the block of partial sums
  at `(0, r, 0)` is the sum of `tile` over the 4096 positions of row `r`, and the one written to the block of
  partial sums of squares is the sum of its squares.
  Second body: with `y` a block `[1, 64, 4096]` of the convolution's output, `sc`, `sh` the scale and shift columns
  and `al` the slope, the stored value at `(0, r, l)` is `z` if `z > 0` and `al · z` otherwise, `z = y · sc (r) + sh (r)`.
-/
import proofs.«169852_g2000005830330328_pallasbulk_421_3_alg».proof.Proof.Gen.KernelIdeal.Skeleton
import proofs.«169852_g2000005830330328_pallasbulk_421_3_alg».proof.Proof.LibRows
import proofs.«169852_g2000005830330328_pallasbulk_421_3_alg».proof.Proof.LibLayout
import proofs.«169852_g2000005830330328_pallasbulk_421_3_alg».proof.Proof.LibPlainProduct
import Idealize.ShloMosaic.Lib.Pipeline.Value
import Idealize.ShloMosaic.Lib.ValueIdx
import Idealize.ShloMosaic.PureOps.Ideal.Laws

noncomputable section

open scoped BigOperators

namespace Cert.KernelIdeal.Payload

open Cert.KernelIdeal Cert.KernelIdeal.Gen
open Idealize.ShloMosaic Idealize.ShloMosaic.ValueIdx Idealize.ShloMosaic.PlainProduct
open Cert.LibRows Cert.LibLayout

/-- Entry `(r, l)` of a tile of the convolution's output. -/
def tile (x1 : FVec Ideal S64x256 .bf16) (x0 : FVec Ideal S1x256x4096 .bf16) (x2 : FVec Ideal S64x1 .f32) (r : Fin 64) (l : Fin 4096) : EReal :=
  (∑ k : Fin 256, x1 (ix2 r k) * x0 (ix3 (0 : Fin 1) k l)) + x2 (ix2 r (0 : Fin 1))

/-- The product's dimension numbers are the plain ones: rows by columns. -/
theorem dot_eq : dot_S64x256_S256x4096_S64x4096_1_0_0_1_n_n = DotDims.plain 64 256 4096 := rfl

/-- The matrix product with the bias added, at `(r, l)`. -/
theorem pay1_apply (x1 : FVec Ideal S64x256 .bf16) (x0 : FVec Ideal S1x256x4096 .bf16) (x2 : FVec Ideal S64x1 .f32) (r : Fin 64) (l : Fin 4096) :
    k0_pay1 (F := Ideal) x1 x0 x2 (ix2 r l) = tile x1 x0 x2 r l := by
  unfold k0_pay1 tile
  refine (addf_apply _ _ _).trans ?_
  refine congrArg₂ (· + ·) ?_ ?_
  · -- the product: rows of the weights by columns of the patches
    have e := congrFun (matmul_zero_plain (M := 64) (K := 256) (N := 4096) none
      (shapeCast S64x256 x1 shapeCasts_S64x256_S64x256) (shapeCast S256x4096 x0 shapeCasts_S1x256x4096_S256x4096)) (ix2 r l)
    refine e.trans ?_
    rw [rowsByCols_apply]
    refine Finset.sum_congr rfl fun k _ => ?_
    refine congrArg₂ (· * ·) ?_ ?_
    · rw [shapeCast_self]
    · exact shapeCast_abc_nc_apply x0 _ (0 : Fin 1) k l k (by simp)
  · -- the bias column repeated along the positions
    refine (broadcastTo_a1_ab_apply _ _ r l).trans ?_
    rw [shapeCast_self]

/-- The stored output block at `(u, r, l)`. -/
theorem pay2_apply (x1 : FVec Ideal S64x256 .bf16) (x0 : FVec Ideal S1x256x4096 .bf16) (x2 : FVec Ideal S64x1 .f32) (u : Fin 1) (r : Fin 64) (l : Fin 4096) :
    k0_pay2 (F := Ideal) x1 x0 x2 (ix3 u r l) = tile x1 x0 x2 r l := by
  unfold k0_pay2
  refine (shapeCast_nc_abc_apply _ _ u r l r (by have := u.isLt; omega)).trans ?_
  exact pay1_apply x1 x0 x2 r l

/-- The stored block of partial sums at `(u, r, z)`: row `r`'s sum over the tile. -/
theorem pay3_apply (x1 : FVec Ideal S64x256 .bf16) (x0 : FVec Ideal S1x256x4096 .bf16) (x2 : FVec Ideal S64x1 .f32) (u : Fin 1) (r : Fin 64) (z : Fin 1) :
    k0_pay3 (F := Ideal) x1 x0 x2 (ix3 u r z) = ∑ l : Fin 4096, tile x1 x0 x2 r l := by
  unfold k0_pay3
  refine (shapeCast_nc_abc_apply _ _ u r z r (by have := u.isLt; omega)).trans ?_
  refine (shapeCast_a_a1_apply _ _ r z).trans ?_
  refine (rowSum_apply (m := 64) (n := 4096) _ _ _ _ _ r).trans ?_
  exact Finset.sum_congr rfl fun l _ => pay1_apply x1 x0 x2 r l

/-- The stored block of partial sums of squares at `(u, r, z)`. -/
theorem pay4_apply (x1 : FVec Ideal S64x256 .bf16) (x0 : FVec Ideal S1x256x4096 .bf16) (x2 : FVec Ideal S64x1 .f32) (u : Fin 1) (r : Fin 64) (z : Fin 1) :
    k0_pay4 (F := Ideal) x1 x0 x2 (ix3 u r z) = ∑ l : Fin 4096, tile x1 x0 x2 r l * tile x1 x0 x2 r l := by
  unfold k0_pay4
  refine (shapeCast_nc_abc_apply _ _ u r z r (by have := u.isLt; omega)).trans ?_
  refine (shapeCast_a_a1_apply _ _ r z).trans ?_
  refine (rowSum_apply (m := 64) (n := 4096) _ _ _ _ _ r).trans ?_
  refine Finset.sum_congr rfl fun l _ => ?_
  refine (mulf_apply _ _ _).trans ?_
  rw [pay1_apply]

/-- The one slope `[1, 1]` repeated over `[64, 4096]` reads the slope everywhere. -/
theorem slope_apply (al : FVec Ideal S1x1 .f32) (r : Fin 64) (l : Fin 4096) :
    broadcastTo S64x4096 al broadcasts_S1x1_S64x4096 (ix2 r l) = al (ix2 (0 : Fin 1) (0 : Fin 1)) := by
  refine broadcastTo_apply al _ (ix2 r l) (ix2 (0 : Fin 1) (0 : Fin 1)) fun ax => ?_
  match ax with
  | ⟨0, _⟩ => rfl
  | ⟨1, _⟩ => rfl

/-- The affine image `y · scale + shift` at `(r, l)`. -/
theorem affine_apply (y : FVec Ideal S1x64x4096 .f32) (sc sh : FVec Ideal S64x1 .f32) (r : Fin 64) (l : Fin 4096) :
    (addf (mulf (shapeCast S64x4096 y shapeCasts_S1x64x4096_S64x4096)
        (broadcastTo S64x4096 (shapeCast S64x1 sc shapeCasts_S64x1_S64x1) broadcasts_S64x1_S64x4096))
      (broadcastTo S64x4096 (shapeCast S64x1 sh shapeCasts_S64x1_S64x1) broadcasts_S64x1_S64x4096) : FVec Ideal S64x4096 .f32) (ix2 r l)
      = y (ix3 (0 : Fin 1) r l) * sc (ix2 r (0 : Fin 1)) + sh (ix2 r (0 : Fin 1)) := by
  refine (addf_apply _ _ _).trans ?_
  refine congrArg₂ (· + ·) ((mulf_apply _ _ _).trans (congrArg₂ (· * ·) ?_ ?_)) ?_
  · exact shapeCast_abc_nc_apply y _ (0 : Fin 1) r l r (by simp)
  · refine (broadcastTo_a1_ab_apply _ _ r l).trans ?_
    rw [shapeCast_self]
  · refine (broadcastTo_a1_ab_apply _ _ r l).trans ?_
    rw [shapeCast_self]

/-- The second body's stored block at `(u, r, l)`: the leaky rectifier of the affine image. -/
theorem k1_pay1_apply (y : FVec Ideal S1x64x4096 .f32) (sc sh : FVec Ideal S64x1 .f32) (al : FVec Ideal S1x1 .f32) (u : Fin 1) (r : Fin 64) (l : Fin 4096) :
    k1_pay1 (F := Ideal) y sc sh al (ix3 u r l)
      = Scalar.select
          (FloatOps.cmpf (F := Ideal) (φ := .f32) .ogt (y (ix3 (0 : Fin 1) r l) * sc (ix2 r (0 : Fin 1)) + sh (ix2 r (0 : Fin 1)))
            (FloatOps.ofBits (F := Ideal) .f32 0x00000000#32))
          (y (ix3 (0 : Fin 1) r l) * sc (ix2 r (0 : Fin 1)) + sh (ix2 r (0 : Fin 1)))
          (al (ix2 (0 : Fin 1) (0 : Fin 1)) * (y (ix3 (0 : Fin 1) r l) * sc (ix2 r (0 : Fin 1)) + sh (ix2 r (0 : Fin 1)))) := by
  unfold k1_pay1
  refine (shapeCast_nc_abc_apply _ _ u r l r (by have := u.isLt; omega)).trans ?_
  refine (select_apply _ _ _ _).trans ?_
  have hz := affine_apply y sc sh r l
  refine congr (congr (congrArg Scalar.select ?_) hz) ?_
  · refine (cmpf_apply _ _ _ _).trans ?_
    exact congrArg (fun a => FloatOps.cmpf (F := Ideal) (φ := .f32) .ogt a (FloatOps.ofBits (F := Ideal) .f32 0x00000000#32)) hz
  · refine (mulf_apply _ _ _).trans ?_
    exact congrArg₂ (· * ·) (slope_apply al r l) hz

end Cert.KernelIdeal.Payload

end
-- ==== Proof.LibIdxSums.lean ====
/-
  Sums over the index set of a rank-3 or rank-4 array, taken coordinate by coordinate, and the host's add-reductions
  read through them at the exact values: a reduction of a [n0, n1, n2, n3] array over the axes 0, 2, 3 at class `k`
  is the initial value plus the threefold sum over the other coordinates of the entries (a, k, c, d); a reduction of
  a [n0, n1, n2] array over all its axes is the initial value plus the threefold sum over all coordinates.
-/
import Idealize.ShloMosaic.Lib.ValueIdx
import Idealize.ShloMosaic.PureOps.Ideal.Laws

noncomputable section

open scoped BigOperators

namespace Cert.Lib.IdxSums

open Idealize.ShloMosaic Idealize.ShloMosaic.ValueIdx

/-- A rank-3 index is its three coordinates. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A sum over a rank-3 index set is the threefold sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f]
  simp only [Fintype.sum_prod_type]
  rfl

/-- A rank-4 index is its four coordinates. -/
def idxEquiv4 {n0 n1 n2 n3 : Nat} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- A sum over a rank-4 index set is the fourfold sum over the coordinates. -/
theorem sum_idx4 {M : Type*} [AddCommMonoid M] {n0 n1 n2 n3 : Nat} (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f]
  simp only [Fintype.sum_prod_type]
  rfl

/-- The sum over the rank-4 indices whose second coordinate is `k`: the threefold sum over the other coordinates. -/
theorem sum_filter_axis1 {M : Type*} [AddCommMonoid M] {n0 n1 n2 n3 : Nat} (x : (⟨4, ![n0, n1, n2, n3]⟩ : Shape).Idx → M)
    (k : Fin n1) (p : (⟨4, ![n0, n1, n2, n3]⟩ : Shape).Idx → Prop) [DecidablePred p] (hp : ∀ i, p i ↔ i 1 = k) :
    ∑ i ∈ Finset.univ.filter p, x i = ∑ a : Fin n0, ∑ c : Fin n2, ∑ d : Fin n3, x (ix4 a k c d) := by
  rw [Finset.sum_filter, sum_idx4]
  refine Finset.sum_congr rfl fun a _ => ?_
  rw [Finset.sum_eq_single k]
  · refine Finset.sum_congr rfl fun c _ => Finset.sum_congr rfl fun d _ => ?_
    rw [if_pos ((hp _).mpr rfl)]
  · intro b _ hb
    refine Finset.sum_eq_zero fun c _ => Finset.sum_eq_zero fun d _ => ?_
    rw [if_neg (fun h => hb ((hp _).mp h))]
  · intro h
    exact absurd (Finset.mem_univ k) h

/-- Dropping the axes 0, 2, 3 of a rank-4 index leaves its second coordinate. -/
theorem drop_023_iff {n0 n1 n2 n3 : Nat} (h : (⟨4, ![n0, n1, n2, n3]⟩ : Shape).ReducesTo [0, 2, 3] ⟨1, ![n1]⟩)
    (i : (⟨4, ![n0, n1, n2, n3]⟩ : Shape).Idx) (k : Fin n1) : h.drop i = ix1 k ↔ i 1 = k := by
  constructor
  · intro e
    have := congrArg (fun j : (⟨1, ![n1]⟩ : Shape).Idx => (j 0).val) e
    exact Fin.ext this
  · intro e
    funext b
    match b with
    | ⟨0, _⟩ => exact Fin.ext (congrArg Fin.val e)

/-- The host's sum over the axes 0, 2, 3 of a rank-4 array, at class `k`. -/
theorem hostSum_023 {n0 n1 n2 n3 : Nat} (h : (⟨4, ![n0, n1, n2, n3]⟩ : Shape).ReducesTo [0, 2, 3] ⟨1, ![n1]⟩)
    (x : (⟨4, ![n0, n1, n2, n3]⟩ : Shape).Idx → EReal) (init : EReal) (k : Fin n1) :
    Ideal.hostReduceAdd h x init (ix1 k) = init + ∑ a : Fin n0, ∑ c : Fin n2, ∑ d : Fin n3, x (ix4 a k c d) := by
  unfold Ideal.hostReduceAdd
  rw [sum_filter_axis1 x k _ (fun i => drop_023_iff h i k)]

/-- The host's sum over every axis of a rank-3 array. -/
theorem hostSum_all3 {n0 n1 n2 : Nat} (h : (⟨3, ![n0, n1, n2]⟩ : Shape).ReducesTo [0, 1, 2] ⟨0, ![]⟩)
    (x : (⟨3, ![n0, n1, n2]⟩ : Shape).Idx → EReal) (init : EReal) (j : (⟨0, ![]⟩ : Shape).Idx) :
    Ideal.hostReduceAdd h x init j = init + ∑ a : Fin n0, ∑ b : Fin n1, ∑ c : Fin n2, x (ix3 a b c) := by
  rw [Ideal.hostReduceAdd_total h (fun b => b.elim0) x init j, sum_idx3]

end Cert.Lib.IdxSums

end
-- ==== Proof.LibTiles.lean ====
/-
  Sums taken tile by tile, and the host's sum over the outer and the inner axis of a three-axis array.

  * `sum_tiles`: a row of length `S = J · L` cut into `J` tiles of `L` entries. Summing, over the `A · J` pairs
    (row, tile) counted as one index `t` (row `t / J`, tile `t % J`), the sums of the tiles' entries gives the sum
    over all rows and all entries. Addition in a commutative monoid is all it uses, so on the extended reals it holds
    with infinite entries too.
  * `hostSum_02`: at the exact values, the host's add-reduction of a `[n0, n1, n2]` array over the axes 0 and 2, at
    class `k`, is the initial value plus the twofold sum over the other coordinates of the entries `(a, k, c)`
    (over the threefold sum of LibIdxSums.lean, in the manner of its reduction over three axes of a rank-4 array).
-/
import Idealize.ShloMosaic.Lib.ValueIdx
import Idealize.ShloMosaic.PureOps.Ideal.Laws
import proofs.«169852_g2000005830330328_pallasbulk_421_3_alg».proof.Proof.LibIdxSums

noncomputable section

open scoped BigOperators

namespace Cert.LibTiles

open Idealize.ShloMosaic Idealize.ShloMosaic.ValueIdx Cert.Lib.IdxSums

/-- Position `l` of tile `j`, among `J` tiles of `L` entries laid end to end in a row of length `S = J · L`. -/
def tilePos {J L S : ℕ} (hS : J * L = S) (j : Fin J) (l : Fin L) : Fin S := Fin.cast hS (finProdFinEquiv (j, l))

theorem tilePos_val {J L S : ℕ} (hS : J * L = S) (j : Fin J) (l : Fin L) : (tilePos hS j l).val = l.val + L * j.val := rfl

/-- A sum over a row of length `J · L` is the sum over the tiles of the sums over each tile's entries. -/
theorem sum_row_tiles {M : Type*} [AddCommMonoid M] {J L S : ℕ} (hS : J * L = S) (f : Fin S → M) :
    ∑ s : Fin S, f s = ∑ j : Fin J, ∑ l : Fin L, f (tilePos hS j l) := by
  rw [← Equiv.sum_comp (finCongr hS) f, ← Equiv.sum_comp finProdFinEquiv (fun s => f (finCongr hS s)),
    Fintype.sum_prod_type]
  rfl

/-- Summing tile sums over all (row, tile) pairs, the pair counted as `t = row · J + tile`, sums every entry once. -/
theorem sum_tiles {M : Type*} [AddCommMonoid M] {A J L S : ℕ} (hS : J * L = S) (g : Fin A → Fin S → M) :
    ∑ t : Fin (A * J), ∑ l : Fin L, g t.divNat (tilePos hS t.modNat l) = ∑ n : Fin A, ∑ s : Fin S, g n s := by
  rw [← Equiv.sum_comp finProdFinEquiv (fun t : Fin (A * J) => ∑ l : Fin L, g t.divNat (tilePos hS t.modNat l)),
    Fintype.sum_prod_type]
  refine Finset.sum_congr rfl fun n _ => ?_
  rw [sum_row_tiles hS (g n)]
  refine Finset.sum_congr rfl fun j _ => ?_
  have e : (finProdFinEquiv (n, j) : Fin (A * J)).divNat = n ∧ (finProdFinEquiv (n, j) : Fin (A * J)).modNat = j := by
    have := finProdFinEquiv.symm_apply_apply (n, j)
    exact ⟨congrArg Prod.fst this, congrArg Prod.snd this⟩
  rw [e.1, e.2]

/-- The sum over the rank-3 indices whose middle coordinate is `k`: the twofold sum over the other coordinates. -/
theorem sum_filter_mid {M : Type*} [AddCommMonoid M] {n0 n1 n2 : Nat} (x : (⟨3, ![n0, n1, n2]⟩ : Shape).Idx → M)
    (k : Fin n1) (p : (⟨3, ![n0, n1, n2]⟩ : Shape).Idx → Prop) [DecidablePred p] (hp : ∀ i, p i ↔ i 1 = k) :
    ∑ i ∈ Finset.univ.filter p, x i = ∑ a : Fin n0, ∑ c : Fin n2, x (ix3 a k c) := by
  rw [Finset.sum_filter, sum_idx3]
  refine Finset.sum_congr rfl fun a _ => ?_
  rw [Finset.sum_eq_single k]
  · refine Finset.sum_congr rfl fun c _ => ?_
    rw [if_pos ((hp _).mpr rfl)]
  · intro b _ hb
    refine Finset.sum_eq_zero fun c _ => ?_
    rw [if_neg (fun h => hb ((hp _).mp h))]
  · intro h
    exact absurd (Finset.mem_univ k) h

/-- Dropping the axes 0 and 2 of a rank-3 index leaves its middle coordinate. -/
theorem drop_02_iff {n0 n1 n2 : Nat} (h : (⟨3, ![n0, n1, n2]⟩ : Shape).ReducesTo [0, 2] ⟨1, ![n1]⟩)
    (i : (⟨3, ![n0, n1, n2]⟩ : Shape).Idx) (k : Fin n1) : h.drop i = ix1 k ↔ i 1 = k := by
  constructor
  · intro e
    have := congrArg (fun j : (⟨1, ![n1]⟩ : Shape).Idx => (j 0).val) e
    exact Fin.ext this
  · intro e
    funext b
    match b with
    | ⟨0, _⟩ => exact Fin.ext (congrArg Fin.val e)

/-- The host's sum over the axes 0 and 2 of a rank-3 array, at class `k`. -/
theorem hostSum_02 {n0 n1 n2 : Nat} (h : (⟨3, ![n0, n1, n2]⟩ : Shape).ReducesTo [0, 2] ⟨1, ![n1]⟩)
    (x : (⟨3, ![n0, n1, n2]⟩ : Shape).Idx → EReal) (init : EReal) (k : Fin n1) :
    Ideal.hostReduceAdd h x init (ix1 k) = init + ∑ a : Fin n0, ∑ c : Fin n2, x (ix3 a k c) := by
  unfold Ideal.hostReduceAdd
  rw [sum_filter_mid x k _ (fun i => drop_02_iff h i k)]

end Cert.LibTiles

end
-- ==== Proof.Spec.lean ====
/-
  The downsampling block as functions of arrays of extended reals, index by index.

  The input, already laid out as patches `p (n, k, s)` (image `n`, patch entry `k`, output position `s`), meets the
  weight matrix `w (c, k)` and the bias column `b (c, 0)`:

      y (n, c, s) = ∑ₖ w (c, k) · p (n, k, s) + b (c, 0).

  Batch normalisation takes, per channel `c`, the sum and the sum of squares of `y` over all images and positions,
  turns them into a scale and a shift (`bnScale`, `bnShift`: mean `S / 131072`, variance `max (Q / 131072 − mean², 0)`,
  `r = rsqrt (variance + ε)`, scale `γ · r`, shift `β − mean · γ · r`), and the result is the leaky rectifier of the
  affine image:  `z = y · scale (c) + shift (c)`,  `out = z` if `z > 0`, else `α · z`.

  The channel sums are stated as sums over every image and every position; a program that computes them tile by tile
  reaches the same value because addition of extended reals is commutative and associative (LibTiles.lean).
-/
import Idealize.ShloMosaic.Lib.ValueIdx
import Idealize.ShloMosaic.Lib.Pipeline.Value
import Idealize.ShloMosaic.PureOps.Ideal.Laws
import proofs.«169852_g2000005830330328_pallasbulk_421_3_alg».proof.Proof.LibTiles

noncomputable section

open scoped BigOperators

namespace Cert.ConvBN

open Idealize.ShloMosaic Idealize.ShloMosaic.ValueIdx Cert.LibTiles

/-- Patches `[4, 256, 32768]`, weights `[64, 256]`, columns `[64, 1]`, the convolution's output `[4, 64, 32768]`,
    per-channel vectors `[64]`, the one slope `[1, 1]`, a scalar. -/
abbrev SP : Shape := ⟨3, ![4, 256, 32768]⟩
abbrev SW : Shape := ⟨2, ![64, 256]⟩
abbrev SB : Shape := ⟨2, ![64, 1]⟩
abbrev SY : Shape := ⟨3, ![4, 64, 32768]⟩
abbrev SC : Shape := ⟨1, ![64]⟩
abbrev SA : Shape := ⟨2, ![1, 1]⟩
abbrev S0 : Shape := ⟨0, ![]⟩

/-- The convolution as a product with the patches, plus the bias: `y (n, c, s) = ∑ₖ w (c, k) · p (n, k, s) + b (c, 0)`. -/
def convY (p : SP.Idx → EReal) (w : SW.Idx → EReal) (b : SB.Idx → EReal) : SY.Idx → EReal :=
  fun i => (∑ k : Fin 256, w (ix2 (n0 := 64) (n1 := 256) (i 1) k) * p (ix3 (n0 := 4) (n1 := 256) (n2 := 32768) (i 0) k (i 2)))
    + b (ix2 (n0 := 64) (n1 := 1) (i 1) (0 : Fin 1))

theorem convY_apply (p : SP.Idx → EReal) (w : SW.Idx → EReal) (b : SB.Idx → EReal) (n : Fin 4) (c : Fin 64) (s : Fin 32768) :
    convY p w b (ix3 n c s) = (∑ k : Fin 256, w (ix2 c k) * p (ix3 n k s)) + b (ix2 c (0 : Fin 1)) := rfl

/-- Channel `c`'s sum of `y` over every image and position. -/
def chanSum (y : SY.Idx → EReal) : SC.Idx → EReal :=
  fun c => ∑ n : Fin 4, ∑ s : Fin 32768, y (ix3 (n0 := 4) (n1 := 64) (n2 := 32768) n (c 0) s)

/-- Channel `c`'s sum of `y²`. -/
def chanSq (y : SY.Idx → EReal) : SC.Idx → EReal := chanSum fun i => y i * y i

theorem chanSum_apply (y : SY.Idx → EReal) (c : Fin 64) : chanSum y (ix1 c) = ∑ n : Fin 4, ∑ s : Fin 32768, y (ix3 n c s) := rfl

theorem chanSq_apply (y : SY.Idx → EReal) (c : Fin 64) :
    chanSq y (ix1 c) = ∑ n : Fin 4, ∑ s : Fin 32768, y (ix3 n c s) * y (ix3 n c s) := rfl

/-! ## Sums taken tile by tile

A program that cuts the 32768 positions into `J` tiles of `L` and runs over the `4 · J` pairs (image, tile) leaves, for
pair `t` and channel `c`, the sum of `f` over the tile's positions at `(t, c, 0)` of a `[4 · J, 64, 1]` array. The host's
sum of that array over its first and last axes is then the sum of `f` over every image and position — whatever `J`
and `L` are. -/

/-- The array of tile sums: at `(t, c, z)`, the sum over the positions `l` of tile `t % J` of image `t / J`. -/
def tileSums (J L : ℕ) (hS : J * L = 32768) (f : SY.Idx → EReal) : (⟨3, ![4 * J, 64, 1]⟩ : Shape).Idx → EReal :=
  fun i => ∑ l : Fin L, f (ix3 (n0 := 4) (n1 := 64) (n2 := 32768) (Fin.divNat (i 0)) (i 1) (tilePos hS (Fin.modNat (i 0)) l))

theorem tileSums_apply (J L : ℕ) (hS : J * L = 32768) (f : SY.Idx → EReal) (t : Fin (4 * J)) (c : Fin 64) (z : Fin 1) :
    tileSums J L hS f (ix3 t c z) = ∑ l : Fin L, f (ix3 t.divNat c (tilePos hS t.modNat l)) := rfl

/-- The tile sums of a channel, summed over all pairs (image, tile), are the channel's sum. -/
theorem sum_tileSums (J L : ℕ) (hS : J * L = 32768) (f : SY.Idx → EReal) (c : Fin 64) :
    ∑ t : Fin (4 * J), ∑ z : Fin 1, tileSums J L hS f (ix3 t c z) = chanSum f (ix1 c) := by
  rw [chanSum_apply, ← sum_tiles hS (fun n s => f (ix3 n c s))]
  refine Finset.sum_congr rfl fun t _ => ?_
  rw [Fin.sum_univ_one, tileSums_apply]

/-- The host's sum, from zero, of the array of tile sums over its first and last axes is the channel sums. -/
theorem hostSum_tileSums (J L : ℕ) (hS : J * L = 32768) (f : SY.Idx → EReal)
    (h : (⟨3, ![4 * J, 64, 1]⟩ : Shape).ReducesTo [0, 2] SC) (hu : 0 < S0.numel) :
    Host.reduceAdd (F := Ideal) (φ := .f32) (tileSums J L hS f) (constant (F := Ideal) S0 .f32 0x00000000#32) h hu = chanSum f := by
  funext c
  obtain ⟨k, rfl⟩ : ∃ k : Fin 64, c = ix1 k := ⟨c 0, eq_ix1 c⟩
  unfold Host.reduceAdd
  rw [Ideal.hostReduceAdd_def]
  refine (hostSum_02 h _ _ k).trans ?_
  rw [sum_tileSums J L hS f k]
  show Ideal.ofBits .f32 0x00000000#32 + _ = _
  rw [Ideal.ofBits_zero_f32, zero_add]

/-- The count `4 · 32768 = 131072` every channel's statistics divide by, as the host spreads it over the channels. -/
def cnt (hb : S0.BroadcastsInDim SC (![] : Fin 0 → Fin SC.rank)) : FVec Ideal SC .f32 :=
  broadcastInDim SC ![] hb (constant (F := Ideal) S0 .f32 0x48000000#32)

/-- The channel mean `S / 131072`. -/
def bnMean (hb : S0.BroadcastsInDim SC (![] : Fin 0 → Fin SC.rank)) (S : FVec Ideal SC .f32) : FVec Ideal SC .f32 :=
  Host.divf (F := Ideal) S (cnt hb)

/-- `r = rsqrt (max (Q / 131072 − mean², 0) + ε)`, `ε` the single-precision number nearest `10⁻⁵`. -/
def bnInv (hb : S0.BroadcastsInDim SC (![] : Fin 0 → Fin SC.rank)) (S Q : FVec Ideal SC .f32) : FVec Ideal SC .f32 :=
  Host.rsqrt (F := Ideal) (addf (maximumf (subf (Host.divf (F := Ideal) Q (cnt hb)) (mulf (bnMean hb S) (bnMean hb S)))
      (broadcastInDim SC ![] hb (constant (F := Ideal) S0 .f32 0x00000000#32)))
    (broadcastInDim SC ![] hb (constant (F := Ideal) S0 .f32 0x3727C5AC#32)))

/-- The scale column `γ · r`. -/
def bnScale (hb : S0.BroadcastsInDim SC (![] : Fin 0 → Fin SC.rank)) (hc : SC.ShapeCasts SB) (S Q g : FVec Ideal SC .f32) :
    FVec Ideal SB .f32 :=
  shapeCast SB (mulf g (bnInv hb S Q)) hc

/-- The shift column `β − (mean · γ) · r`. -/
def bnShift (hb : S0.BroadcastsInDim SC (![] : Fin 0 → Fin SC.rank)) (hc : SC.ShapeCasts SB) (S Q g bt : FVec Ideal SC .f32) :
    FVec Ideal SB .f32 :=
  shapeCast SB (subf bt (mulf (mulf (bnMean hb S) g) (bnInv hb S Q))) hc

/-- The affine image of `y` through the leaky rectifier: `z = y · scale (c) + shift (c)`; `z` where `z > 0`, else `α · z`. -/
def bnOut (y : SY.Idx → EReal) (sc sh : SB.Idx → EReal) (al : SA.Idx → EReal) : SY.Idx → EReal :=
  fun i =>
    Scalar.select
      (FloatOps.cmpf (F := Ideal) (φ := .f32) .ogt
        (y i * sc (ix2 (n0 := 64) (n1 := 1) (i 1) (0 : Fin 1)) + sh (ix2 (n0 := 64) (n1 := 1) (i 1) (0 : Fin 1)))
        (FloatOps.ofBits (F := Ideal) .f32 0x00000000#32))
      (y i * sc (ix2 (n0 := 64) (n1 := 1) (i 1) (0 : Fin 1)) + sh (ix2 (n0 := 64) (n1 := 1) (i 1) (0 : Fin 1)))
      (al (ix2 (0 : Fin 1) (0 : Fin 1)) * (y i * sc (ix2 (n0 := 64) (n1 := 1) (i 1) (0 : Fin 1)) + sh (ix2 (n0 := 64) (n1 := 1) (i 1) (0 : Fin 1))))

theorem bnOut_apply (y : SY.Idx → EReal) (sc sh : SB.Idx → EReal) (al : SA.Idx → EReal) (n : Fin 4) (c : Fin 64) (s : Fin 32768) :
    bnOut y sc sh al (ix3 n c s)
      = Scalar.select
          (FloatOps.cmpf (F := Ideal) (φ := .f32) .ogt (y (ix3 n c s) * sc (ix2 c (0 : Fin 1)) + sh (ix2 c (0 : Fin 1)))
            (FloatOps.ofBits (F := Ideal) .f32 0x00000000#32))
          (y (ix3 n c s) * sc (ix2 c (0 : Fin 1)) + sh (ix2 c (0 : Fin 1)))
          (al (ix2 (0 : Fin 1) (0 : Fin 1)) * (y (ix3 n c s) * sc (ix2 c (0 : Fin 1)) + sh (ix2 c (0 : Fin 1)))) := rfl

/-! ## From the arguments to the result

The patches are a re-laying of the input `x [4, 32, 64, 64, 64]`: each spatial axis `64` is split as `32 × 2`, the three
halves `2` are moved in front of the three `32`s, and the axes are merged to `[4, 256, 32768]`; the weights
`[64, 32, 2, 2, 2]` are flattened to `[64, 256]`, the bias `[64]` becomes a column, and at the end the positions `32768`
are split back into `[32, 32, 32]`. None of these is ever opened: both programs apply the same ones. -/

abbrev SX : Shape := ⟨5, ![4, 32, 64, 64, 64]⟩
abbrev SX8 : Shape := ⟨8, ![4, 32, 32, 2, 32, 2, 32, 2]⟩
abbrev SX8T : Shape := ⟨8, ![4, 32, 2, 2, 2, 32, 32, 32]⟩
abbrev SWW : Shape := ⟨5, ![64, 32, 2, 2, 2]⟩
abbrev SO : Shape := ⟨5, ![4, 64, 32, 32, 32]⟩

/-- The shape relations the re-layings need. -/
structure Layouts : Prop where
  x8 : SX.ShapeCasts SX8
  x8t : SX8.Transposes [0, 1, 3, 5, 7, 2, 4, 6] SX8T
  p : SX8T.ShapeCasts SP
  w : SWW.ShapeCasts SW
  col : SC.ShapeCasts SB
  bc : S0.BroadcastsInDim SC (![] : Fin 0 → Fin SC.rank)
  out : SY.ShapeCasts SO

/-- The input laid out as patches. -/
def patches (h : Layouts) (x : SX.Idx → EReal) : SP.Idx → EReal :=
  shapeCast SP (transpose SX8T [0, 1, 3, 5, 7, 2, 4, 6] (shapeCast SX8 x h.x8) h.x8t) h.p

/-- The weights as a matrix. -/
def wmat (h : Layouts) (w : SWW.Idx → EReal) : SW.Idx → EReal := shapeCast SW w h.w

/-- The bias as a column. -/
def bcol (h : Layouts) (b : SC.Idx → EReal) : SB.Idx → EReal := shapeCast SB b h.col

/-- The whole block: convolution, batch normalisation from the channel sums, leaky rectifier, positions unfolded. -/
def forward (h : Layouts) (x : SX.Idx → EReal) (w : SWW.Idx → EReal) (b g bt : SC.Idx → EReal) (al : SA.Idx → EReal) :
    SO.Idx → EReal :=
  shapeCast SO
    (bnOut (convY (patches h x) (wmat h w) (bcol h b))
      (bnScale h.bc h.col (chanSum (convY (patches h x) (wmat h w) (bcol h b))) (chanSq (convY (patches h x) (wmat h w) (bcol h b))) g)
      (bnShift h.bc h.col (chanSum (convY (patches h x) (wmat h w) (bcol h b))) (chanSq (convY (patches h x) (wmat h w) (bcol h b))) g bt)
      al)
    h.out

end Cert.ConvBN

end
-- ==== Proof.KRegion0.lean ====
/-
  The first kernel region, read as values: what its three output arrays hold when it ends, as functions of the three
  arrays it reads — whatever those hold when the region is entered.

  The grid has 32 points, point `t` standing for image `t / 8` and tile `t % 8` of 4096 positions. At point `t` the
  body reads the whole weight matrix and bias column and the patches of its image and tile, and writes: the tile of the
  convolution's output, into block `(t / 8, 0, t % 8)` of a `[4, 64, 32768]` array; the tile's row sums and row sums
  of squares, into block `(t, 0, 0)` of two `[32, 64, 1]` arrays. The blocks of each output are disjoint and fill it,
  so when the region ends the first array is the convolution's output and the other two are its tile sums.
-/
import proofs.«169852_g2000005830330328_pallasbulk_421_3_alg».proof.Proof.Gen.KernelIdeal.Frame
import proofs.«169852_g2000005830330328_pallasbulk_421_3_alg».proof.Proof.KPayload
import proofs.«169852_g2000005830330328_pallasbulk_421_3_alg».proof.Proof.Spec
import Idealize.ShloMosaic.Lib.Pipeline.Value

set_option maxRecDepth 16384

noncomputable section

open scoped BigOperators

namespace Cert.KernelIdeal.Region0

open Cert.KernelIdeal Cert.KernelIdeal.Gen Cert.KernelIdeal.Payload Cert.ConvBN Cert.LibTiles
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz3 : (![0, 0, 0] : Fin 3 → Nat) = fun _ => 0 := funext fun a => by fin_cases a <;> rfl

theorem lt_N (t : Fin cfg0.N) : t.val < 32 := by have h := t.isLt; have hN : cfg0.N = 32 := N_0; omega

/-- The block each window stages at point `t`, axis by axis (decided over the 32 points). -/
theorem idx_facts : ∀ t : Fin cfg0.N,
    win0_0.index t (0 : Fin 3) = t.val / 8 ∧ win0_0.index t (1 : Fin 3) = 0 ∧ win0_0.index t (2 : Fin 3) = t.val % 8
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val / 8 ∧ win0_3.index t (1 : Fin 3) = 0 ∧ win0_3.index t (2 : Fin 3) = t.val % 8
    ∧ win0_4.index t (0 : Fin 3) = t.val ∧ win0_4.index t (1 : Fin 3) = 0 ∧ win0_4.index t (2 : Fin 3) = 0
    ∧ win0_5.index t (0 : Fin 3) = t.val ∧ win0_5.index t (1 : Fin 3) = 0 ∧ win0_5.index t (2 : Fin 3) = 0 :=
  (by decide +kernel : ∀ t : Fin grid0.N, _)

/-! ## The input blocks, read where they sit in their arrays -/

/-- The patch block at point `t` holds the patches of image `t / 8` at the positions of tile `t % 8`. -/
theorem read_patch (c : Dev nD) (t : Fin cfg0.N) (k : Fin 256) (l : Fin 4096) (n : Fin 4) (s : Fin 32768)
    (hn : n.val = t.val / 8) (hs : s.val = t.val % 8 * 4096 + l.val) :
    iblk0 V c 0 t (ix3 (0 : Fin 1) k l) = V c main_v3 (ix3 n k s) := by
  obtain ⟨e0, e1, e2, -⟩ := idx_facts t
  show V c main_v3 (((cfg0.win 0).blk t).view.emb (ix3 (0 : Fin 1) k l)) = V c main_v3 (ix3 n k s)
  refine congrArg (V c main_v3) (funext fun a => Fin.ext ?_)
  match a with
  | ⟨0, _⟩ => show win0_0.index t (0 : Fin 3) * 1 + 1 * (0 : Fin 1).val = n.val; rw [e0, hn]; simp
  | ⟨1, _⟩ => show win0_0.index t (1 : Fin 3) * 256 + 1 * k.val = k.val; rw [e1]; simp
  | ⟨2, _⟩ => show win0_0.index t (2 : Fin 3) * 4096 + 1 * l.val = s.val; rw [e2, hs]; omega

/-- The weight block is the whole weight matrix at every point. -/
theorem read_weight (c : Dev nD) (t : Fin cfg0.N) (r : Fin 64) (k : Fin 256) :
    iblk0 V c 1 t (ix2 r k) = V c main_v5 (ix2 r k) := by
  obtain ⟨-, -, -, e0, e1, -⟩ := idx_facts t
  show V c main_v5 (((cfg0.win 1).blk t).view.emb (ix2 r k)) = V c main_v5 (ix2 r k)
  refine congrArg (V c main_v5) (funext fun a => Fin.ext ?_)
  match a with
  | ⟨0, _⟩ => show win0_1.index t (0 : Fin 2) * 64 + 1 * r.val = r.val; rw [e0]; simp
  | ⟨1, _⟩ => show win0_1.index t (1 : Fin 2) * 256 + 1 * k.val = k.val; rw [e1]; simp

/-- The bias block is the whole bias column at every point. -/
theorem read_bias (c : Dev nD) (t : Fin cfg0.N) (r : Fin 64) :
    iblk0 V c 2 t (ix2 r (0 : Fin 1)) = V c main_v6 (ix2 r (0 : Fin 1)) := by
  obtain ⟨-, -, -, -, -, e0, e1, -⟩ := idx_facts t
  show V c main_v6 (((cfg0.win 2).blk t).view.emb (ix2 r (0 : Fin 1))) = V c main_v6 (ix2 r (0 : Fin 1))
  refine congrArg (V c main_v6) (funext fun a => Fin.ext ?_)
  match a with
  | ⟨0, _⟩ => show win0_2.index t (0 : Fin 2) * 64 + 1 * r.val = r.val; rw [e0]; simp
  | ⟨1, _⟩ => show win0_2.index t (1 : Fin 2) * 1 + 1 * (0 : Fin 1).val = (0 : Fin 1).val; rw [e1]; simp

/-- So the body's tile at point `t` is the convolution's output at image `t / 8` and the tile's positions. -/
theorem tile_eq (c : Dev nD) (t : Fin cfg0.N) (r : Fin 64) (l : Fin 4096) (n : Fin 4) (s : Fin 32768)
    (hn : n.val = t.val / 8) (hs : s.val = t.val % 8 * 4096 + l.val) :
    tile (iblk0 V c 1 t) (iblk0 V c 0 t) (iblk0 V c 2 t) r l = convY (V c main_v3) (V c main_v5) (V c main_v6) (ix3 n r s) := by
  unfold tile
  rw [convY_apply]
  refine congrArg₂ (· + ·) (Finset.sum_congr rfl fun k _ => congrArg₂ (· * ·) ?_ ?_) ?_
  · exact read_weight V c t r k
  · exact read_patch V c t k l n s hn hs
  · exact read_bias V c t r

/-! ## The convolution's output array -/

/-- What point `t` writes back to the output array is block `t` of the convolution's output. -/
theorem flushed3_eq (c : Dev nD) (t : Fin cfg0.N) :
    (dat0 V c).flushed 3 t = ((cfg0.win 3).blk t).view.read (Elt Ideal) (convY (V c main_v3) (V c main_v5) (V c main_v6)) := by
  show (cfg0.win 3).cut (grid0.coords t) ((dat0 V c).after 3 t) = _
  rw [after0_3]
  unfold out0_3
  rw [View.canon_unit_zero hz3]
  simp only [View.ld_unit_zero (S := S64x256) hz2, View.ld_unit_zero (S := S1x256x4096) hz3, View.ld_unit_zero (S := S64x1) hz2]
  have ht := lt_N t
  obtain ⟨-, -, -, -, -, -, -, e0, e1, e2, -⟩ := idx_facts t
  funext j
  obtain ⟨u, r, l, rfl⟩ : ∃ (u : Fin 1) (r : Fin 64) (l : Fin 4096), j = ix3 u r l := ⟨j 0, j 1, j 2, eq_ix3 j⟩
  refine (pay2_apply (iblk0 V c 1 t) (iblk0 V c 0 t) (iblk0 V c 2 t) u r l).trans ?_
  refine (tile_eq V c t r l ⟨t.val / 8, by omega⟩ ⟨t.val % 8 * 4096 + l.val, by omega⟩ rfl rfl).trans ?_
  show convY (V c main_v3) (V c main_v5) (V c main_v6) _ = convY (V c main_v3) (V c main_v5) (V c main_v6) (((cfg0.win 3).blk t).view.emb (ix3 u r l))
  refine congrArg (convY (V c main_v3) (V c main_v5) (V c main_v6)) (funext fun a => Fin.ext ?_)
  have hu : u.val = 0 := by omega
  match a with
  | ⟨0, _⟩ => show t.val / 8 = win0_3.index t (0 : Fin 3) * 1 + 1 * u.val; rw [e0, hu]; simp
  | ⟨1, _⟩ => show r.val = win0_3.index t (1 : Fin 3) * 64 + 1 * r.val; rw [e1]; simp
  | ⟨2, _⟩ => show t.val % 8 * 4096 + l.val = win0_3.index t (2 : Fin 3) * 4096 + 1 * l.val; rw [e2]; omega

/-- An index of the output array is in point `t`'s block iff each coordinate is in the block's range on its axis. -/
theorem mem_blk3 (t : Fin cfg0.N) (i : S4x64x32768.Idx) :
    i ∈ ((cfg0.win 3).blk t).view.set ↔ ∀ a : Fin 3, win0_3.index t a * S1x64x4096.size a ≤ (i a).val ∧ (i a).val < win0_3.index t a * S1x64x4096.size a + S1x64x4096.size a := by
  show i ∈ ((View.whole main_v7_0).slice (win0_3.rect t)).set ↔ _
  rw [View.set_slice_whole, Rect.mem_set_unit]
  exact Iff.rfl

/-- Every index of the output array is in the block of the point of its image and its position's tile. -/
theorem cover3 (i : S4x64x32768.Idx) : ∃ t : Fin cfg0.N, (cfg0.win 3).flush t = true ∧ i ∈ ((cfg0.win 3).blk t).view.set := by
  have h0 : (i 0).val < 4 := (i 0).isLt
  have h1 : (i 1).val < 64 := (i 1).isLt
  have h2 : (i 2).val < 32768 := (i 2).isLt
  have hN : cfg0.N = 32 := N_0
  refine ⟨⟨(i 0).val * 8 + (i 2).val / 4096, by rw [hN]; omega⟩, flush0_3 _, ?_⟩
  obtain ⟨-, -, -, -, -, -, -, e0, e1, e2, -⟩ := idx_facts ⟨(i 0).val * 8 + (i 2).val / 4096, by rw [hN]; omega⟩
  rw [mem_blk3]
  intro a
  match a with
  | ⟨0, _⟩ =>
    show win0_3.index _ (0 : Fin 3) * 1 ≤ (i 0).val ∧ (i 0).val < win0_3.index _ (0 : Fin 3) * 1 + 1
    rw [e0]; show ((i 0).val * 8 + (i 2).val / 4096) / 8 * 1 ≤ (i 0).val ∧ (i 0).val < ((i 0).val * 8 + (i 2).val / 4096) / 8 * 1 + 1; omega
  | ⟨1, _⟩ =>
    show win0_3.index _ (1 : Fin 3) * 64 ≤ (i 1).val ∧ (i 1).val < win0_3.index _ (1 : Fin 3) * 64 + 64
    rw [e1]; omega
  | ⟨2, _⟩ =>
    show win0_3.index _ (2 : Fin 3) * 4096 ≤ (i 2).val ∧ (i 2).val < win0_3.index _ (2 : Fin 3) * 4096 + 4096
    rw [e2]; show ((i 0).val * 8 + (i 2).val / 4096) % 8 * 4096 ≤ (i 2).val ∧ (i 2).val < ((i 0).val * 8 + (i 2).val / 4096) % 8 * 4096 + 4096; omega

/-- When the region ends, its first output array is the convolution's output of the arrays it read. -/
theorem final3 (c : Dev nD) : (dat0 V c).arrAt 3 cfg0.N = convY (V c main_v3) (V c main_v5) (V c main_v6) :=
  (dat0 V c).arrAt_eq_of_cover 3 (convY (V c main_v3) (V c main_v5) (V c main_v6)) (fun t _ => flushed3_eq V c t) cover3

/-! ## The two arrays of tile sums -/

/-- An index of a tile-sum array is in point `t`'s block iff each coordinate is in the block's range on its axis. -/
theorem mem_blk4 (t : Fin cfg0.N) (i : S32x64x1.Idx) :
    i ∈ ((cfg0.win 4).blk t).view.set ↔ ∀ a : Fin 3, win0_4.index t a * S1x64x1.size a ≤ (i a).val ∧ (i a).val < win0_4.index t a * S1x64x1.size a + S1x64x1.size a := by
  show i ∈ ((View.whole main_v7_1).slice (win0_4.rect t)).set ↔ _
  rw [View.set_slice_whole, Rect.mem_set_unit]
  exact Iff.rfl

theorem mem_blk5 (t : Fin cfg0.N) (i : S32x64x1.Idx) :
    i ∈ ((cfg0.win 5).blk t).view.set ↔ ∀ a : Fin 3, win0_5.index t a * S1x64x1.size a ≤ (i a).val ∧ (i a).val < win0_5.index t a * S1x64x1.size a + S1x64x1.size a := by
  show i ∈ ((View.whole main_v7_2).slice (win0_5.rect t)).set ↔ _
  rw [View.set_slice_whole, Rect.mem_set_unit]
  exact Iff.rfl

/-- Every index `(t, c, 0)` of the array of partial sums is in point `t`'s block. -/
theorem cover4 (i : S32x64x1.Idx) : ∃ t : Fin cfg0.N, (cfg0.win 4).flush t = true ∧ i ∈ ((cfg0.win 4).blk t).view.set := by
  have h0 : (i 0).val < 32 := (i 0).isLt
  have h1 : (i 1).val < 64 := (i 1).isLt
  have h2 : (i 2).val < 1 := (i 2).isLt
  have hN : cfg0.N = 32 := N_0
  refine ⟨⟨(i 0).val, by rw [hN]; omega⟩, flush0_4 _, ?_⟩
  obtain ⟨-, -, -, -, -, -, -, -, -, -, e0, e1, e2, -⟩ := idx_facts ⟨(i 0).val, by rw [hN]; omega⟩
  rw [mem_blk4]
  intro a
  match a with
  | ⟨0, _⟩ => show win0_4.index _ (0 : Fin 3) * 1 ≤ (i 0).val ∧ (i 0).val < win0_4.index _ (0 : Fin 3) * 1 + 1; rw [e0]; show (i 0).val * 1 ≤ (i 0).val ∧ (i 0).val < (i 0).val * 1 + 1; omega
  | ⟨1, _⟩ => show win0_4.index _ (1 : Fin 3) * 64 ≤ (i 1).val ∧ (i 1).val < win0_4.index _ (1 : Fin 3) * 64 + 64; rw [e1]; omega
  | ⟨2, _⟩ => show win0_4.index _ (2 : Fin 3) * 1 ≤ (i 2).val ∧ (i 2).val < win0_4.index _ (2 : Fin 3) * 1 + 1; rw [e2]; omega

theorem cover5 (i : S32x64x1.Idx) : ∃ t : Fin cfg0.N, (cfg0.win 5).flush t = true ∧ i ∈ ((cfg0.win 5).blk t).view.set := by
  have h0 : (i 0).val < 32 := (i 0).isLt
  have h1 : (i 1).val < 64 := (i 1).isLt
  have h2 : (i 2).val < 1 := (i 2).isLt
  have hN : cfg0.N = 32 := N_0
  refine ⟨⟨(i 0).val, by rw [hN]; omega⟩, flush0_5 _, ?_⟩
  obtain ⟨-, -, -, -, -, -, -, -, -, -, -, -, -, e0, e1, e2⟩ := idx_facts ⟨(i 0).val, by rw [hN]; omega⟩
  rw [mem_blk5]
  intro a
  match a with
  | ⟨0, _⟩ => show win0_5.index _ (0 : Fin 3) * 1 ≤ (i 0).val ∧ (i 0).val < win0_5.index _ (0 : Fin 3) * 1 + 1; rw [e0]; show (i 0).val * 1 ≤ (i 0).val ∧ (i 0).val < (i 0).val * 1 + 1; omega
  | ⟨1, _⟩ => show win0_5.index _ (1 : Fin 3) * 64 ≤ (i 1).val ∧ (i 1).val < win0_5.index _ (1 : Fin 3) * 64 + 64; rw [e1]; omega
  | ⟨2, _⟩ => show win0_5.index _ (2 : Fin 3) * 1 ≤ (i 2).val ∧ (i 2).val < win0_5.index _ (2 : Fin 3) * 1 + 1; rw [e2]; omega

/-- Where point `t`'s block of a tile-sum array sits: at `(t, r, 0)`. -/
theorem emb4 (t : Fin cfg0.N) (u : Fin 1) (r : Fin 64) (z : Fin 1) (t' : Fin (4 * 8)) (ht' : t'.val = t.val) :
    ((cfg0.win 4).blk t).view.emb (ix3 u r z) = (ix3 t' r z : S32x64x1.Idx) := by
  obtain ⟨-, -, -, -, -, -, -, -, -, -, e0, e1, e2, -⟩ := idx_facts t
  have hu : u.val = 0 := by omega
  refine funext fun a => Fin.ext ?_
  match a with
  | ⟨0, _⟩ => show win0_4.index t (0 : Fin 3) * 1 + 1 * u.val = t'.val; rw [e0, hu, ht']; simp
  | ⟨1, _⟩ => show win0_4.index t (1 : Fin 3) * 64 + 1 * r.val = r.val; rw [e1]; simp
  | ⟨2, _⟩ => show win0_4.index t (2 : Fin 3) * 1 + 1 * z.val = z.val; rw [e2]; simp

theorem emb5 (t : Fin cfg0.N) (u : Fin 1) (r : Fin 64) (z : Fin 1) (t' : Fin (4 * 8)) (ht' : t'.val = t.val) :
    ((cfg0.win 5).blk t).view.emb (ix3 u r z) = (ix3 t' r z : S32x64x1.Idx) := by
  obtain ⟨-, -, -, -, -, -, -, -, -, -, -, -, -, e0, e1, e2⟩ := idx_facts t
  have hu : u.val = 0 := by omega
  refine funext fun a => Fin.ext ?_
  match a with
  | ⟨0, _⟩ => show win0_5.index t (0 : Fin 3) * 1 + 1 * u.val = t'.val; rw [e0, hu, ht']; simp
  | ⟨1, _⟩ => show win0_5.index t (1 : Fin 3) * 64 + 1 * r.val = r.val; rw [e1]; simp
  | ⟨2, _⟩ => show win0_5.index t (2 : Fin 3) * 1 + 1 * z.val = z.val; rw [e2]; simp

/-- What point `t` writes back to the array of partial sums is block `t` of the convolution's tile sums. -/
theorem flushed4_eq (c : Dev nD) (t : Fin cfg0.N) :
    (dat0 V c).flushed 4 t = ((cfg0.win 4).blk t).view.read (Elt Ideal)
      (tileSums 8 4096 rfl (convY (V c main_v3) (V c main_v5) (V c main_v6))) := by
  show (cfg0.win 4).cut (grid0.coords t) ((dat0 V c).after 4 t) = _
  rw [after0_4]
  unfold out0_4
  rw [View.canon_unit_zero hz3]
  simp only [View.ld_unit_zero (S := S64x256) hz2, View.ld_unit_zero (S := S1x256x4096) hz3, View.ld_unit_zero (S := S64x1) hz2]
  have ht := lt_N t
  funext j
  obtain ⟨u, r, z, rfl⟩ : ∃ (u : Fin 1) (r : Fin 64) (z : Fin 1), j = ix3 u r z := ⟨j 0, j 1, j 2, eq_ix3 j⟩
  refine (pay3_apply (iblk0 V c 1 t) (iblk0 V c 0 t) (iblk0 V c 2 t) u r z).trans ?_
  show _ = tileSums 8 4096 rfl (convY (V c main_v3) (V c main_v5) (V c main_v6)) (((cfg0.win 4).blk t).view.emb (ix3 u r z))
  rw [emb4 t u r z ⟨t.val, by omega⟩ rfl, tileSums_apply]
  refine Finset.sum_congr rfl fun l _ => ?_
  refine tile_eq V c t r l _ _ rfl ?_
  rw [tilePos_val]
  show l.val + 4096 * (t.val % 8) = t.val % 8 * 4096 + l.val
  omega

/-- What point `t` writes back to the array of partial sums of squares is block `t` of the tile sums of the squares. -/
theorem flushed5_eq (c : Dev nD) (t : Fin cfg0.N) :
    (dat0 V c).flushed 5 t = ((cfg0.win 5).blk t).view.read (Elt Ideal)
      (tileSums 8 4096 rfl (fun i => convY (V c main_v3) (V c main_v5) (V c main_v6) i * convY (V c main_v3) (V c main_v5) (V c main_v6) i)) := by
  show (cfg0.win 5).cut (grid0.coords t) ((dat0 V c).after 5 t) = _
  rw [after0_5]
  unfold out0_5
  rw [View.canon_unit_zero hz3]
  simp only [View.ld_unit_zero (S := S64x256) hz2, View.ld_unit_zero (S := S1x256x4096) hz3, View.ld_unit_zero (S := S64x1) hz2]
  have ht := lt_N t
  funext j
  obtain ⟨u, r, z, rfl⟩ : ∃ (u : Fin 1) (r : Fin 64) (z : Fin 1), j = ix3 u r z := ⟨j 0, j 1, j 2, eq_ix3 j⟩
  refine (pay4_apply (iblk0 V c 1 t) (iblk0 V c 0 t) (iblk0 V c 2 t) u r z).trans ?_
  show _ = tileSums 8 4096 rfl (fun i => convY (V c main_v3) (V c main_v5) (V c main_v6) i * convY (V c main_v3) (V c main_v5) (V c main_v6) i) (((cfg0.win 5).blk t).view.emb (ix3 u r z))
  rw [emb5 t u r z ⟨t.val, by omega⟩ rfl, tileSums_apply]
  refine Finset.sum_congr rfl fun l _ => ?_
  have e := tile_eq V c t r l (Fin.divNat (⟨t.val, by omega⟩ : Fin (4 * 8))) (tilePos (rfl : 8 * 4096 = 32768) (Fin.modNat (⟨t.val, by omega⟩ : Fin (4 * 8))) l) rfl
    (by rw [tilePos_val]; show l.val + 4096 * (t.val % 8) = t.val % 8 * 4096 + l.val; omega)
  rw [e]

/-- When the region ends, its second output array is the tile sums of the convolution's output, -/
theorem final4 (c : Dev nD) :
    (dat0 V c).arrAt 4 cfg0.N = tileSums 8 4096 rfl (convY (V c main_v3) (V c main_v5) (V c main_v6)) :=
  (dat0 V c).arrAt_eq_of_cover 4 (tileSums 8 4096 rfl (convY (V c main_v3) (V c main_v5) (V c main_v6))) (fun t _ => flushed4_eq V c t) cover4

/-- and its third the tile sums of the squares. -/
theorem final5 (c : Dev nD) :
    (dat0 V c).arrAt 5 cfg0.N = tileSums 8 4096 rfl (fun i => convY (V c main_v3) (V c main_v5) (V c main_v6) i * convY (V c main_v3) (V c main_v5) (V c main_v6) i) :=
  (dat0 V c).arrAt_eq_of_cover 5 (tileSums 8 4096 rfl (fun i => convY (V c main_v3) (V c main_v5) (V c main_v6) i * convY (V c main_v3) (V c main_v5) (V c main_v6) i))
    (fun t _ => flushed5_eq V c t) cover5

end Cert.KernelIdeal.Region0

end
-- ==== Proof.KRegion1.lean ====
/-
  The second kernel region, read as a value: what its output array holds when it ends, as a function of the four
  arrays it reads — whatever those hold when the region is entered.

  Point `t` of the 32 stands for image `t / 8` and tile `t % 8` of 4096 positions. The body reads the tile of the
  convolution's output, the whole scale and shift columns and the slope, and writes the leaky rectifier of the affine
  image of the tile into the same block `(t / 8, 0, t % 8)` of the output array. The blocks are disjoint and fill the
  array, so when the region ends the array is `bnOut` of the four arrays read.
-/
import proofs.«169852_g2000005830330328_pallasbulk_421_3_alg».proof.Proof.Gen.KernelIdeal.Frame
import proofs.«169852_g2000005830330328_pallasbulk_421_3_alg».proof.Proof.KPayload
import proofs.«169852_g2000005830330328_pallasbulk_421_3_alg».proof.Proof.Spec
import Idealize.ShloMosaic.Lib.Pipeline.Value

set_option maxRecDepth 16384

noncomputable section

open scoped BigOperators

namespace Cert.KernelIdeal.Region1

open Cert.KernelIdeal Cert.KernelIdeal.Gen Cert.KernelIdeal.Payload Cert.ConvBN
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz3 : (![0, 0, 0] : Fin 3 → Nat) = fun _ => 0 := funext fun a => by fin_cases a <;> rfl

theorem lt_N (t : Fin cfg1.N) : t.val < 32 := by have h := t.isLt; have hN : cfg1.N = 32 := N_1; omega

/-- The block each window stages at point `t`, axis by axis (decided over the 32 points). -/
theorem idx_facts : ∀ t : Fin cfg1.N,
    win1_0.index t (0 : Fin 3) = t.val / 8 ∧ win1_0.index t (1 : Fin 3) = 0 ∧ win1_0.index t (2 : Fin 3) = t.val % 8
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 3) = t.val / 8 ∧ win1_4.index t (1 : Fin 3) = 0 ∧ win1_4.index t (2 : Fin 3) = t.val % 8 :=
  (by decide +kernel : ∀ t : Fin grid1.N, _)

/-! ## The input blocks, read where they sit in their arrays -/

/-- The block of the convolution's output at point `t`: image `t / 8`, the positions of tile `t % 8`. -/
theorem read_y (c : Dev nD) (t : Fin cfg1.N) (r : Fin 64) (l : Fin 4096) (n : Fin 4) (s : Fin 32768)
    (hn : n.val = t.val / 8) (hs : s.val = t.val % 8 * 4096 + l.val) :
    iblk1 V c 0 t (ix3 (0 : Fin 1) r l) = V c main_v7_0 (ix3 n r s) := by
  obtain ⟨e0, e1, e2, -⟩ := idx_facts t
  show V c main_v7_0 (((cfg1.win 0).blk t).view.emb (ix3 (0 : Fin 1) r l)) = V c main_v7_0 (ix3 n r s)
  refine congrArg (V c main_v7_0) (funext fun a => Fin.ext ?_)
  match a with
  | ⟨0, _⟩ => show win1_0.index t (0 : Fin 3) * 1 + 1 * (0 : Fin 1).val = n.val; rw [e0, hn]; simp
  | ⟨1, _⟩ => show win1_0.index t (1 : Fin 3) * 64 + 1 * r.val = r.val; rw [e1]; simp
  | ⟨2, _⟩ => show win1_0.index t (2 : Fin 3) * 4096 + 1 * l.val = s.val; rw [e2, hs]; omega

/-- The scale block is the whole scale column at every point. -/
theorem read_scale (c : Dev nD) (t : Fin cfg1.N) (r : Fin 64) :
    iblk1 V c 1 t (ix2 r (0 : Fin 1)) = V c main_v22 (ix2 r (0 : Fin 1)) := by
  obtain ⟨-, -, -, e0, e1, -⟩ := idx_facts t
  show V c main_v22 (((cfg1.win 1).blk t).view.emb (ix2 r (0 : Fin 1))) = V c main_v22 (ix2 r (0 : Fin 1))
  refine congrArg (V c main_v22) (funext fun a => Fin.ext ?_)
  match a with
  | ⟨0, _⟩ => show win1_1.index t (0 : Fin 2) * 64 + 1 * r.val = r.val; rw [e0]; simp
  | ⟨1, _⟩ => show win1_1.index t (1 : Fin 2) * 1 + 1 * (0 : Fin 1).val = (0 : Fin 1).val; rw [e1]; simp

/-- The shift block is the whole shift column at every point. -/
theorem read_shift (c : Dev nD) (t : Fin cfg1.N) (r : Fin 64) :
    iblk1 V c 2 t (ix2 r (0 : Fin 1)) = V c main_v26 (ix2 r (0 : Fin 1)) := by
  obtain ⟨-, -, -, -, -, e0, e1, -⟩ := idx_facts t
  show V c main_v26 (((cfg1.win 2).blk t).view.emb (ix2 r (0 : Fin 1))) = V c main_v26 (ix2 r (0 : Fin 1))
  refine congrArg (V c main_v26) (funext fun a => Fin.ext ?_)
  match a with
  | ⟨0, _⟩ => show win1_2.index t (0 : Fin 2) * 64 + 1 * r.val = r.val; rw [e0]; simp
  | ⟨1, _⟩ => show win1_2.index t (1 : Fin 2) * 1 + 1 * (0 : Fin 1).val = (0 : Fin 1).val; rw [e1]; simp

/-- The slope block is the one slope at every point. -/
theorem read_slope (c : Dev nD) (t : Fin cfg1.N) :
    iblk1 V c 3 t (ix2 (0 : Fin 1) (0 : Fin 1)) = V c main_arg5 (ix2 (0 : Fin 1) (0 : Fin 1)) := by
  obtain ⟨-, -, -, -, -, -, -, e0, e1, -⟩ := idx_facts t
  show V c main_arg5 (((cfg1.win 3).blk t).view.emb (ix2 (0 : Fin 1) (0 : Fin 1))) = V c main_arg5 (ix2 (0 : Fin 1) (0 : Fin 1))
  refine congrArg (V c main_arg5) (funext fun a => Fin.ext ?_)
  match a with
  | ⟨0, _⟩ => show win1_3.index t (0 : Fin 2) * 1 + 1 * (0 : Fin 1).val = (0 : Fin 1).val; rw [e0]; simp
  | ⟨1, _⟩ => show win1_3.index t (1 : Fin 2) * 1 + 1 * (0 : Fin 1).val = (0 : Fin 1).val; rw [e1]; simp

/-! ## The output array -/

/-- What point `t` writes back is block `t` of `bnOut` of the four arrays read. -/
theorem flushed4_eq (c : Dev nD) (t : Fin cfg1.N) :
    (dat1 V c).flushed 4 t = ((cfg1.win 4).blk t).view.read (Elt Ideal) (bnOut (V c main_v7_0) (V c main_v22) (V c main_v26) (V c main_arg5)) := by
  show (cfg1.win 4).cut (grid1.coords t) ((dat1 V c).after 4 t) = _
  rw [after1_4]
  unfold out1_4
  rw [View.canon_unit_zero hz3]
  simp only [View.ld_unit_zero (S := S1x64x4096) hz3, View.ld_unit_zero (S := S64x1) hz2, View.ld_unit_zero (S := S1x1) hz2]
  have ht := lt_N t
  obtain ⟨-, -, -, -, -, -, -, -, -, e0, e1, e2⟩ := idx_facts t
  funext j
  obtain ⟨u, r, l, rfl⟩ : ∃ (u : Fin 1) (r : Fin 64) (l : Fin 4096), j = ix3 u r l := ⟨j 0, j 1, j 2, eq_ix3 j⟩
  refine (k1_pay1_apply (iblk1 V c 0 t) (iblk1 V c 1 t) (iblk1 V c 2 t) (iblk1 V c 3 t) u r l).trans ?_
  rw [read_y V c t r l ⟨t.val / 8, by omega⟩ ⟨t.val % 8 * 4096 + l.val, by omega⟩ rfl rfl, read_scale V c t r, read_shift V c t r,
    read_slope V c t, ← bnOut_apply]
  show bnOut (V c main_v7_0) (V c main_v22) (V c main_v26) (V c main_arg5) _ = bnOut (V c main_v7_0) (V c main_v22) (V c main_v26) (V c main_arg5) (((cfg1.win 4).blk t).view.emb (ix3 u r l))
  refine congrArg (bnOut (V c main_v7_0) (V c main_v22) (V c main_v26) (V c main_arg5)) (funext fun a => Fin.ext ?_)
  have hu : u.val = 0 := by omega
  match a with
  | ⟨0, _⟩ => show t.val / 8 = win1_4.index t (0 : Fin 3) * 1 + 1 * u.val; rw [e0, hu]; simp
  | ⟨1, _⟩ => show r.val = win1_4.index t (1 : Fin 3) * 64 + 1 * r.val; rw [e1]; simp
  | ⟨2, _⟩ => show t.val % 8 * 4096 + l.val = win1_4.index t (2 : Fin 3) * 4096 + 1 * l.val; rw [e2]; omega

/-- An index of the output array is in point `t`'s block iff each coordinate is in the block's range on its axis. -/
theorem mem_blk4 (t : Fin cfg1.N) (i : S4x64x32768.Idx) :
    i ∈ ((cfg1.win 4).blk t).view.set ↔ ∀ a : Fin 3, win1_4.index t a * S1x64x4096.size a ≤ (i a).val ∧ (i a).val < win1_4.index t a * S1x64x4096.size a + S1x64x4096.size a := by
  show i ∈ ((View.whole main_v27).slice (win1_4.rect t)).set ↔ _
  rw [View.set_slice_whole, Rect.mem_set_unit]
  exact Iff.rfl

/-- Every index of the output array is in the block of the point of its image and its position's tile. -/
theorem cover4 (i : S4x64x32768.Idx) : ∃ t : Fin cfg1.N, (cfg1.win 4).flush t = true ∧ i ∈ ((cfg1.win 4).blk t).view.set := by
  have h0 : (i 0).val < 4 := (i 0).isLt
  have h1 : (i 1).val < 64 := (i 1).isLt
  have h2 : (i 2).val < 32768 := (i 2).isLt
  have hN : cfg1.N = 32 := N_1
  refine ⟨⟨(i 0).val * 8 + (i 2).val / 4096, by rw [hN]; omega⟩, flush1_4 _, ?_⟩
  obtain ⟨-, -, -, -, -, -, -, -, -, e0, e1, e2⟩ := idx_facts ⟨(i 0).val * 8 + (i 2).val / 4096, by rw [hN]; omega⟩
  rw [mem_blk4]
  intro a
  match a with
  | ⟨0, _⟩ =>
    show win1_4.index _ (0 : Fin 3) * 1 ≤ (i 0).val ∧ (i 0).val < win1_4.index _ (0 : Fin 3) * 1 + 1
    rw [e0]; show ((i 0).val * 8 + (i 2).val / 4096) / 8 * 1 ≤ (i 0).val ∧ (i 0).val < ((i 0).val * 8 + (i 2).val / 4096) / 8 * 1 + 1; omega
  | ⟨1, _⟩ =>
    show win1_4.index _ (1 : Fin 3) * 64 ≤ (i 1).val ∧ (i 1).val < win1_4.index _ (1 : Fin 3) * 64 + 64
    rw [e1]; omega
  | ⟨2, _⟩ =>
    show win1_4.index _ (2 : Fin 3) * 4096 ≤ (i 2).val ∧ (i 2).val < win1_4.index _ (2 : Fin 3) * 4096 + 4096
    rw [e2]; show ((i 0).val * 8 + (i 2).val / 4096) % 8 * 4096 ≤ (i 2).val ∧ (i 2).val < ((i 0).val * 8 + (i 2).val / 4096) % 8 * 4096 + 4096; omega

/-- When the region ends, its output array is `bnOut` of the arrays it read. -/
theorem final4 (c : Dev nD) : (dat1 V c).arrAt 4 cfg1.N = bnOut (V c main_v7_0) (V c main_v22) (V c main_v26) (V c main_arg5) :=
  (dat1 V c).arrAt_eq_of_cover 4 (bnOut (V c main_v7_0) (V c main_v22) (V c main_v26) (V c main_arg5)) (fun t _ => flushed4_eq V c t) cover4

end Cert.KernelIdeal.Region1

end
-- ==== Proof.KHost.lean ====
/-
  The program's result as a function of its arguments.

  Each stretch of host operations is read over an arbitrary assignment `W` of contents to the buffers: the stretch
  before the first region lays the input out as patches, the weights as a matrix and the bias as a column; the stretch
  between the regions sums the two arrays of tile sums over their first and last axes and turns the two channel sums,
  with `γ` and `β`, into the scale and shift columns, leaving the convolution's output and the slope alone; the last
  operation unfolds the positions. Chained along the run's boundaries with what the two regions leave in their output
  arrays, the result array ends at `forward` of the six arguments: the tile sums, summed by the host, are the channel
  sums whatever the tiling.
-/
import proofs.«169852_g2000005830330328_pallasbulk_421_3_alg».proof.Proof.KRun
import proofs.«169852_g2000005830330328_pallasbulk_421_3_alg».proof.Proof.KRegion0
import proofs.«169852_g2000005830330328_pallasbulk_421_3_alg».proof.Proof.KRegion1
import proofs.«169852_g2000005830330328_pallasbulk_421_3_alg».proof.Proof.Spec
import Idealize.ShloMosaic.Lib.StableHlo.Run

set_option maxRecDepth 16384

noncomputable section

namespace Cert.KernelIdeal.HostValue

open Cert.KernelIdeal Cert.KernelIdeal.Gen Cert.ConvBN
open Idealize.ShloMosaic Idealize.ShloMosaic.TcCoe Idealize.ShloMosaic.ValueIdx Idealize.SL.Sem

/-- The shape relations of the re-layings, as the program states them. -/
theorem layouts : Layouts :=
  ⟨shapeCasts_S4x32x64x64x64_S4x32x32x2x32x2x32x2, transposes_S4x32x32x2x32x2x32x2_S4x32x2x2x2x32x32x32_0_1_3_5_7_2_4_6,
    shapeCasts_S4x32x2x2x2x32x32x32_S4x256x32768, shapeCasts_S64x32x2x2x2_S64x256, shapeCasts_S64_S64x1, bcast_S_S64,
    shapeCasts_S4x64x32768_S4x64x32x32x32⟩

section Stretches

variable (W : Valuation τ sig (Elt Ideal))

/-! ## Before the first region -/

theorem pre_patches : StableHlo.after (hostOps0 (F := Ideal)) W (Proc.devRef .tc main_v3) = patches layouts (W (Proc.devRef .tc main_arg0)) := by
  dsimp only [hostOps0]; after_results; rfl

theorem pre_wmat : StableHlo.after (hostOps0 (F := Ideal)) W (Proc.devRef .tc main_v5) = wmat layouts (W (Proc.devRef .tc main_arg1)) := by
  dsimp only [hostOps0]; after_results; rfl

theorem pre_bcol : StableHlo.after (hostOps0 (F := Ideal)) W (Proc.devRef .tc main_v6) = bcol layouts (W (Proc.devRef .tc main_arg2)) := by
  dsimp only [hostOps0]; after_results; rfl

theorem pre_keep3 : StableHlo.after (hostOps0 (F := Ideal)) W (Proc.devRef .tc main_arg3) = W (Proc.devRef .tc main_arg3) :=
  StableHlo.after_of_forall_not_mem (b := Proc.devRef .tc main_arg3) _ _ (List.forall_iff_forall_mem.mp (by
    simp only [hostOps0, List.Forall, StableHlo.nullary_writes, StableHlo.unary_writes, StableHlo.binary_writes, StableHlo.reshape_writes, Finset.mem_singleton]
    repeat' apply And.intro
    all_goals exact StableHlo.devRef_ne_of_ne (by decide)))

theorem pre_keep4 : StableHlo.after (hostOps0 (F := Ideal)) W (Proc.devRef .tc main_arg4) = W (Proc.devRef .tc main_arg4) :=
  StableHlo.after_of_forall_not_mem (b := Proc.devRef .tc main_arg4) _ _ (List.forall_iff_forall_mem.mp (by
    simp only [hostOps0, List.Forall, StableHlo.nullary_writes, StableHlo.unary_writes, StableHlo.binary_writes, StableHlo.reshape_writes, Finset.mem_singleton]
    repeat' apply And.intro
    all_goals exact StableHlo.devRef_ne_of_ne (by decide)))

theorem pre_keep5 : StableHlo.after (hostOps0 (F := Ideal)) W (Proc.devRef .tc main_arg5) = W (Proc.devRef .tc main_arg5) :=
  StableHlo.after_of_forall_not_mem (b := Proc.devRef .tc main_arg5) _ _ (List.forall_iff_forall_mem.mp (by
    simp only [hostOps0, List.Forall, StableHlo.nullary_writes, StableHlo.unary_writes, StableHlo.binary_writes, StableHlo.reshape_writes, Finset.mem_singleton]
    repeat' apply And.intro
    all_goals exact StableHlo.devRef_ne_of_ne (by decide)))

/-! ## Between the regions -/

theorem mid_scale : StableHlo.after (hostOps1 (F := Ideal)) W (Proc.devRef .tc main_v22)
    = bnScale layouts.bc layouts.col
        (Host.reduceAdd (F := Ideal) (W (Proc.devRef .tc main_v7_1)) (constant (F := Ideal) S_ .f32 0x00000000#32) reducesTo_S32x64x1_S64_d0_2 h_S_)
        (Host.reduceAdd (F := Ideal) (W (Proc.devRef .tc main_v7_2)) (constant (F := Ideal) S_ .f32 0x00000000#32) reducesTo_S32x64x1_S64_d0_2 h_S_)
        (W (Proc.devRef .tc main_arg3)) := by
  dsimp only [hostOps1]; after_results_simp; rfl

theorem mid_shift : StableHlo.after (hostOps1 (F := Ideal)) W (Proc.devRef .tc main_v26)
    = bnShift layouts.bc layouts.col
        (Host.reduceAdd (F := Ideal) (W (Proc.devRef .tc main_v7_1)) (constant (F := Ideal) S_ .f32 0x00000000#32) reducesTo_S32x64x1_S64_d0_2 h_S_)
        (Host.reduceAdd (F := Ideal) (W (Proc.devRef .tc main_v7_2)) (constant (F := Ideal) S_ .f32 0x00000000#32) reducesTo_S32x64x1_S64_d0_2 h_S_)
        (W (Proc.devRef .tc main_arg3)) (W (Proc.devRef .tc main_arg4)) := by
  dsimp only [hostOps1]; after_results_simp; rfl

theorem mid_keep_y : StableHlo.after (hostOps1 (F := Ideal)) W (Proc.devRef .tc main_v7_0) = W (Proc.devRef .tc main_v7_0) :=
  StableHlo.after_of_forall_not_mem (b := Proc.devRef .tc main_v7_0) _ _ (List.forall_iff_forall_mem.mp (by
    simp only [hostOps1, List.Forall, StableHlo.nullary_writes, StableHlo.unary_writes, StableHlo.binary_writes, StableHlo.reshape_writes, Finset.mem_singleton]
    repeat' apply And.intro
    all_goals exact StableHlo.devRef_ne_of_ne (by decide)))

theorem mid_keep5 : StableHlo.after (hostOps1 (F := Ideal)) W (Proc.devRef .tc main_arg5) = W (Proc.devRef .tc main_arg5) :=
  StableHlo.after_of_forall_not_mem (b := Proc.devRef .tc main_arg5) _ _ (List.forall_iff_forall_mem.mp (by
    simp only [hostOps1, List.Forall, StableHlo.nullary_writes, StableHlo.unary_writes, StableHlo.binary_writes, StableHlo.reshape_writes, Finset.mem_singleton]
    repeat' apply And.intro
    all_goals exact StableHlo.devRef_ne_of_ne (by decide)))

/-! ## After the second region -/

theorem post_result : StableHlo.after (hostOps2 (F := Ideal)) W (Proc.devRef .tc main_v28) = shapeCast SO (W (Proc.devRef .tc main_v27)) layouts.out := by
  dsimp only [hostOps2]; after_results; rfl

end Stretches

/-! ## Along the run -/

variable (m : (ℓ : Loc nD τ sig) → Buf (Elt Ideal) ℓ) (ρ : Dev nD → PrngReg)

/-- The convolution's output of the arguments. -/
abbrev yOf (c : Dev nD) : SY.Idx → EReal :=
  convY (patches layouts (m ((c : Thread nD τ).loc main_arg0))) (wmat layouts (m ((c : Thread nD τ).loc main_arg1)))
    (bcol layouts (m ((c : Thread nD τ).loc main_arg2)))

/-- At the first region's entry its three inputs are the patches, the weight matrix and the bias column. -/
theorem entry0_p (c : Dev nD) : V1 m ρ c main_v3 = patches layouts (m ((c : Thread nD τ).loc main_arg0)) := pre_patches (W0 m ρ c)
theorem entry0_w (c : Dev nD) : V1 m ρ c main_v5 = wmat layouts (m ((c : Thread nD τ).loc main_arg1)) := pre_wmat (W0 m ρ c)
theorem entry0_b (c : Dev nD) : V1 m ρ c main_v6 = bcol layouts (m ((c : Thread nD τ).loc main_arg2)) := pre_bcol (W0 m ρ c)

/-- At the first region's exit: the convolution's output and its two arrays of tile sums. -/
theorem exit0_y (c : Dev nD) : W2 m ρ c (Proc.devRef .tc main_v7_0) = yOf m c :=
  (W2_arr m ρ c 3).trans ((Region0.final3 (V1 m ρ) c).trans (by rw [entry0_p, entry0_w, entry0_b]))

theorem exit0_ps (c : Dev nD) : W2 m ρ c (Proc.devRef .tc main_v7_1) = tileSums 8 4096 rfl (yOf m c) :=
  (W2_arr m ρ c 4).trans ((Region0.final4 (V1 m ρ) c).trans (by rw [entry0_p, entry0_w, entry0_b]))

theorem exit0_pq (c : Dev nD) : W2 m ρ c (Proc.devRef .tc main_v7_2) = tileSums 8 4096 rfl (fun i => yOf m c i * yOf m c i) :=
  (W2_arr m ρ c 5).trans ((Region0.final5 (V1 m ρ) c).trans (by rw [entry0_p, entry0_w, entry0_b]))

/-- The arguments the later segments read are still as launched. -/
theorem exit0_arg3 (c : Dev nD) : W2 m ρ c (Proc.devRef .tc main_arg3) = m ((c : Thread nD τ).loc main_arg3) :=
  (W2_of_ne m ρ c main_arg3 (by decide)).trans (pre_keep3 (W0 m ρ c))
theorem exit0_arg4 (c : Dev nD) : W2 m ρ c (Proc.devRef .tc main_arg4) = m ((c : Thread nD τ).loc main_arg4) :=
  (W2_of_ne m ρ c main_arg4 (by decide)).trans (pre_keep4 (W0 m ρ c))
theorem exit0_arg5 (c : Dev nD) : W2 m ρ c (Proc.devRef .tc main_arg5) = m ((c : Thread nD τ).loc main_arg5) :=
  (W2_of_ne m ρ c main_arg5 (by decide)).trans (pre_keep5 (W0 m ρ c))

/-- At the second region's entry: the convolution's output, the scale and shift columns from the channel sums, the slope. -/
theorem entry1_y (c : Dev nD) : V3 m ρ c main_v7_0 = yOf m c := (mid_keep_y (W2 m ρ c)).trans (exit0_y m ρ c)

theorem entry1_al (c : Dev nD) : V3 m ρ c main_arg5 = m ((c : Thread nD τ).loc main_arg5) :=
  (mid_keep5 (W2 m ρ c)).trans (exit0_arg5 m ρ c)

theorem entry1_sc (c : Dev nD) : V3 m ρ c main_v22
    = bnScale layouts.bc layouts.col (chanSum (yOf m c)) (chanSq (yOf m c)) (m ((c : Thread nD τ).loc main_arg3)) := by
  refine (mid_scale (W2 m ρ c)).trans ?_
  rw [exit0_ps, exit0_pq, exit0_arg3, hostSum_tileSums, hostSum_tileSums]
  rfl

theorem entry1_sh (c : Dev nD) : V3 m ρ c main_v26
    = bnShift layouts.bc layouts.col (chanSum (yOf m c)) (chanSq (yOf m c)) (m ((c : Thread nD τ).loc main_arg3))
        (m ((c : Thread nD τ).loc main_arg4)) := by
  refine (mid_shift (W2 m ρ c)).trans ?_
  rw [exit0_ps, exit0_pq, exit0_arg3, exit0_arg4, hostSum_tileSums, hostSum_tileSums]
  rfl

/-- The result array, when @main returns, is `forward` of the six arguments. -/
theorem value (c : Dev nD) : W5 m ρ c (Proc.devRef .tc main_v28)
    = forward layouts (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (post_result (W4 m ρ c)).trans ?_
  have hout : W4 m ρ c (Proc.devRef .tc main_v27) = _ := (W4_arr m ρ c 4).trans (Region1.final4 (V3 m ρ) c)
  rw [hout, entry1_y, entry1_sc, entry1_sh, entry1_al]
  rfl

end Cert.KernelIdeal.HostValue

end
-- ==== Proof.RRun.lean ====
/-
  The program's run with every buffer's final contents named.

  @main is five segments: host operations, the first kernel region, host operations, the second kernel region, a last
  host operation. The contents of the TensorCore's buffers at each boundary are a fold from the launch memory
  (`W0` … `W5`: a stretch of host operations applies them; a region leaves its arrays at what its write-backs
  accumulate and every other buffer alone). Every weakly fair execution terminates without a fault, and in the final
  state every buffer that lives across the run holds `W5` — in particular the result array and the six arguments.
-/
import proofs.«169852_g2000005830330328_pallasbulk_421_3_alg».proof.Proof.RefFrame

set_option maxRecDepth 16384

noncomputable section

namespace Cert.ReferenceIdeal.RunValue

open Cert.ReferenceIdeal Cert.ReferenceIdeal.Gen Cert.ReferenceIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding plain
-- definitions in a metavariable's type
set_option backward.isDefEq.respectTransparency.types false in
/-- Every weakly fair execution of @main terminates, nothing faulting, and every buffer that outlives the run ends at
    the last boundary's contents `W5`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

/-- The run read at the result and at the arguments: the result array ends at `W5`'s contents of it, each argument as
    launched. -/
theorem run_result : θ_run defs (onTc (τ := τ) (main (F := F))) ⟨m, fun _ => 0, ρ⟩ (fun r => ∀ c : Dev nD,
      r.2.mem ((c.tc : Thread nD τ).loc main_v26) = W5 m ρ c (Proc.devRef .tc main_v26)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun s h c =>
      ⟨h c _ (mem_uc main_v26 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c)⟩)
    (run_all m ρ)

end Cert.ReferenceIdeal.RunValue

end
-- ==== Proof.RPayload.lean ====
/-
  The two kernel bodies' stored values, read at coordinates, at the exact values.

  First body, on a tile of 2048 positions. With `x1` the weight block `[64, 256]`, `x0` the patch block
  `[1, 256, 2048]` and `x2` the bias column `[64, 1]`, the value written to the convolution's output block at
  `(0, r, l)` is  `∑ₖ x1 (r, k) · x0 (0, k, l) + x2 (r, 0)`  (`tile`); the value written to the block of partial sums
  at `(0, r, 0)` is the sum of `tile` over the 2048 positions of row `r`, and the one written to the block of
  partial sums of squares is the sum of its squares.
  The reference multiplies the tile, before summing, by a column mask: the word of "column < 32768" turned into a
  number, the column being `2048 · j + l` for tile `j < 16` and position `l < 2048`. Every such column is below 32768,
  so the mask is `1` and, one being neutral for the product of extended reals, the masked tile is the tile.
  Second body: with `y` a block `[1, 64, 2048]` of the convolution's output, `sc`, `sh` the scale and shift columns
  and `al` the slope, the stored value at `(0, r, l)` is `z` if `z > 0` and `al · z` otherwise, `z = y · sc (r) + sh (r)`.
-/
import proofs.«169852_g2000005830330328_pallasbulk_421_3_alg».proof.Proof.Gen.ReferenceIdeal.Skeleton
import proofs.«169852_g2000005830330328_pallasbulk_421_3_alg».proof.Proof.LibRows
import proofs.«169852_g2000005830330328_pallasbulk_421_3_alg».proof.Proof.LibLayout
import proofs.«169852_g2000005830330328_pallasbulk_421_3_alg».proof.Proof.LibPlainProduct
import Idealize.ShloMosaic.Lib.Pipeline.Value
import Idealize.ShloMosaic.Lib.ValueIdx
import Idealize.ShloMosaic.Lib.ValueLayout
import Idealize.ShloMosaic.Lib.Affine
import Idealize.ShloMosaic.PureOps.Ideal.Laws

noncomputable section

open scoped BigOperators

namespace Cert.ReferenceIdeal.Payload

open Cert.ReferenceIdeal Cert.ReferenceIdeal.Gen
open Idealize.ShloMosaic Idealize.ShloMosaic.ValueIdx Idealize.ShloMosaic.PlainProduct
open Cert.LibRows Cert.LibLayout

/-- Entry `(r, l)` of a tile of the convolution's output. -/
def tile (x1 : FVec Ideal S64x256 .f32) (x0 : FVec Ideal S1x256x2048 .f32) (x2 : FVec Ideal S64x1 .f32) (r : Fin 64) (l : Fin 2048) : EReal :=
  (∑ k : Fin 256, x1 (ix2 r k) * x0 (ix3 (0 : Fin 1) k l)) + x2 (ix2 r (0 : Fin 1))

/-- The product's dimension numbers are the plain ones: rows by columns. -/
theorem dot_eq : dot_S64x256_S256x2048_S64x2048_1_0_0_1_n_n = DotDims.plain 64 256 2048 := rfl

/-- The matrix product with the bias added, at `(r, l)`. -/
theorem pay1_apply (x1 : FVec Ideal S64x256 .f32) (x0 : FVec Ideal S1x256x2048 .f32) (x2 : FVec Ideal S64x1 .f32) (r : Fin 64) (l : Fin 2048) :
    k0_pay1 (F := Ideal) x1 x0 x2 (ix2 r l) = tile x1 x0 x2 r l := by
  unfold k0_pay1 tile
  refine (addf_apply _ _ _).trans ?_
  refine congrArg₂ (· + ·) ?_ ?_
  · -- the product: rows of the weights by columns of the patches
    have e := congrFun (matmul_zero_plain (M := 64) (K := 256) (N := 2048) none
      (shapeCast S64x256 x1 shapeCasts_S64x256_S64x256) (shapeCast S256x2048 x0 shapeCasts_S1x256x2048_S256x2048)) (ix2 r l)
    refine e.trans ?_
    rw [rowsByCols_apply]
    refine Finset.sum_congr rfl fun k _ => ?_
    refine congrArg₂ (· * ·) ?_ ?_
    · rw [shapeCast_self]
    · exact shapeCast_abc_nc_apply x0 _ (0 : Fin 1) k l k (by simp)
  · -- the bias column repeated along the positions
    refine (broadcastTo_a1_ab_apply _ _ r l).trans ?_
    rw [shapeCast_self]

/-- The stored output block at `(u, r, l)`. -/
theorem pay2_apply (x1 : FVec Ideal S64x256 .f32) (x0 : FVec Ideal S1x256x2048 .f32) (x2 : FVec Ideal S64x1 .f32) (u : Fin 1) (r : Fin 64) (l : Fin 2048) :
    k0_pay2 (F := Ideal) x1 x0 x2 (ix3 u r l) = tile x1 x0 x2 r l := by
  unfold k0_pay2
  refine (shapeCast_nc_abc_apply _ _ u r l r (by have := u.isLt; omega)).trans ?_
  exact pay1_apply x1 x0 x2 r l

/-- Column `2048 · j + l` of tile `j < 16` is below 32768: the comparison's word is one. -/
theorem mask_word (j l : ℕ) (hj : j < 16) (hl : l < 2048) :
    IntOp.cmpi .slt (IntOp.addi (Scalar.muli (BitVec.ofNat 32 j) 2048#32) (BitVec.ofNat 32 l)) 32768#32 = 1#1 := by
  rw [IntOp.cmpi_slt]
  have e : IntOp.addi (Scalar.muli (BitVec.ofNat 32 j) 2048#32) (BitVec.ofNat 32 l) = BitVec.ofNat 32 (j * 2048 + l) := by
    show BitVec.ofNat 32 j * 2048#32 + BitVec.ofNat 32 l = _
    rw [BitVec.ofNat_add, BitVec.ofNat_mul]
  have hx : (BitVec.ofNat 32 (j * 2048 + l)).toNat = j * 2048 + l := by
    rw [BitVec.toNat_ofNat]; exact Nat.mod_eq_of_lt (by omega)
  rw [e, BitVec.toInt_eq_toNat_of_lt (by rw [hx]; omega), hx, show (32768#32 : BitVec 32).toInt = 32768 from by decide]
  exact_mod_cast (by omega : j * 2048 + l < 32768)

/-- The masked tile is the tile: the mask is one at every column. -/
theorem pay3_apply (i : grid0.Coords) (x1 : FVec Ideal S64x256 .f32) (x0 : FVec Ideal S1x256x2048 .f32) (x2 : FVec Ideal S64x1 .f32) (r : Fin 64) (l : Fin 2048) :
    k0_pay3 (F := Ideal) i x1 x0 x2 (ix2 r l) = tile x1 x0 x2 r l := by
  unfold k0_pay3
  dsimp only
  refine (mulf_apply _ _ _).trans ?_
  rw [pay1_apply]
  refine (congrArg (tile x1 x0 x2 r l * ·) ?_).trans (mul_one _)
  refine (broadcastTo_1b_ab_apply _ _ r l).trans ?_
  show FloatOps.sitofp (F := Ideal) .f32 ((IntOp.cmpi .slt (IntOp.addi (Scalar.muli (BitVec.ofNat 32 (i 1).val) 2048#32)
      (iota .tc S1x2048 32 [1] iota_S1x2048_d1_w32 (ix2 (0 : Fin 1) l))) 32768#32).setWidth 32) = 1
  rw [iota_single_apply]
  have hj : (i 1).val < 16 := (i 1).isLt
  rw [show ((ix2 (0 : Fin 1) l : S1x2048.Idx) 1).val = l.val from rfl, mask_word _ _ hj l.isLt]
  show ((((1#1 : BitVec 1).setWidth 32).toInt : ℝ) : EReal) = 1
  rw [show ((1#1 : BitVec 1).setWidth 32).toInt = 1 from by decide]
  simp

/-- The stored block of partial sums at `(u, r, z)`: row `r`'s sum over the tile. -/
theorem pay4_apply (i : grid0.Coords) (x1 : FVec Ideal S64x256 .f32) (x0 : FVec Ideal S1x256x2048 .f32) (x2 : FVec Ideal S64x1 .f32) (u : Fin 1) (r : Fin 64) (z : Fin 1) :
    k0_pay4 (F := Ideal) i x1 x0 x2 (ix3 u r z) = ∑ l : Fin 2048, tile x1 x0 x2 r l := by
  unfold k0_pay4
  refine (shapeCast_nc_abc_apply _ _ u r z r (by have := u.isLt; omega)).trans ?_
  refine (shapeCast_a_a1_apply _ _ r z).trans ?_
  refine (rowSum_apply (m := 64) (n := 2048) _ _ _ _ _ r).trans ?_
  exact Finset.sum_congr rfl fun l _ => pay3_apply i x1 x0 x2 r l

/-- The stored block of partial sums of squares at `(u, r, z)`. -/
theorem pay5_apply (i : grid0.Coords) (x1 : FVec Ideal S64x256 .f32) (x0 : FVec Ideal S1x256x2048 .f32) (x2 : FVec Ideal S64x1 .f32) (u : Fin 1) (r : Fin 64) (z : Fin 1) :
    k0_pay5 (F := Ideal) i x1 x0 x2 (ix3 u r z) = ∑ l : Fin 2048, tile x1 x0 x2 r l * tile x1 x0 x2 r l := by
  unfold k0_pay5
  refine (shapeCast_nc_abc_apply _ _ u r z r (by have := u.isLt; omega)).trans ?_
  refine (shapeCast_a_a1_apply _ _ r z).trans ?_
  refine (rowSum_apply (m := 64) (n := 2048) _ _ _ _ _ r).trans ?_
  refine Finset.sum_congr rfl fun l _ => ?_
  refine (mulf_apply _ _ _).trans ?_
  rw [pay3_apply]

/-- The one slope `[1, 1]` repeated over `[64, 2048]` reads the slope everywhere. -/
theorem slope_apply (al : FVec Ideal S1x1 .f32) (r : Fin 64) (l : Fin 2048) :
    broadcastTo S64x2048 al broadcasts_S1x1_S64x2048 (ix2 r l) = al (ix2 (0 : Fin 1) (0 : Fin 1)) := by
  refine broadcastTo_apply al _ (ix2 r l) (ix2 (0 : Fin 1) (0 : Fin 1)) fun ax => ?_
  match ax with
  | ⟨0, _⟩ => rfl
  | ⟨1, _⟩ => rfl

/-- The affine image `y · scale + shift` at `(r, l)`. -/
theorem affine_apply (y : FVec Ideal S1x64x2048 .f32) (sc sh : FVec Ideal S64x1 .f32) (r : Fin 64) (l : Fin 2048) :
    (addf (mulf (shapeCast S64x2048 y shapeCasts_S1x64x2048_S64x2048)
        (broadcastTo S64x2048 (shapeCast S64x1 sc shapeCasts_S64x1_S64x1) broadcasts_S64x1_S64x2048))
      (broadcastTo S64x2048 (shapeCast S64x1 sh shapeCasts_S64x1_S64x1) broadcasts_S64x1_S64x2048) : FVec Ideal S64x2048 .f32) (ix2 r l)
      = y (ix3 (0 : Fin 1) r l) * sc (ix2 r (0 : Fin 1)) + sh (ix2 r (0 : Fin 1)) := by
  refine (addf_apply _ _ _).trans ?_
  refine congrArg₂ (· + ·) ((mulf_apply _ _ _).trans (congrArg₂ (· * ·) ?_ ?_)) ?_
  · exact shapeCast_abc_nc_apply y _ (0 : Fin 1) r l r (by simp)
  · refine (broadcastTo_a1_ab_apply _ _ r l).trans ?_
    rw [shapeCast_self]
  · refine (broadcastTo_a1_ab_apply _ _ r l).trans ?_
    rw [shapeCast_self]

/-- The second body's stored block at `(u, r, l)`: the leaky rectifier of the affine image. -/
theorem k1_pay1_apply (y : FVec Ideal S1x64x2048 .f32) (sc sh : FVec Ideal S64x1 .f32) (al : FVec Ideal S1x1 .f32) (u : Fin 1) (r : Fin 64) (l : Fin 2048) :
    k1_pay1 (F := Ideal) y sc sh al (ix3 u r l)
      = Scalar.select
          (FloatOps.cmpf (F := Ideal) (φ := .f32) .ogt (y (ix3 (0 : Fin 1) r l) * sc (ix2 r (0 : Fin 1)) + sh (ix2 r (0 : Fin 1)))
            (FloatOps.ofBits (F := Ideal) .f32 0x00000000#32))
          (y (ix3 (0 : Fin 1) r l) * sc (ix2 r (0 : Fin 1)) + sh (ix2 r (0 : Fin 1)))
          (al (ix2 (0 : Fin 1) (0 : Fin 1)) * (y (ix3 (0 : Fin 1) r l) * sc (ix2 r (0 : Fin 1)) + sh (ix2 r (0 : Fin 1)))) := by
  unfold k1_pay1
  refine (shapeCast_nc_abc_apply _ _ u r l r (by have := u.isLt; omega)).trans ?_
  refine (select_apply _ _ _ _).trans ?_
  have hz := affine_apply y sc sh r l
  refine congr (congr (congrArg Scalar.select ?_) hz) ?_
  · refine (cmpf_apply _ _ _ _).trans ?_
    exact congrArg (fun a => FloatOps.cmpf (F := Ideal) (φ := .f32) .ogt a (FloatOps.ofBits (F := Ideal) .f32 0x00000000#32)) hz
  · refine (mulf_apply _ _ _).trans ?_
    exact congrArg₂ (· * ·) (slope_apply al r l) hz

end Cert.ReferenceIdeal.Payload

end
-- ==== Proof.RRegion0.lean ====
/-
  The first kernel region, read as values: what its three output arrays hold when it ends, as functions of the three
  arrays it reads — whatever those hold when the region is entered.

  The grid has 64 points, point `t` standing for image `t / 16` and tile `t % 16` of 2048 positions. At point `t` the
  body reads the whole weight matrix and bias column and the patches of its image and tile, and writes: the tile of the
  convolution's output, into block `(t / 16, 0, t % 16)` of a `[4, 64, 32768]` array; the tile's row sums and row sums
  of squares, into block `(t, 0, 0)` of two `[64, 64, 1]` arrays. The blocks of each output are disjoint and fill it,
  so when the region ends the first array is the convolution's output and the other two are its tile sums.
-/
import proofs.«169852_g2000005830330328_pallasbulk_421_3_alg».proof.Proof.RefFrame
import proofs.«169852_g2000005830330328_pallasbulk_421_3_alg».proof.Proof.RPayload
import proofs.«169852_g2000005830330328_pallasbulk_421_3_alg».proof.Proof.Spec
import Idealize.ShloMosaic.Lib.Pipeline.Value

set_option maxRecDepth 16384

noncomputable section

open scoped BigOperators

namespace Cert.ReferenceIdeal.Region0

open Cert.ReferenceIdeal Cert.ReferenceIdeal.Gen Cert.ReferenceIdeal.GenP Cert.ReferenceIdeal.Payload Cert.ConvBN Cert.LibTiles
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz3 : (![0, 0, 0] : Fin 3 → Nat) = fun _ => 0 := funext fun a => by fin_cases a <;> rfl

theorem lt_N (t : Fin cfg0.N) : t.val < 64 := by have h := t.isLt; have hN : cfg0.N = 64 := N_0; omega

/-- The block each window stages at point `t`, axis by axis (decided over the 64 points). -/
theorem idx_facts : ∀ t : Fin cfg0.N,
    win0_0.index t (0 : Fin 3) = t.val / 16 ∧ win0_0.index t (1 : Fin 3) = 0 ∧ win0_0.index t (2 : Fin 3) = t.val % 16
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val / 16 ∧ win0_3.index t (1 : Fin 3) = 0 ∧ win0_3.index t (2 : Fin 3) = t.val % 16
    ∧ win0_4.index t (0 : Fin 3) = t.val ∧ win0_4.index t (1 : Fin 3) = 0 ∧ win0_4.index t (2 : Fin 3) = 0
    ∧ win0_5.index t (0 : Fin 3) = t.val ∧ win0_5.index t (1 : Fin 3) = 0 ∧ win0_5.index t (2 : Fin 3) = 0 :=
  (by decide +kernel : ∀ t : Fin grid0.N, _)

/-! ## The input blocks, read where they sit in their arrays -/

/-- The patch block at point `t` holds the patches of image `t / 16` at the positions of tile `t % 16`. -/
theorem read_patch (c : Dev nD) (t : Fin cfg0.N) (k : Fin 256) (l : Fin 2048) (n : Fin 4) (s : Fin 32768)
    (hn : n.val = t.val / 16) (hs : s.val = t.val % 16 * 2048 + l.val) :
    iblk0 V c 0 t (ix3 (0 : Fin 1) k l) = V c main_v2 (ix3 n k s) := by
  obtain ⟨e0, e1, e2, -⟩ := idx_facts t
  show V c main_v2 (((cfg0.win 0).blk t).view.emb (ix3 (0 : Fin 1) k l)) = V c main_v2 (ix3 n k s)
  refine congrArg (V c main_v2) (funext fun a => Fin.ext ?_)
  match a with
  | ⟨0, _⟩ => show win0_0.index t (0 : Fin 3) * 1 + 1 * (0 : Fin 1).val = n.val; rw [e0, hn]; simp
  | ⟨1, _⟩ => show win0_0.index t (1 : Fin 3) * 256 + 1 * k.val = k.val; rw [e1]; simp
  | ⟨2, _⟩ => show win0_0.index t (2 : Fin 3) * 2048 + 1 * l.val = s.val; rw [e2, hs]; omega

/-- The weight block is the whole weight matrix at every point. -/
theorem read_weight (c : Dev nD) (t : Fin cfg0.N) (r : Fin 64) (k : Fin 256) :
    iblk0 V c 1 t (ix2 r k) = V c main_v3 (ix2 r k) := by
  obtain ⟨-, -, -, e0, e1, -⟩ := idx_facts t
  show V c main_v3 (((cfg0.win 1).blk t).view.emb (ix2 r k)) = V c main_v3 (ix2 r k)
  refine congrArg (V c main_v3) (funext fun a => Fin.ext ?_)
  match a with
  | ⟨0, _⟩ => show win0_1.index t (0 : Fin 2) * 64 + 1 * r.val = r.val; rw [e0]; simp
  | ⟨1, _⟩ => show win0_1.index t (1 : Fin 2) * 256 + 1 * k.val = k.val; rw [e1]; simp

/-- The bias block is the whole bias column at every point. -/
theorem read_bias (c : Dev nD) (t : Fin cfg0.N) (r : Fin 64) :
    iblk0 V c 2 t (ix2 r (0 : Fin 1)) = V c main_v4 (ix2 r (0 : Fin 1)) := by
  obtain ⟨-, -, -, -, -, e0, e1, -⟩ := idx_facts t
  show V c main_v4 (((cfg0.win 2).blk t).view.emb (ix2 r (0 : Fin 1))) = V c main_v4 (ix2 r (0 : Fin 1))
  refine congrArg (V c main_v4) (funext fun a => Fin.ext ?_)
  match a with
  | ⟨0, _⟩ => show win0_2.index t (0 : Fin 2) * 64 + 1 * r.val = r.val; rw [e0]; simp
  | ⟨1, _⟩ => show win0_2.index t (1 : Fin 2) * 1 + 1 * (0 : Fin 1).val = (0 : Fin 1).val; rw [e1]; simp

/-- So the body's tile at point `t` is the convolution's output at image `t / 16` and the tile's positions. -/
theorem tile_eq (c : Dev nD) (t : Fin cfg0.N) (r : Fin 64) (l : Fin 2048) (n : Fin 4) (s : Fin 32768)
    (hn : n.val = t.val / 16) (hs : s.val = t.val % 16 * 2048 + l.val) :
    tile (iblk0 V c 1 t) (iblk0 V c 0 t) (iblk0 V c 2 t) r l = convY (V c main_v2) (V c main_v3) (V c main_v4) (ix3 n r s) := by
  unfold tile
  rw [convY_apply]
  refine congrArg₂ (· + ·) (Finset.sum_congr rfl fun k _ => congrArg₂ (· * ·) ?_ ?_) ?_
  · exact read_weight V c t r k
  · exact read_patch V c t k l n s hn hs
  · exact read_bias V c t r

/-! ## The convolution's output array -/

/-- What point `t` writes back to the output array is block `t` of the convolution's output. -/
theorem flushed3_eq (c : Dev nD) (t : Fin cfg0.N) :
    (dat0 V c).flushed 3 t = ((cfg0.win 3).blk t).view.read (Elt Ideal) (convY (V c main_v2) (V c main_v3) (V c main_v4)) := by
  show (cfg0.win 3).cut (grid0.coords t) ((dat0 V c).after 3 t) = _
  rw [after0_3]
  unfold out0_3
  rw [View.canon_unit_zero hz3]
  simp only [View.ld_unit_zero (S := S64x256) hz2, View.ld_unit_zero (S := S1x256x2048) hz3, View.ld_unit_zero (S := S64x1) hz2]
  have ht := lt_N t
  obtain ⟨-, -, -, -, -, -, -, e0, e1, e2, -⟩ := idx_facts t
  funext j
  obtain ⟨u, r, l, rfl⟩ : ∃ (u : Fin 1) (r : Fin 64) (l : Fin 2048), j = ix3 u r l := ⟨j 0, j 1, j 2, eq_ix3 j⟩
  refine (pay2_apply (iblk0 V c 1 t) (iblk0 V c 0 t) (iblk0 V c 2 t) u r l).trans ?_
  refine (tile_eq V c t r l ⟨t.val / 16, by omega⟩ ⟨t.val % 16 * 2048 + l.val, by omega⟩ rfl rfl).trans ?_
  show convY (V c main_v2) (V c main_v3) (V c main_v4) _ = convY (V c main_v2) (V c main_v3) (V c main_v4) (((cfg0.win 3).blk t).view.emb (ix3 u r l))
  refine congrArg (convY (V c main_v2) (V c main_v3) (V c main_v4)) (funext fun a => Fin.ext ?_)
  have hu : u.val = 0 := by omega
  match a with
  | ⟨0, _⟩ => show t.val / 16 = win0_3.index t (0 : Fin 3) * 1 + 1 * u.val; rw [e0, hu]; simp
  | ⟨1, _⟩ => show r.val = win0_3.index t (1 : Fin 3) * 64 + 1 * r.val; rw [e1]; simp
  | ⟨2, _⟩ => show t.val % 16 * 2048 + l.val = win0_3.index t (2 : Fin 3) * 2048 + 1 * l.val; rw [e2]; omega

/-- An index of the output array is in point `t`'s block iff each coordinate is in the block's range on its axis. -/
theorem mem_blk3 (t : Fin cfg0.N) (i : S4x64x32768.Idx) :
    i ∈ ((cfg0.win 3).blk t).view.set ↔ ∀ a : Fin 3, win0_3.index t a * S1x64x2048.size a ≤ (i a).val ∧ (i a).val < win0_3.index t a * S1x64x2048.size a + S1x64x2048.size a := by
  show i ∈ ((View.whole main_v5_0).slice (win0_3.rect t)).set ↔ _
  rw [View.set_slice_whole, Rect.mem_set_unit]
  exact Iff.rfl

/-- Every index of the output array is in the block of the point of its image and its position's tile. -/
theorem cover3 (i : S4x64x32768.Idx) : ∃ t : Fin cfg0.N, (cfg0.win 3).flush t = true ∧ i ∈ ((cfg0.win 3).blk t).view.set := by
  have h0 : (i 0).val < 4 := (i 0).isLt
  have h1 : (i 1).val < 64 := (i 1).isLt
  have h2 : (i 2).val < 32768 := (i 2).isLt
  have hN : cfg0.N = 64 := N_0
  refine ⟨⟨(i 0).val * 16 + (i 2).val / 2048, by rw [hN]; omega⟩, flush0_3 _, ?_⟩
  obtain ⟨-, -, -, -, -, -, -, e0, e1, e2, -⟩ := idx_facts ⟨(i 0).val * 16 + (i 2).val / 2048, by rw [hN]; omega⟩
  rw [mem_blk3]
  intro a
  match a with
  | ⟨0, _⟩ =>
    show win0_3.index _ (0 : Fin 3) * 1 ≤ (i 0).val ∧ (i 0).val < win0_3.index _ (0 : Fin 3) * 1 + 1
    rw [e0]; show ((i 0).val * 16 + (i 2).val / 2048) / 16 * 1 ≤ (i 0).val ∧ (i 0).val < ((i 0).val * 16 + (i 2).val / 2048) / 16 * 1 + 1; omega
  | ⟨1, _⟩ =>
    show win0_3.index _ (1 : Fin 3) * 64 ≤ (i 1).val ∧ (i 1).val < win0_3.index _ (1 : Fin 3) * 64 + 64
    rw [e1]; omega
  | ⟨2, _⟩ =>
    show win0_3.index _ (2 : Fin 3) * 2048 ≤ (i 2).val ∧ (i 2).val < win0_3.index _ (2 : Fin 3) * 2048 + 2048
    rw [e2]; show ((i 0).val * 16 + (i 2).val / 2048) % 16 * 2048 ≤ (i 2).val ∧ (i 2).val < ((i 0).val * 16 + (i 2).val / 2048) % 16 * 2048 + 2048; omega

/-- When the region ends, its first output array is the convolution's output of the arrays it read. -/
theorem final3 (c : Dev nD) : (dat0 V c).arrAt 3 cfg0.N = convY (V c main_v2) (V c main_v3) (V c main_v4) :=
  (dat0 V c).arrAt_eq_of_cover 3 (convY (V c main_v2) (V c main_v3) (V c main_v4)) (fun t _ => flushed3_eq V c t) cover3

/-! ## The two arrays of tile sums -/

/-- An index of a tile-sum array is in point `t`'s block iff each coordinate is in the block's range on its axis. -/
theorem mem_blk4 (t : Fin cfg0.N) (i : S64x64x1.Idx) :
    i ∈ ((cfg0.win 4).blk t).view.set ↔ ∀ a : Fin 3, win0_4.index t a * S1x64x1.size a ≤ (i a).val ∧ (i a).val < win0_4.index t a * S1x64x1.size a + S1x64x1.size a := by
  show i ∈ ((View.whole main_v5_1).slice (win0_4.rect t)).set ↔ _
  rw [View.set_slice_whole, Rect.mem_set_unit]
  exact Iff.rfl

theorem mem_blk5 (t : Fin cfg0.N) (i : S64x64x1.Idx) :
    i ∈ ((cfg0.win 5).blk t).view.set ↔ ∀ a : Fin 3, win0_5.index t a * S1x64x1.size a ≤ (i a).val ∧ (i a).val < win0_5.index t a * S1x64x1.size a + S1x64x1.size a := by
  show i ∈ ((View.whole main_v5_2).slice (win0_5.rect t)).set ↔ _
  rw [View.set_slice_whole, Rect.mem_set_unit]
  exact Iff.rfl

/-- Every index `(t, c, 0)` of the array of partial sums is in point `t`'s block. -/
theorem cover4 (i : S64x64x1.Idx) : ∃ t : Fin cfg0.N, (cfg0.win 4).flush t = true ∧ i ∈ ((cfg0.win 4).blk t).view.set := by
  have h0 : (i 0).val < 64 := (i 0).isLt
  have h1 : (i 1).val < 64 := (i 1).isLt
  have h2 : (i 2).val < 1 := (i 2).isLt
  have hN : cfg0.N = 64 := N_0
  refine ⟨⟨(i 0).val, by rw [hN]; omega⟩, flush0_4 _, ?_⟩
  obtain ⟨-, -, -, -, -, -, -, -, -, -, e0, e1, e2, -⟩ := idx_facts ⟨(i 0).val, by rw [hN]; omega⟩
  rw [mem_blk4]
  intro a
  match a with
  | ⟨0, _⟩ => show win0_4.index _ (0 : Fin 3) * 1 ≤ (i 0).val ∧ (i 0).val < win0_4.index _ (0 : Fin 3) * 1 + 1; rw [e0]; show (i 0).val * 1 ≤ (i 0).val ∧ (i 0).val < (i 0).val * 1 + 1; omega
  | ⟨1, _⟩ => show win0_4.index _ (1 : Fin 3) * 64 ≤ (i 1).val ∧ (i 1).val < win0_4.index _ (1 : Fin 3) * 64 + 64; rw [e1]; omega
  | ⟨2, _⟩ => show win0_4.index _ (2 : Fin 3) * 1 ≤ (i 2).val ∧ (i 2).val < win0_4.index _ (2 : Fin 3) * 1 + 1; rw [e2]; omega

theorem cover5 (i : S64x64x1.Idx) : ∃ t : Fin cfg0.N, (cfg0.win 5).flush t = true ∧ i ∈ ((cfg0.win 5).blk t).view.set := by
  have h0 : (i 0).val < 64 := (i 0).isLt
  have h1 : (i 1).val < 64 := (i 1).isLt
  have h2 : (i 2).val < 1 := (i 2).isLt
  have hN : cfg0.N = 64 := N_0
  refine ⟨⟨(i 0).val, by rw [hN]; omega⟩, flush0_5 _, ?_⟩
  obtain ⟨-, -, -, -, -, -, -, -, -, -, -, -, -, e0, e1, e2⟩ := idx_facts ⟨(i 0).val, by rw [hN]; omega⟩
  rw [mem_blk5]
  intro a
  match a with
  | ⟨0, _⟩ => show win0_5.index _ (0 : Fin 3) * 1 ≤ (i 0).val ∧ (i 0).val < win0_5.index _ (0 : Fin 3) * 1 + 1; rw [e0]; show (i 0).val * 1 ≤ (i 0).val ∧ (i 0).val < (i 0).val * 1 + 1; omega
  | ⟨1, _⟩ => show win0_5.index _ (1 : Fin 3) * 64 ≤ (i 1).val ∧ (i 1).val < win0_5.index _ (1 : Fin 3) * 64 + 64; rw [e1]; omega
  | ⟨2, _⟩ => show win0_5.index _ (2 : Fin 3) * 1 ≤ (i 2).val ∧ (i 2).val < win0_5.index _ (2 : Fin 3) * 1 + 1; rw [e2]; omega

/-- Where point `t`'s block of a tile-sum array sits: at `(t, r, 0)`. -/
theorem emb4 (t : Fin cfg0.N) (u : Fin 1) (r : Fin 64) (z : Fin 1) (t' : Fin (4 * 16)) (ht' : t'.val = t.val) :
    ((cfg0.win 4).blk t).view.emb (ix3 u r z) = (ix3 t' r z : S64x64x1.Idx) := by
  obtain ⟨-, -, -, -, -, -, -, -, -, -, e0, e1, e2, -⟩ := idx_facts t
  have hu : u.val = 0 := by omega
  refine funext fun a => Fin.ext ?_
  match a with
  | ⟨0, _⟩ => show win0_4.index t (0 : Fin 3) * 1 + 1 * u.val = t'.val; rw [e0, hu, ht']; simp
  | ⟨1, _⟩ => show win0_4.index t (1 : Fin 3) * 64 + 1 * r.val = r.val; rw [e1]; simp
  | ⟨2, _⟩ => show win0_4.index t (2 : Fin 3) * 1 + 1 * z.val = z.val; rw [e2]; simp

theorem emb5 (t : Fin cfg0.N) (u : Fin 1) (r : Fin 64) (z : Fin 1) (t' : Fin (4 * 16)) (ht' : t'.val = t.val) :
    ((cfg0.win 5).blk t).view.emb (ix3 u r z) = (ix3 t' r z : S64x64x1.Idx) := by
  obtain ⟨-, -, -, -, -, -, -, -, -, -, -, -, -, e0, e1, e2⟩ := idx_facts t
  have hu : u.val = 0 := by omega
  refine funext fun a => Fin.ext ?_
  match a with
  | ⟨0, _⟩ => show win0_5.index t (0 : Fin 3) * 1 + 1 * u.val = t'.val; rw [e0, hu, ht']; simp
  | ⟨1, _⟩ => show win0_5.index t (1 : Fin 3) * 64 + 1 * r.val = r.val; rw [e1]; simp
  | ⟨2, _⟩ => show win0_5.index t (2 : Fin 3) * 1 + 1 * z.val = z.val; rw [e2]; simp

/-- What point `t` writes back to the array of partial sums is block `t` of the convolution's tile sums. -/
theorem flushed4_eq (c : Dev nD) (t : Fin cfg0.N) :
    (dat0 V c).flushed 4 t = ((cfg0.win 4).blk t).view.read (Elt Ideal)
      (tileSums 16 2048 rfl (convY (V c main_v2) (V c main_v3) (V c main_v4))) := by
  show (cfg0.win 4).cut (grid0.coords t) ((dat0 V c).after 4 t) = _
  rw [after0_4]
  unfold out0_4
  rw [View.canon_unit_zero hz3]
  simp only [View.ld_unit_zero (S := S64x256) hz2, View.ld_unit_zero (S := S1x256x2048) hz3, View.ld_unit_zero (S := S64x1) hz2]
  have ht := lt_N t
  funext j
  obtain ⟨u, r, z, rfl⟩ : ∃ (u : Fin 1) (r : Fin 64) (z : Fin 1), j = ix3 u r z := ⟨j 0, j 1, j 2, eq_ix3 j⟩
  refine (pay4_apply (grid0.coords t) (iblk0 V c 1 t) (iblk0 V c 0 t) (iblk0 V c 2 t) u r z).trans ?_
  show _ = tileSums 16 2048 rfl (convY (V c main_v2) (V c main_v3) (V c main_v4)) (((cfg0.win 4).blk t).view.emb (ix3 u r z))
  rw [emb4 t u r z ⟨t.val, by omega⟩ rfl, tileSums_apply]
  refine Finset.sum_congr rfl fun l _ => ?_
  refine tile_eq V c t r l _ _ rfl ?_
  rw [tilePos_val]
  show l.val + 2048 * (t.val % 16) = t.val % 16 * 2048 + l.val
  omega

/-- What point `t` writes back to the array of partial sums of squares is block `t` of the tile sums of the squares. -/
theorem flushed5_eq (c : Dev nD) (t : Fin cfg0.N) :
    (dat0 V c).flushed 5 t = ((cfg0.win 5).blk t).view.read (Elt Ideal)
      (tileSums 16 2048 rfl (fun i => convY (V c main_v2) (V c main_v3) (V c main_v4) i * convY (V c main_v2) (V c main_v3) (V c main_v4) i)) := by
  show (cfg0.win 5).cut (grid0.coords t) ((dat0 V c).after 5 t) = _
  rw [after0_5]
  unfold out0_5
  rw [View.canon_unit_zero hz3]
  simp only [View.ld_unit_zero (S := S64x256) hz2, View.ld_unit_zero (S := S1x256x2048) hz3, View.ld_unit_zero (S := S64x1) hz2]
  have ht := lt_N t
  funext j
  obtain ⟨u, r, z, rfl⟩ : ∃ (u : Fin 1) (r : Fin 64) (z : Fin 1), j = ix3 u r z := ⟨j 0, j 1, j 2, eq_ix3 j⟩
  refine (pay5_apply (grid0.coords t) (iblk0 V c 1 t) (iblk0 V c 0 t) (iblk0 V c 2 t) u r z).trans ?_
  show _ = tileSums 16 2048 rfl (fun i => convY (V c main_v2) (V c main_v3) (V c main_v4) i * convY (V c main_v2) (V c main_v3) (V c main_v4) i) (((cfg0.win 5).blk t).view.emb (ix3 u r z))
  rw [emb5 t u r z ⟨t.val, by omega⟩ rfl, tileSums_apply]
  refine Finset.sum_congr rfl fun l _ => ?_
  have e := tile_eq V c t r l (Fin.divNat (⟨t.val, by omega⟩ : Fin (4 * 16))) (tilePos (rfl : 16 * 2048 = 32768) (Fin.modNat (⟨t.val, by omega⟩ : Fin (4 * 16))) l) rfl
    (by rw [tilePos_val]; show l.val + 2048 * (t.val % 16) = t.val % 16 * 2048 + l.val; omega)
  rw [e]

/-- When the region ends, its second output array is the tile sums of the convolution's output, -/
theorem final4 (c : Dev nD) :
    (dat0 V c).arrAt 4 cfg0.N = tileSums 16 2048 rfl (convY (V c main_v2) (V c main_v3) (V c main_v4)) :=
  (dat0 V c).arrAt_eq_of_cover 4 (tileSums 16 2048 rfl (convY (V c main_v2) (V c main_v3) (V c main_v4))) (fun t _ => flushed4_eq V c t) cover4

/-- and its third the tile sums of the squares. -/
theorem final5 (c : Dev nD) :
    (dat0 V c).arrAt 5 cfg0.N = tileSums 16 2048 rfl (fun i => convY (V c main_v2) (V c main_v3) (V c main_v4) i * convY (V c main_v2) (V c main_v3) (V c main_v4) i) :=
  (dat0 V c).arrAt_eq_of_cover 5 (tileSums 16 2048 rfl (fun i => convY (V c main_v2) (V c main_v3) (V c main_v4) i * convY (V c main_v2) (V c main_v3) (V c main_v4) i))
    (fun t _ => flushed5_eq V c t) cover5

end Cert.ReferenceIdeal.Region0

end
-- ==== Proof.RRegion1.lean ====
/-
  The second kernel region, read as a value: what its output array holds when it ends, as a function of the four
  arrays it reads — whatever those hold when the region is entered.

  Point `t` of the 64 stands for image `t / 16` and tile `t % 16` of 2048 positions. The body reads the tile of the
  convolution's output, the whole scale and shift columns and the slope, and writes the leaky rectifier of the affine
  image of the tile into the same block `(t / 16, 0, t % 16)` of the output array. The blocks are disjoint and fill the
  array, so when the region ends the array is `bnOut` of the four arrays read.
-/
import proofs.«169852_g2000005830330328_pallasbulk_421_3_alg».proof.Proof.RefFrame
import proofs.«169852_g2000005830330328_pallasbulk_421_3_alg».proof.Proof.RPayload
import proofs.«169852_g2000005830330328_pallasbulk_421_3_alg».proof.Proof.Spec
import Idealize.ShloMosaic.Lib.Pipeline.Value

set_option maxRecDepth 16384

noncomputable section

open scoped BigOperators

namespace Cert.ReferenceIdeal.Region1

open Cert.ReferenceIdeal Cert.ReferenceIdeal.Gen Cert.ReferenceIdeal.GenP Cert.ReferenceIdeal.Payload Cert.ConvBN
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz3 : (![0, 0, 0] : Fin 3 → Nat) = fun _ => 0 := funext fun a => by fin_cases a <;> rfl

theorem lt_N (t : Fin cfg1.N) : t.val < 64 := by have h := t.isLt; have hN : cfg1.N = 64 := N_1; omega

/-- The block each window stages at point `t`, axis by axis (decided over the 64 points). -/
theorem idx_facts : ∀ t : Fin cfg1.N,
    win1_0.index t (0 : Fin 3) = t.val / 16 ∧ win1_0.index t (1 : Fin 3) = 0 ∧ win1_0.index t (2 : Fin 3) = t.val % 16
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 3) = t.val / 16 ∧ win1_4.index t (1 : Fin 3) = 0 ∧ win1_4.index t (2 : Fin 3) = t.val % 16 :=
  (by decide +kernel : ∀ t : Fin grid1.N, _)

/-! ## The input blocks, read where they sit in their arrays -/

/-- The block of the convolution's output at point `t`: image `t / 16`, the positions of tile `t % 16`. -/
theorem read_y (c : Dev nD) (t : Fin cfg1.N) (r : Fin 64) (l : Fin 2048) (n : Fin 4) (s : Fin 32768)
    (hn : n.val = t.val / 16) (hs : s.val = t.val % 16 * 2048 + l.val) :
    iblk1 V c 0 t (ix3 (0 : Fin 1) r l) = V c main_v5_0 (ix3 n r s) := by
  obtain ⟨e0, e1, e2, -⟩ := idx_facts t
  show V c main_v5_0 (((cfg1.win 0).blk t).view.emb (ix3 (0 : Fin 1) r l)) = V c main_v5_0 (ix3 n r s)
  refine congrArg (V c main_v5_0) (funext fun a => Fin.ext ?_)
  match a with
  | ⟨0, _⟩ => show win1_0.index t (0 : Fin 3) * 1 + 1 * (0 : Fin 1).val = n.val; rw [e0, hn]; simp
  | ⟨1, _⟩ => show win1_0.index t (1 : Fin 3) * 64 + 1 * r.val = r.val; rw [e1]; simp
  | ⟨2, _⟩ => show win1_0.index t (2 : Fin 3) * 2048 + 1 * l.val = s.val; rw [e2, hs]; omega

/-- The scale block is the whole scale column at every point. -/
theorem read_scale (c : Dev nD) (t : Fin cfg1.N) (r : Fin 64) :
    iblk1 V c 1 t (ix2 r (0 : Fin 1)) = V c main_v20 (ix2 r (0 : Fin 1)) := by
  obtain ⟨-, -, -, e0, e1, -⟩ := idx_facts t
  show V c main_v20 (((cfg1.win 1).blk t).view.emb (ix2 r (0 : Fin 1))) = V c main_v20 (ix2 r (0 : Fin 1))
  refine congrArg (V c main_v20) (funext fun a => Fin.ext ?_)
  match a with
  | ⟨0, _⟩ => show win1_1.index t (0 : Fin 2) * 64 + 1 * r.val = r.val; rw [e0]; simp
  | ⟨1, _⟩ => show win1_1.index t (1 : Fin 2) * 1 + 1 * (0 : Fin 1).val = (0 : Fin 1).val; rw [e1]; simp

/-- The shift block is the whole shift column at every point. -/
theorem read_shift (c : Dev nD) (t : Fin cfg1.N) (r : Fin 64) :
    iblk1 V c 2 t (ix2 r (0 : Fin 1)) = V c main_v24 (ix2 r (0 : Fin 1)) := by
  obtain ⟨-, -, -, -, -, e0, e1, -⟩ := idx_facts t
  show V c main_v24 (((cfg1.win 2).blk t).view.emb (ix2 r (0 : Fin 1))) = V c main_v24 (ix2 r (0 : Fin 1))
  refine congrArg (V c main_v24) (funext fun a => Fin.ext ?_)
  match a with
  | ⟨0, _⟩ => show win1_2.index t (0 : Fin 2) * 64 + 1 * r.val = r.val; rw [e0]; simp
  | ⟨1, _⟩ => show win1_2.index t (1 : Fin 2) * 1 + 1 * (0 : Fin 1).val = (0 : Fin 1).val; rw [e1]; simp

/-- The slope block is the one slope at every point. -/
theorem read_slope (c : Dev nD) (t : Fin cfg1.N) :
    iblk1 V c 3 t (ix2 (0 : Fin 1) (0 : Fin 1)) = V c main_arg5 (ix2 (0 : Fin 1) (0 : Fin 1)) := by
  obtain ⟨-, -, -, -, -, -, -, e0, e1, -⟩ := idx_facts t
  show V c main_arg5 (((cfg1.win 3).blk t).view.emb (ix2 (0 : Fin 1) (0 : Fin 1))) = V c main_arg5 (ix2 (0 : Fin 1) (0 : Fin 1))
  refine congrArg (V c main_arg5) (funext fun a => Fin.ext ?_)
  match a with
  | ⟨0, _⟩ => show win1_3.index t (0 : Fin 2) * 1 + 1 * (0 : Fin 1).val = (0 : Fin 1).val; rw [e0]; simp
  | ⟨1, _⟩ => show win1_3.index t (1 : Fin 2) * 1 + 1 * (0 : Fin 1).val = (0 : Fin 1).val; rw [e1]; simp

/-! ## The output array -/

/-- What point `t` writes back is block `t` of `bnOut` of the four arrays read. -/
theorem flushed4_eq (c : Dev nD) (t : Fin cfg1.N) :
    (dat1 V c).flushed 4 t = ((cfg1.win 4).blk t).view.read (Elt Ideal) (bnOut (V c main_v5_0) (V c main_v20) (V c main_v24) (V c main_arg5)) := by
  show (cfg1.win 4).cut (grid1.coords t) ((dat1 V c).after 4 t) = _
  rw [after1_4]
  unfold out1_4
  rw [View.canon_unit_zero hz3]
  simp only [View.ld_unit_zero (S := S1x64x2048) hz3, View.ld_unit_zero (S := S64x1) hz2, View.ld_unit_zero (S := S1x1) hz2]
  have ht := lt_N t
  obtain ⟨-, -, -, -, -, -, -, -, -, e0, e1, e2⟩ := idx_facts t
  funext j
  obtain ⟨u, r, l, rfl⟩ : ∃ (u : Fin 1) (r : Fin 64) (l : Fin 2048), j = ix3 u r l := ⟨j 0, j 1, j 2, eq_ix3 j⟩
  refine (k1_pay1_apply (iblk1 V c 0 t) (iblk1 V c 1 t) (iblk1 V c 2 t) (iblk1 V c 3 t) u r l).trans ?_
  rw [read_y V c t r l ⟨t.val / 16, by omega⟩ ⟨t.val % 16 * 2048 + l.val, by omega⟩ rfl rfl, read_scale V c t r, read_shift V c t r,
    read_slope V c t, ← bnOut_apply]
  show bnOut (V c main_v5_0) (V c main_v20) (V c main_v24) (V c main_arg5) _ = bnOut (V c main_v5_0) (V c main_v20) (V c main_v24) (V c main_arg5) (((cfg1.win 4).blk t).view.emb (ix3 u r l))
  refine congrArg (bnOut (V c main_v5_0) (V c main_v20) (V c main_v24) (V c main_arg5)) (funext fun a => Fin.ext ?_)
  have hu : u.val = 0 := by omega
  match a with
  | ⟨0, _⟩ => show t.val / 16 = win1_4.index t (0 : Fin 3) * 1 + 1 * u.val; rw [e0, hu]; simp
  | ⟨1, _⟩ => show r.val = win1_4.index t (1 : Fin 3) * 64 + 1 * r.val; rw [e1]; simp
  | ⟨2, _⟩ => show t.val % 16 * 2048 + l.val = win1_4.index t (2 : Fin 3) * 2048 + 1 * l.val; rw [e2]; omega

/-- An index of the output array is in point `t`'s block iff each coordinate is in the block's range on its axis. -/
theorem mem_blk4 (t : Fin cfg1.N) (i : S4x64x32768.Idx) :
    i ∈ ((cfg1.win 4).blk t).view.set ↔ ∀ a : Fin 3, win1_4.index t a * S1x64x2048.size a ≤ (i a).val ∧ (i a).val < win1_4.index t a * S1x64x2048.size a + S1x64x2048.size a := by
  show i ∈ ((View.whole main_v25).slice (win1_4.rect t)).set ↔ _
  rw [View.set_slice_whole, Rect.mem_set_unit]
  exact Iff.rfl

/-- Every index of the output array is in the block of the point of its image and its position's tile. -/
theorem cover4 (i : S4x64x32768.Idx) : ∃ t : Fin cfg1.N, (cfg1.win 4).flush t = true ∧ i ∈ ((cfg1.win 4).blk t).view.set := by
  have h0 : (i 0).val < 4 := (i 0).isLt
  have h1 : (i 1).val < 64 := (i 1).isLt
  have h2 : (i 2).val < 32768 := (i 2).isLt
  have hN : cfg1.N = 64 := N_1
  refine ⟨⟨(i 0).val * 16 + (i 2).val / 2048, by rw [hN]; omega⟩, flush1_4 _, ?_⟩
  obtain ⟨-, -, -, -, -, -, -, -, -, e0, e1, e2⟩ := idx_facts ⟨(i 0).val * 16 + (i 2).val / 2048, by rw [hN]; omega⟩
  rw [mem_blk4]
  intro a
  match a with
  | ⟨0, _⟩ =>
    show win1_4.index _ (0 : Fin 3) * 1 ≤ (i 0).val ∧ (i 0).val < win1_4.index _ (0 : Fin 3) * 1 + 1
    rw [e0]; show ((i 0).val * 16 + (i 2).val / 2048) / 16 * 1 ≤ (i 0).val ∧ (i 0).val < ((i 0).val * 16 + (i 2).val / 2048) / 16 * 1 + 1; omega
  | ⟨1, _⟩ =>
    show win1_4.index _ (1 : Fin 3) * 64 ≤ (i 1).val ∧ (i 1).val < win1_4.index _ (1 : Fin 3) * 64 + 64
    rw [e1]; omega
  | ⟨2, _⟩ =>
    show win1_4.index _ (2 : Fin 3) * 2048 ≤ (i 2).val ∧ (i 2).val < win1_4.index _ (2 : Fin 3) * 2048 + 2048
    rw [e2]; show ((i 0).val * 16 + (i 2).val / 2048) % 16 * 2048 ≤ (i 2).val ∧ (i 2).val < ((i 0).val * 16 + (i 2).val / 2048) % 16 * 2048 + 2048; omega

/-- When the region ends, its output array is `bnOut` of the arrays it read. -/
theorem final4 (c : Dev nD) : (dat1 V c).arrAt 4 cfg1.N = bnOut (V c main_v5_0) (V c main_v20) (V c main_v24) (V c main_arg5) :=
  (dat1 V c).arrAt_eq_of_cover 4 (bnOut (V c main_v5_0) (V c main_v20) (V c main_v24) (V c main_arg5)) (fun t _ => flushed4_eq V c t) cover4

end Cert.ReferenceIdeal.Region1

end
-- ==== Proof.RHost.lean ====
/-
  The program's result as a function of its arguments.

  Each stretch of host operations is read over an arbitrary assignment `W` of contents to the buffers: the stretch
  before the first region lays the input out as patches, the weights as a matrix and the bias as a column; the stretch
  between the regions sums the two arrays of tile sums over their first and last axes and turns the two channel sums,
  with `γ` and `β`, into the scale and shift columns, leaving the convolution's output and the slope alone; the last
  operation unfolds the positions. Chained along the run's boundaries with what the two regions leave in their output
  arrays, the result array ends at `forward` of the six arguments: the tile sums, summed by the host, are the channel
  sums whatever the tiling.
-/
import proofs.«169852_g2000005830330328_pallasbulk_421_3_alg».proof.Proof.RRun
import proofs.«169852_g2000005830330328_pallasbulk_421_3_alg».proof.Proof.RRegion0
import proofs.«169852_g2000005830330328_pallasbulk_421_3_alg».proof.Proof.RRegion1
import proofs.«169852_g2000005830330328_pallasbulk_421_3_alg».proof.Proof.Spec
import Idealize.ShloMosaic.Lib.StableHlo.Run

set_option maxRecDepth 16384

noncomputable section

namespace Cert.ReferenceIdeal.HostValue

open Cert.ReferenceIdeal Cert.ReferenceIdeal.Gen Cert.ReferenceIdeal.GenP Cert.ConvBN
open Idealize.ShloMosaic Idealize.ShloMosaic.TcCoe Idealize.ShloMosaic.ValueIdx Idealize.SL.Sem

/-- The shape relations of the re-layings, as the program states them. -/
theorem layouts : Layouts :=
  ⟨shapeCasts_S4x32x64x64x64_S4x32x32x2x32x2x32x2, transposes_S4x32x32x2x32x2x32x2_S4x32x2x2x2x32x32x32_0_1_3_5_7_2_4_6,
    shapeCasts_S4x32x2x2x2x32x32x32_S4x256x32768, shapeCasts_S64x32x2x2x2_S64x256, shapeCasts_S64_S64x1, bcast_S_S64,
    shapeCasts_S4x64x32768_S4x64x32x32x32⟩

section Stretches

variable (W : Valuation τ sig (Elt Ideal))

/-! ## Before the first region -/

theorem pre_patches : StableHlo.after (hostOps0 (F := Ideal)) W (Proc.devRef .tc main_v2) = patches layouts (W (Proc.devRef .tc main_arg0)) := by
  dsimp only [hostOps0]; after_results; rfl

theorem pre_wmat : StableHlo.after (hostOps0 (F := Ideal)) W (Proc.devRef .tc main_v3) = wmat layouts (W (Proc.devRef .tc main_arg1)) := by
  dsimp only [hostOps0]; after_results; rfl

theorem pre_bcol : StableHlo.after (hostOps0 (F := Ideal)) W (Proc.devRef .tc main_v4) = bcol layouts (W (Proc.devRef .tc main_arg2)) := by
  dsimp only [hostOps0]; after_results; rfl

theorem pre_keep3 : StableHlo.after (hostOps0 (F := Ideal)) W (Proc.devRef .tc main_arg3) = W (Proc.devRef .tc main_arg3) :=
  StableHlo.after_of_forall_not_mem (b := Proc.devRef .tc main_arg3) _ _ (List.forall_iff_forall_mem.mp (by
    simp only [hostOps0, List.Forall, StableHlo.nullary_writes, StableHlo.unary_writes, StableHlo.binary_writes, StableHlo.reshape_writes, Finset.mem_singleton]
    repeat' apply And.intro
    all_goals exact StableHlo.devRef_ne_of_ne (by decide)))

theorem pre_keep4 : StableHlo.after (hostOps0 (F := Ideal)) W (Proc.devRef .tc main_arg4) = W (Proc.devRef .tc main_arg4) :=
  StableHlo.after_of_forall_not_mem (b := Proc.devRef .tc main_arg4) _ _ (List.forall_iff_forall_mem.mp (by
    simp only [hostOps0, List.Forall, StableHlo.nullary_writes, StableHlo.unary_writes, StableHlo.binary_writes, StableHlo.reshape_writes, Finset.mem_singleton]
    repeat' apply And.intro
    all_goals exact StableHlo.devRef_ne_of_ne (by decide)))

theorem pre_keep5 : StableHlo.after (hostOps0 (F := Ideal)) W (Proc.devRef .tc main_arg5) = W (Proc.devRef .tc main_arg5) :=
  StableHlo.after_of_forall_not_mem (b := Proc.devRef .tc main_arg5) _ _ (List.forall_iff_forall_mem.mp (by
    simp only [hostOps0, List.Forall, StableHlo.nullary_writes, StableHlo.unary_writes, StableHlo.binary_writes, StableHlo.reshape_writes, Finset.mem_singleton]
    repeat' apply And.intro
    all_goals exact StableHlo.devRef_ne_of_ne (by decide)))

/-! ## Between the regions -/

theorem mid_scale : StableHlo.after (hostOps1 (F := Ideal)) W (Proc.devRef .tc main_v20)
    = bnScale layouts.bc layouts.col
        (Host.reduceAdd (F := Ideal) (W (Proc.devRef .tc main_v5_1)) (constant (F := Ideal) S_ .f32 0x00000000#32) reducesTo_S64x64x1_S64_d0_2 h_S_)
        (Host.reduceAdd (F := Ideal) (W (Proc.devRef .tc main_v5_2)) (constant (F := Ideal) S_ .f32 0x00000000#32) reducesTo_S64x64x1_S64_d0_2 h_S_)
        (W (Proc.devRef .tc main_arg3)) := by
  dsimp only [hostOps1]; after_results_simp; rfl

theorem mid_shift : StableHlo.after (hostOps1 (F := Ideal)) W (Proc.devRef .tc main_v24)
    = bnShift layouts.bc layouts.col
        (Host.reduceAdd (F := Ideal) (W (Proc.devRef .tc main_v5_1)) (constant (F := Ideal) S_ .f32 0x00000000#32) reducesTo_S64x64x1_S64_d0_2 h_S_)
        (Host.reduceAdd (F := Ideal) (W (Proc.devRef .tc main_v5_2)) (constant (F := Ideal) S_ .f32 0x00000000#32) reducesTo_S64x64x1_S64_d0_2 h_S_)
        (W (Proc.devRef .tc main_arg3)) (W (Proc.devRef .tc main_arg4)) := by
  dsimp only [hostOps1]; after_results_simp; rfl

theorem mid_keep_y : StableHlo.after (hostOps1 (F := Ideal)) W (Proc.devRef .tc main_v5_0) = W (Proc.devRef .tc main_v5_0) :=
  StableHlo.after_of_forall_not_mem (b := Proc.devRef .tc main_v5_0) _ _ (List.forall_iff_forall_mem.mp (by
    simp only [hostOps1, List.Forall, StableHlo.nullary_writes, StableHlo.unary_writes, StableHlo.binary_writes, StableHlo.reshape_writes, Finset.mem_singleton]
    repeat' apply And.intro
    all_goals exact StableHlo.devRef_ne_of_ne (by decide)))

theorem mid_keep5 : StableHlo.after (hostOps1 (F := Ideal)) W (Proc.devRef .tc main_arg5) = W (Proc.devRef .tc main_arg5) :=
  StableHlo.after_of_forall_not_mem (b := Proc.devRef .tc main_arg5) _ _ (List.forall_iff_forall_mem.mp (by
    simp only [hostOps1, List.Forall, StableHlo.nullary_writes, StableHlo.unary_writes, StableHlo.binary_writes, StableHlo.reshape_writes, Finset.mem_singleton]
    repeat' apply And.intro
    all_goals exact StableHlo.devRef_ne_of_ne (by decide)))

/-! ## After the second region -/

theorem post_result : StableHlo.after (hostOps2 (F := Ideal)) W (Proc.devRef .tc main_v26) = shapeCast SO (W (Proc.devRef .tc main_v25)) layouts.out := by
  dsimp only [hostOps2]; after_results; rfl

end Stretches

/-! ## Along the run -/

variable (m : (ℓ : Loc nD τ sig) → Buf (Elt Ideal) ℓ) (ρ : Dev nD → PrngReg)

/-- The convolution's output of the arguments. -/
abbrev yOf (c : Dev nD) : SY.Idx → EReal :=
  convY (patches layouts (m ((c : Thread nD τ).loc main_arg0))) (wmat layouts (m ((c : Thread nD τ).loc main_arg1)))
    (bcol layouts (m ((c : Thread nD τ).loc main_arg2)))

/-- At the first region's entry its three inputs are the patches, the weight matrix and the bias column. -/
theorem entry0_p (c : Dev nD) : V1 m ρ c main_v2 = patches layouts (m ((c : Thread nD τ).loc main_arg0)) := pre_patches (W0 m ρ c)
theorem entry0_w (c : Dev nD) : V1 m ρ c main_v3 = wmat layouts (m ((c : Thread nD τ).loc main_arg1)) := pre_wmat (W0 m ρ c)
theorem entry0_b (c : Dev nD) : V1 m ρ c main_v4 = bcol layouts (m ((c : Thread nD τ).loc main_arg2)) := pre_bcol (W0 m ρ c)

/-- At the first region's exit: the convolution's output and its two arrays of tile sums. -/
theorem exit0_y (c : Dev nD) : W2 m ρ c (Proc.devRef .tc main_v5_0) = yOf m c :=
  (W2_arr m ρ c 3).trans ((Region0.final3 (V1 m ρ) c).trans (by rw [entry0_p, entry0_w, entry0_b]))

theorem exit0_ps (c : Dev nD) : W2 m ρ c (Proc.devRef .tc main_v5_1) = tileSums 16 2048 rfl (yOf m c) :=
  (W2_arr m ρ c 4).trans ((Region0.final4 (V1 m ρ) c).trans (by rw [entry0_p, entry0_w, entry0_b]))

theorem exit0_pq (c : Dev nD) : W2 m ρ c (Proc.devRef .tc main_v5_2) = tileSums 16 2048 rfl (fun i => yOf m c i * yOf m c i) :=
  (W2_arr m ρ c 5).trans ((Region0.final5 (V1 m ρ) c).trans (by rw [entry0_p, entry0_w, entry0_b]))

/-- The arguments the later segments read are still as launched. -/
theorem exit0_arg3 (c : Dev nD) : W2 m ρ c (Proc.devRef .tc main_arg3) = m ((c : Thread nD τ).loc main_arg3) :=
  (W2_of_ne m ρ c main_arg3 (by decide)).trans (pre_keep3 (W0 m ρ c))
theorem exit0_arg4 (c : Dev nD) : W2 m ρ c (Proc.devRef .tc main_arg4) = m ((c : Thread nD τ).loc main_arg4) :=
  (W2_of_ne m ρ c main_arg4 (by decide)).trans (pre_keep4 (W0 m ρ c))
theorem exit0_arg5 (c : Dev nD) : W2 m ρ c (Proc.devRef .tc main_arg5) = m ((c : Thread nD τ).loc main_arg5) :=
  (W2_of_ne m ρ c main_arg5 (by decide)).trans (pre_keep5 (W0 m ρ c))

/-- At the second region's entry: the convolution's output, the scale and shift columns from the channel sums, the slope. -/
theorem entry1_y (c : Dev nD) : V3 m ρ c main_v5_0 = yOf m c := (mid_keep_y (W2 m ρ c)).trans (exit0_y m ρ c)

theorem entry1_al (c : Dev nD) : V3 m ρ c main_arg5 = m ((c : Thread nD τ).loc main_arg5) :=
  (mid_keep5 (W2 m ρ c)).trans (exit0_arg5 m ρ c)

theorem entry1_sc (c : Dev nD) : V3 m ρ c main_v20
    = bnScale layouts.bc layouts.col (chanSum (yOf m c)) (chanSq (yOf m c)) (m ((c : Thread nD τ).loc main_arg3)) := by
  refine (mid_scale (W2 m ρ c)).trans ?_
  rw [exit0_ps, exit0_pq, exit0_arg3, hostSum_tileSums, hostSum_tileSums]
  rfl

theorem entry1_sh (c : Dev nD) : V3 m ρ c main_v24
    = bnShift layouts.bc layouts.col (chanSum (yOf m c)) (chanSq (yOf m c)) (m ((c : Thread nD τ).loc main_arg3))
        (m ((c : Thread nD τ).loc main_arg4)) := by
  refine (mid_shift (W2 m ρ c)).trans ?_
  rw [exit0_ps, exit0_pq, exit0_arg3, exit0_arg4, hostSum_tileSums, hostSum_tileSums]
  rfl

/-- The result array, when @main returns, is `forward` of the six arguments. -/
theorem value (c : Dev nD) : W5 m ρ c (Proc.devRef .tc main_v26)
    = forward layouts (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (post_result (W4 m ρ c)).trans ?_
  have hout : W4 m ρ c (Proc.devRef .tc main_v25) = _ := (W4_arr m ρ c 4).trans (Region1.final4 (V3 m ρ) c)
  rw [hout, entry1_y, entry1_sc, entry1_sh, entry1_al]
  rfl

end Cert.ReferenceIdeal.HostValue

end
-- ==== Proof.lean ====
/-
  A stride-2 2×2×2 convolution, batch normalisation with batch statistics, and a leaky rectifier with a learned slope:
  the kernel's program against its reference, at the exact values (extended reals).

  Both programs lay the input out as patches `p (n, k, s)`, multiply by the weight matrix and add the bias,
  `y (n, c, s) = ∑ₖ w (c, k) · p (n, k, s) + b (c)`, in one kernel region that also leaves per-tile sums of `y` and of `y²`;
  the host adds the tile sums up to the channel sums `S (c)`, `Q (c)` and forms `mean = S / 131072`,
  `r = rsqrt (max (Q / 131072 − mean², 0) + ε)`, `scale = γ · r`, `shift = β − mean · γ · r`; a second region writes
  `z = y · scale + shift` where `z > 0` and `α · z` elsewhere; the positions are unfolded to `[32, 32, 32]`.

  The programs differ in three ways, none of which changes an extended real. The kernel rounds the patches and the
  weights to a shorter format before the product: at the exact values a change of format is the identity. The kernel
  cuts the 32768 positions into 8 tiles of 4096, the reference into 16 tiles of 2048: the sum of the tile sums is the
  sum over all positions either way, addition of extended reals being commutative and associative (no entry need be
  finite). The reference multiplies each tile, before summing, by the indicator of "position < 32768", which is one on
  every tile, and one is neutral for the product. So both result arrays are `Cert.ConvBN.forward` of the six arguments
  (Proof/Spec.lean), and the arguments are left as they were.

  The modules: Spec (the block as functions of arrays), LibTiles (sums tile by tile; the host's sum over two axes),
  and per program Payload (the bodies' stored values at coordinates), Region0 / Region1 (what each region leaves in its
  output arrays), Run (the run with the final contents named), Host (the host operations read, and the chain from the
  arguments to the result).
-/
import proofs.«169852_g2000005830330328_pallasbulk_421_3_alg».proof.Defs
import proofs.«169852_g2000005830330328_pallasbulk_421_3_alg».proof.Proof.Gen.Kernel
import proofs.«169852_g2000005830330328_pallasbulk_421_3_alg».proof.Proof.Gen.Kernel.Frame
import proofs.«169852_g2000005830330328_pallasbulk_421_3_alg».proof.Proof.Gen.KernelIdeal
import proofs.«169852_g2000005830330328_pallasbulk_421_3_alg».proof.Proof.Gen.KernelIdeal.Frame
import proofs.«169852_g2000005830330328_pallasbulk_421_3_alg».proof.Proof.Gen.ReferenceIdeal
import proofs.«169852_g2000005830330328_pallasbulk_421_3_alg».proof.Proof.Gen.Pre_finite_inputs
import proofs.«169852_g2000005830330328_pallasbulk_421_3_alg».proof.Proof.RefFrame
import proofs.«169852_g2000005830330328_pallasbulk_421_3_alg».proof.Proof.KHost
import proofs.«169852_g2000005830330328_pallasbulk_421_3_alg».proof.Proof.RHost

noncomputable section

namespace Cert.Proof

open Idealize.ShloMosaic Idealize.ShloMosaic.TcCoe Idealize.SL.Sem Cert.ConvBN

/-- The three programs run, fault nowhere and leave their arguments as launched. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ => Cert.ReferenceIdeal.GenP.frame m ρ

/-- The idealised kernel is the kernel's own text read at the exact values: nothing was rewritten. -/
theorem preserves : Cert.preserves_Kernel_KernelIdeal := trivial

/-- From memories agreeing on the arguments both programs end with the result array at `forward` of the arguments. -/
theorem algebraic : Cert.algebraic_KernelIdeal_ReferenceIdeal := by
  intro m ρ m' ρ' _ hagree
  refine ⟨fun c => forward Cert.KernelIdeal.HostValue.layouts
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.HostValue.value m ρ c), (h c).2⟩)
      (Cert.KernelIdeal.RunValue.run_result m ρ)
  · refine (θ_run Cert.ReferenceIdeal.defs _ _).mono (fun r h c => ⟨(h c).1.trans ?_, (h c).2⟩)
      (Cert.ReferenceIdeal.RunValue.run_result m' ρ')
    have hv := Cert.ReferenceIdeal.HostValue.value m' ρ' c
    rw [(hagree c).1, (hagree c).2.1, (hagree c).2.2.1, (hagree c).2.2.2.1, (hagree c).2.2.2.2.1, (hagree c).2.2.2.2.2] at hv
    exact hv

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
